-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S100000x12 : Shape := ⟨2, ![100000, 12]⟩
abbrev S100000x10 : Shape := ⟨2, ![100000, 10]⟩
abbrev S2x3200000 : Shape := ⟨2, ![2, 3200000]⟩
abbrev S8x64 : Shape := ⟨2, ![8, 64]⟩
abbrev S64 : Shape := ⟨1, ![64]⟩
abbrev S12x64 : Shape := ⟨2, ![12, 64]⟩
abbrev S10x64 : Shape := ⟨2, ![10, 64]⟩
abbrev S192x64 : Shape := ⟨2, ![192, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S100000x12 : S_.BroadcastsInDim S100000x12 (![] : Fin 0 → Fin S100000x12.rank)
  reducesTo_S100000x12_S_d0_1 : S100000x12.ReducesTo [0, 1] S_
  bcast_S_S100000x10 : S_.BroadcastsInDim S100000x10 (![] : Fin 0 → Fin S100000x10.rank)
  reducesTo_S100000x10_S_d0_1 : S100000x10.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S12x64 : S_.BroadcastsInDim S12x64 (![] : Fin 0 → Fin S12x64.rank)
  reducesTo_S12x64_S_d0_1 : S12x64.ReducesTo [0, 1] S_
  bcast_S_S10x64 : S_.BroadcastsInDim S10x64 (![] : Fin 0 → Fin S10x64.rank)
  reducesTo_S10x64_S_d0_1 : S10x64.ReducesTo [0, 1] S_
  bcast_S_S192x64 : S_.BroadcastsInDim S192x64 (![] : Fin 0 → Fin S192x64.rank)
  reducesTo_S192x64_S_d0_1 : S192x64.ReducesTo [0, 1] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg15 : FVec F S64 .f32) (main_arg16 : FVec F S64x32 .f32) (main_arg17 : FVec F S32 .f32) (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg16
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x1 .f32) (main_arg19 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_v63 main_v67

def fn_part2 {F : FTy → Type} [FloatOps F] (main_arg8 : FVec F S10x64 .f32) (main_arg9 : FVec F S64 .f32) (main_arg10 : FVec F S192x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S10x64 .f32 := Host.absf main_arg8
  let main_cst_12 : FVec F S_ .f32 := constant S_ .f32 0x7F800000#32
  let main_v35 : FVec F S10x64 .f32 := broadcastInDim S10x64 ![] bcast_S_S10x64 main_cst_12
  let main_v36 : IVec S10x64 1 := cmpf .olt main_v34 main_v35
  let main_c_13 : IVec S_ 1 := constantI S_ 1 1#1
  let main_v37 : IVec S_ 1 := (fun x v => Host.reduce IntOp.andi x v reducesTo_S10x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x64 .f32 := Host.absf main_arg10
  let main_cst_16 : FVec F S_ .f32 := constant S_ .f32 0x7F800000#32
  let main_v45 : FVec F S192x64 .f32 := broadcastInDim S192x64 ![] bcast_S_S192x64 main_cst_16
  let main_v46 : IVec S192x64 1 := cmpf .olt main_v44 main_v45
  let main_c_17 : IVec S_ 1 := constantI S_ 1 1#1
  let main_v47 : IVec S_ 1 := (fun x v => Host.reduce IntOp.andi x v reducesTo_S192x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S12x64 .f32) (main_arg7 : FVec F S64 .f32) (main_arg8 : FVec F S10x64 .f32) (main_arg9 : FVec F S64 .f32) (main_arg10 : FVec F S192x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S12x64 .f32 := Host.absf main_arg6
  let main_cst_8 : FVec F S_ .f32 := constant S_ .f32 0x7F800000#32
  let main_v25 : FVec F S12x64 .f32 := broadcastInDim S12x64 ![] bcast_S_S12x64 main_cst_8
  let main_v26 : IVec S12x64 1 := cmpf .olt main_v24 main_v25
  let main_c_9 : IVec S_ 1 := constantI S_ 1 1#1
  let main_v27 : IVec S_ 1 := (fun x v => Host.reduce IntOp.andi x v reducesTo_S12x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x8 .f32) (main_arg1 : FVec F S100000x12 .f32) (main_arg2 : FVec F S100000x10 .f32) (main_arg3 : IVec S2x3200000 32) (main_arg4 : FVec F S8x64 .f32) (main_arg5 : FVec F S64 .f32) (main_arg6 : FVec F S12x64 .f32) (main_arg7 : FVec F S64 .f32) (main_arg8 : FVec F S10x64 .f32) (main_arg9 : FVec F S64 .f32) (main_arg10 : FVec F S192x64 .f32) (main_arg11 : FVec F S64 .f32) (main_arg12 : FVec F S64x64 .f32) (main_arg13 : FVec F S64 .f32) (main_arg14 : FVec F S64x64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x12 .f32 := Host.absf main_arg1
  let main_cst_0 : FVec F S_ .f32 := constant S_ .f32 0x7F800000#32
  let main_v5 : FVec F S100000x12 .f32 := broadcastInDim S100000x12 ![] bcast_S_S100000x12 main_cst_0
  let main_v6 : IVec S100000x12 1 := cmpf .olt main_v4 main_v5
  let main_c_1 : IVec S_ 1 := constantI S_ 1 1#1
  let main_v7 : IVec S_ 1 := (fun x v => Host.reduce IntOp.andi x v reducesTo_S100000x12_S_d0_1 h_S_) main_v6 main_c_1
  let main_v8 : IVec S_ 1 := andi main_v3 main_v7
  let main_v9 : FVec F S100000x10 .f32 := Host.absf main_arg2
  let main_cst_2 : FVec F S_ .f32 := constant S_ .f32 0x7F800000#32
  let main_v10 : FVec F S100000x10 .f32 := broadcastInDim S100000x10 ![] bcast_S_S100000x10 main_cst_2
  let main_v11 : IVec S100000x10 1 := cmpf .olt main_v9 main_v10
  let main_c_3 : IVec S_ 1 := constantI S_ 1 1#1
  let main_v12 : IVec S_ 1 := (fun x v => Host.reduce IntOp.andi x v reducesTo_S100000x10_S_d0_1 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x8 : Shape := ⟨2, ![100000, 8]⟩
abbrev S100000x12 : Shape := ⟨2, ![100000, 12]⟩
abbrev S100000x10 : Shape := ⟨2, ![100000, 10]⟩
abbrev S2x3200000 : Shape := ⟨2, ![2, 3200000]⟩
abbrev S8x64 : Shape := ⟨2, ![8, 64]⟩
abbrev S64 : Shape := ⟨1, ![64]⟩
abbrev S12x64 : Shape := ⟨2, ![12, 64]⟩
abbrev S10x64 : Shape := ⟨2, ![10, 64]⟩
abbrev S192x64 : Shape := ⟨2, ![192, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S1x64 : Shape := ⟨2, ![1, 64]⟩
abbrev S100000x192 : Shape := ⟨2, ![100000, 192]⟩
abbrev S5000x8 : Shape := ⟨2, ![5000, 8]⟩
abbrev S5000x12 : Shape := ⟨2, ![5000, 12]⟩
abbrev S5000x10 : Shape := ⟨2, ![5000, 10]⟩
abbrev S5000x192 : Shape := ⟨2, ![5000, 192]⟩
abbrev S5000x64 : Shape := ⟨2, ![5000, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S5000x1 : Shape := ⟨2, ![5000, 1]⟩
abbrev S1x32 : Shape := ⟨2, ![1, 32]⟩
abbrev S1x1 : Shape := ⟨2, ![1, 1]⟩
abbrev S5000x32 : Shape := ⟨2, ![5000, 32]⟩

abbrev nBuf : Space → Nat
  | .hbm => 153
  | .vmem => 64
  | .smem => 0
  | _ => 0

abbrev hbmTy0_0 (i : Nat) : BufTy := match i % 128 with
  | 0 => ⟨S100000x8, .f32⟩
  | 1 => ⟨S100000x12, .f32⟩
  | 2 => ⟨S100000x10, .f32⟩
  | 3 => ⟨S2x3200000, .i32⟩
  | 4 => ⟨S8x64, .f32⟩
  | 5 => ⟨S64, .f32⟩
  | 6 => ⟨S12x64, .f32⟩
  | 7 => ⟨S64, .f32⟩
  | 8 => ⟨S10x64, .f32⟩
  | 9 => ⟨S64, .f32⟩
  | 10 => ⟨S192x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x3200000, .i32⟩
  | 21 => ⟨S3200000, .i32⟩
  | 22 => ⟨S1x3200000, .i32⟩
  | 23 => ⟨S3200000, .i32⟩
  | 24 => ⟨S8x64, .bf16⟩
  | 25 => ⟨S12x64, .bf16⟩
  | 26 => ⟨S10x64, .bf16⟩
  | 27 => ⟨S1x64, .f32⟩
  | 28 => ⟨S1x64, .f32⟩
  | 29 => ⟨S1x64, .f32⟩
  | 30 => ⟨S100000x192, .f32⟩
  | 31 => ⟨S_, .f32⟩
  | 32 => ⟨S100000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S_, .f32⟩
  | 42 => ⟨S3200000, .f32⟩
  | 43 => ⟨S100000, .f32⟩
  | 44 => ⟨S_, .f32⟩
  | 45 => ⟨S100000, .f32⟩
  | 46 => ⟨S100000, .f32⟩
  | 47 => ⟨S100000, .f32⟩
  | 48 => ⟨S100000, .f32⟩
  | 49 => ⟨S100000x1, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000, .f32⟩
  | 68 => ⟨S3200000, .f32⟩
  | 69 => ⟨S3200000x1, .f32⟩
  | 70 => ⟨S192x64, .bf16⟩
  | 71 => ⟨S100000x64, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x64, .f32⟩
  | 81 => ⟨S3200000x64, .f32⟩
  | 82 => ⟨S3200000x64, .f32⟩
  | 83 => ⟨S_, .f32⟩
  | 84 => ⟨S100000x64, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S100000x64, .f32⟩
  | 94 => ⟨S1x64, .f32⟩
  | 95 => ⟨S100000x64, .f32⟩
  | 96 => ⟨S64x64, .bf16⟩
  | 97 => ⟨S100000x64, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x64, .f32⟩
  | 107 => ⟨S3200000x64, .f32⟩
  | 108 => ⟨S3200000x64, .f32⟩
  | 109 => ⟨S_, .f32⟩
  | 110 => ⟨S100000x64, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S100000x64, .f32⟩
  | 120 => ⟨S1x64, .f32⟩
  | 121 => ⟨S100000x64, .f32⟩
  | 122 => ⟨S64x64, .bf16⟩
  | 123 => ⟨S100000x64, .f32⟩
  | 124 => ⟨S_, .i32⟩
  | 125 => ⟨S3200000, .i32⟩
  | 126 => ⟨S3200000, .i1⟩
  | 127 => ⟨S_, .i32⟩
  | _ => ⟨S100000x8, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x64, .f32⟩
  | 5 => ⟨S3200000x64, .f32⟩
  | 6 => ⟨S3200000x64, .f32⟩
  | 7 => ⟨S_, .f32⟩
  | 8 => ⟨S100000x64, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S100000x64, .f32⟩
  | 18 => ⟨S1x64, .f32⟩
  | 19 => ⟨S100000x64, .f32⟩
  | 20 => ⟨S64x32, .bf16⟩
  | 21 => ⟨S32x1, .bf16⟩
  | 22 => ⟨S1x32, .f32⟩
  | 23 => ⟨S1x1, .f32⟩
  | 24 => ⟨S100000x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S5000x12, .f32⟩
  | .local _ .vmem, ⟨3, _⟩ => ⟨S5000x12, .f32⟩
  | .local _ .vmem, ⟨4, _⟩ => ⟨S5000x10, .f32⟩
  | .local _ .vmem, ⟨5, _⟩ => ⟨S5000x10, .f32⟩
  | .local _ .vmem, ⟨6, _⟩ => ⟨S8x64, .bf16⟩
  | .local _ .vmem, ⟨7, _⟩ => ⟨S1x64, .f32⟩
  | .local _ .vmem, ⟨8, _⟩ => ⟨S12x64, .bf16⟩
  | .local _ .vmem, ⟨9, _⟩ => ⟨S1x64, .f32⟩
  | .local _ .vmem, ⟨10, _⟩ => ⟨S10x64, .bf16⟩
  | .local _ .vmem, ⟨11, _⟩ => ⟨S1x64, .f32⟩
  | .local _ .vmem, ⟨12, _⟩ => ⟨S5000x192, .f32⟩
  | .local _ .vmem, ⟨13, _⟩ => ⟨S5000x192, .f32⟩
  | .local _ .vmem, ⟨14, _⟩ => ⟨S5000x192, .f32⟩
  | .local _ .vmem, ⟨15, _⟩ => ⟨S5000x192, .f32⟩
  | .local _ .vmem, ⟨16, _⟩ => ⟨S192x64, .bf16⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .bf16⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .bf16⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x32, .bf16⟩
  | .local _ .vmem, ⟨59, _⟩ => ⟨S1x32, .f32⟩
  | .local _ .vmem, ⟨60, _⟩ => ⟨S32x1, .bf16⟩
  | .local _ .vmem, ⟨61, _⟩ => ⟨S1x1, .f32⟩
  | .local _ .vmem, ⟨62, _⟩ => ⟨S5000x1, .f32⟩
  | .local _ .vmem, ⟨63, _⟩ => ⟨S5000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_c_10 : Ref sig .tc := ⟨.hbm, 85, rfl⟩
abbrev main_v53 : Ref sig .tc := ⟨.hbm, 86, rfl⟩
abbrev main_v54 : Ref sig .tc := ⟨.hbm, 87, rfl⟩
abbrev main_c_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_c_15 : Ref sig .tc := ⟨.hbm, 111, rfl⟩
abbrev main_v74 : Ref sig .tc := ⟨.hbm, 112, rfl⟩
abbrev main_v75 : Ref sig .tc := ⟨.hbm, 113, rfl⟩
abbrev main_c_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_c_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg2_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem2_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bitsLt_bf16_f32 : FTy.bits .bf16 < FTy.bits .f32
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x12_S5000x12_0_0 : ∀ a, (![0, 0] : Fin 2 → Nat) a + S5000x12.size a ≤ S5000x12.size a
  h_S5000x12 : 0 < S5000x12.numel
  inb_S12x64_S12x64_0_0 : ∀ a, (![0, 0] : Fin 2 → Nat) a + S12x64.size a ≤ S12x64.size a
  h_S12x64 : 0 < S12x64.numel
  shapeCasts_S12x64_S12x64 : S12x64.ShapeCasts S12x64
  inb_S5000x10_S5000x10_0_0 : ∀ a, (![0, 0] : Fin 2 → Nat) a + S5000x10.size a ≤ S5000x10.size a
  h_S5000x10 : 0 < S5000x10.numel
  inb_S10x64_S10x64_0_0 : ∀ a, (![0, 0] : Fin 2 → Nat) a + S10x64.size a ≤ S10x64.size a
  h_S10x64 : 0 < S10x64.numel
  shapeCasts_S10x64_S10x64 : S10x64.ShapeCasts S10x64
  inb_S5000x192_S5000x64_0_0 : ∀ a, (![0, 0] : Fin 2 → Nat) a + S5000x64.size a ≤ S5000x192.size a
  h_S5000x64 : 0 < S5000x64.numel
  inb_S5000x192_S5000x64_0_64 : ∀ a, (![0, 64] : Fin 2 → Nat) a + S5000x64.size a ≤ S5000x192.size a
  inb_S5000x192_S5000x64_0_128 : ∀ a, (![0, 128] : Fin 2 → Nat) a + S5000x64.size a ≤ S5000x192.size a
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S5000x64_S5000x64_0_0 : ∀ a, (![0, 0] : Fin 2 → Nat) a + S5000x64.size a ≤ S5000x64.size a
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x8_S8x64_S5000x64_1_0_0_1_n_n_wf : DotDims.WF S5000x8 S8x64 S5000x64 [1] [0] [0] [1] [] []
  dot_S5000x12_S12x64_S5000x64_1_0_0_1_n_n_wf : DotDims.WF S5000x12 S12x64 S5000x64 [1] [0] [0] [1] [] []
  dot_S5000x10_S10x64_S5000x64_1_0_0_1_n_n_wf : DotDims.WF S5000x10 S10x64 S5000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x192_S192x64_S5000x64_1_0_0_1_n_n_wf : DotDims.WF S5000x192 S192x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x12.size a ≤ S100000x12.size a
  hwx0_1 : ∀ i : grid0.Coords, EltTy.bits .f32 = 32 ∨ (Rect.block (s := S100000x12) S5000x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x10.size a ≤ S100000x10.size a
  hwx0_2 : ∀ i : grid0.Coords, EltTy.bits .f32 = 32 ∨ (Rect.block (s := S100000x10) S5000x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .bf16 = 32 ∨ (Rect.block (s := S8x64) S8x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x64.size a ≤ S12x64.size a
  hwx0_5 : ∀ i : grid0.Coords, EltTy.bits .bf16 = 32 ∨ (Rect.block (s := S12x64) S12x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x64.size a ≤ S10x64.size a
  hwx0_7 : ∀ i : grid0.Coords, EltTy.bits .bf16 = 32 ∨ (Rect.block (s := S10x64) S10x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x192.size a ≤ S100000x192.size a
  hwx0_9 : ∀ i : grid0.Coords, EltTy.bits .f32 = 32 ∨ (Rect.block (s := S100000x192) S5000x192.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x192.size a ≤ S100000x192.size a
  hwx1_0 : ∀ i : grid1.Coords, EltTy.bits .f32 = 32 ∨ (Rect.block (s := S100000x192) S5000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x64.size a ≤ S192x64.size a
  hwx1_1 : ∀ i : grid1.Coords, EltTy.bits .bf16 = 32 ∨ (Rect.block (s := S192x64) S192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .bf16 = 32 ∨ (Rect.block (s := S64x64) S64x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .bf16 = 32 ∨ (Rect.block (s := S64x32) S64x32.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x1.size a ≤ S32x1.size a
  hwx7_3 : ∀ i : grid7.Coords, EltTy.bits .bf16 = 32 ∨ (Rect.block (s := S32x1) S32x1.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S100000x1.size a
  hwx7_5 : ∀ i : grid7.Coords, EltTy.bits .f32 = 32 ∨ (Rect.block (s := S100000x1) S5000x1.size (cc7_transform_5 i) (hinb7_5 i)).WholeWords (EltTy.packing .f32)

variable [Facts₀]

def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x12_S12x64_S5000x64_1_0_0_1_n_n : DotDims S5000x12 S12x64 S5000x64 where
  lhsContracting := [1]
  rhsContracting := [0]
  lhsNonContracting := [0]
  rhsNonContracting := [1]
  lhsBatch := []
  rhsBatch := []
  wf := dot_S5000x12_S12x64_S5000x64_1_0_0_1_n_n_wf
def dot_S5000x10_S10x64_S5000x64_1_0_0_1_n_n : DotDims S5000x10 S10x64 S5000x64 where
  lhsContracting := [1]
  rhsContracting := [0]
  lhsNonContracting := [0]
  rhsNonContracting := [1]
  lhsBatch := []
  rhsBatch := []
  wf := dot_S5000x10_S10x64_S5000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S12x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S10x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S5000x192.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10) S5000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v82) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v101) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v24) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v102) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v103) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v106) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v105) S32x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v107) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v108) S5000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x8 : Shape := ⟨2, ![100000, 8]⟩
abbrev S100000x12 : Shape := ⟨2, ![100000, 12]⟩
abbrev S100000x10 : Shape := ⟨2, ![100000, 10]⟩
abbrev S2x3200000 : Shape := ⟨2, ![2, 3200000]⟩
abbrev S8x64 : Shape := ⟨2, ![8, 64]⟩
abbrev S64 : Shape := ⟨1, ![64]⟩
abbrev S12x64 : Shape := ⟨2, ![12, 64]⟩
abbrev S10x64 : Shape := ⟨2, ![10, 64]⟩
abbrev S192x64 : Shape := ⟨2, ![192, 64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x192 : Shape := ⟨2, ![100000, 192]⟩
abbrev S1x3200000 : Shape := ⟨2, ![1, 3200000]⟩
abbrev S3200000 : Shape := ⟨1, ![3200000]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S100000x32 : Shape := ⟨2, ![100000, 32]⟩
abbrev S1x32 : Shape := ⟨2, ![1, 32]⟩
abbrev S1x1 : Shape := ⟨2, ![1, 1]⟩

abbrev nBuf : Space → Nat
  | .hbm => 270
  | .vmem => 0
  | .smem => 0
  | _ => 0

abbrev hbmTy0_0 (i : Nat) : BufTy := match i % 128 with
  | 0 => ⟨S100000x8, .f32⟩
  | 1 => ⟨S100000x12, .f32⟩
  | 2 => ⟨S100000x10, .f32⟩
  | 3 => ⟨S2x3200000, .i32⟩
  | 4 => ⟨S8x64, .f32⟩
  | 5 => ⟨S64, .f32⟩
  | 6 => ⟨S12x64, .f32⟩
  | 7 => ⟨S64, .f32⟩
  | 8 => ⟨S10x64, .f32⟩
  | 9 => ⟨S64, .f32⟩
  | 10 => ⟨S192x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S100000x192, .f32⟩
  | 42 => ⟨S1x3200000, .i32⟩
  | 43 => ⟨S3200000, .i32⟩
  | 44 => ⟨S1x3200000, .i32⟩
  | 45 => ⟨S3200000, .i32⟩
  | 46 => ⟨S100000x64, .f32⟩
  | 47 => ⟨S_, .f32⟩
  | 48 => ⟨S100000, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S_, .f32⟩
  | 58 => ⟨S3200000, .f32⟩
  | 59 => ⟨S100000, .f32⟩
  | 60 => ⟨S_, .f32⟩
  | 61 => ⟨S100000, .f32⟩
  | 62 => ⟨S100000, .f32⟩
  | 63 => ⟨S100000, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000, .f32⟩
  | 82 => ⟨S3200000, .f32⟩
  | 83 => ⟨S_, .f32⟩
  | 84 => ⟨S100000x64, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x64, .f32⟩
  | 94 => ⟨S3200000x1, .f32⟩
  | 95 => ⟨S3200000x64, .f32⟩
  | 96 => ⟨S3200000x64, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S100000x64, .f32⟩
  | 106 => ⟨S100000, .f32⟩
  | 107 => ⟨S100000x1, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S_, .f32⟩
  | 119 => ⟨S100000, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x8, .f32⟩

abbrev hbmTy0_1 (i : Nat) : BufTy := match i % 128 with
  | 0 => ⟨S_, .f32⟩
  | 1 => ⟨S3200000, .f32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000, .f32⟩
  | 25 => ⟨S3200000, .f32⟩
  | 26 => ⟨S_, .f32⟩
  | 27 => ⟨S100000x64, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x64, .f32⟩
  | 37 => ⟨S3200000x1, .f32⟩
  | 38 => ⟨S3200000x64, .f32⟩
  | 39 => ⟨S3200000x64, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S100000x64, .f32⟩
  | 49 => ⟨S100000, .f32⟩
  | 50 => ⟨S100000x1, .f32⟩
  | 51 => ⟨S100000x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S_, .f32⟩
  | 62 => ⟨S100000, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S_, .f32⟩
  | 72 => ⟨S3200000, .f32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S3200000, .f32⟩
  | 97 => ⟨S_, .f32⟩
  | 98 => ⟨S100000x64, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x64, .f32⟩
  | 108 => ⟨S3200000x1, .f32⟩
  | 109 => ⟨S3200000x64, .f32⟩
  | 110 => ⟨S3200000x64, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S100000x64, .f32⟩
  | 120 => ⟨S100000, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x8, .f32⟩

abbrev hbmTy0_2 (i : Nat) : BufTy := match i % 128 with
  | 0 => ⟨S_, .f32⟩
  | 1 => ⟨S100000x64, .f32⟩
  | 2 => ⟨S100000x64, .f32⟩
  | 3 => ⟨S100000x32, .f32⟩
  | 4 => ⟨S1x32, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S100000x1, .f32⟩
  | 11 => ⟨S1x1, .f32⟩
  | 12 => ⟨S100000x1, .f32⟩
  | 13 => ⟨S100000x1, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_c : Ref sig .tc := ⟨.hbm, 49, rfl⟩
abbrev main_v22 : Ref sig .tc := ⟨.hbm, 50, rfl⟩
abbrev main_v23 : Ref sig .tc := ⟨.hbm, 51, rfl⟩
abbrev main_c_0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_1 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_3 : Ref sig .tc := ⟨.hbm, 64, rfl⟩
abbrev main_v33 : Ref sig .tc := ⟨.hbm, 65, rfl⟩
abbrev main_v34 : Ref sig .tc := ⟨.hbm, 66, rfl⟩
abbrev main_c_4 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_c_6 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_c_8 : Ref sig .tc := ⟨.hbm, 85, rfl⟩
abbrev main_v49 : Ref sig .tc := ⟨.hbm, 86, rfl⟩
abbrev main_v50 : Ref sig .tc := ⟨.hbm, 87, rfl⟩
abbrev main_c_9 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_10 : Ref sig .tc := ⟨.hbm, 97, rfl⟩
abbrev main_v59 : Ref sig .tc := ⟨.hbm, 98, rfl⟩
abbrev main_v60 : Ref sig .tc := ⟨.hbm, 99, rfl⟩
abbrev main_c_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call3_cst : Ref sig .tc := ⟨.hbm, 114, rfl⟩
abbrev main_call3_v0 : Ref sig .tc := ⟨.hbm, 115, rfl⟩
abbrev main_v74 : Ref sig .tc := ⟨.hbm, 116, rfl⟩
abbrev main_v75 : Ref sig .tc := ⟨.hbm, 117, rfl⟩
abbrev main_cst_12 : Ref sig .tc := ⟨.hbm, 118, rfl⟩
abbrev main_v76 : Ref sig .tc := ⟨.hbm, 119, rfl⟩
abbrev main_c_13 : Ref sig .tc := ⟨.hbm, 120, rfl⟩
abbrev main_v77 : Ref sig .tc := ⟨.hbm, 121, rfl⟩
abbrev main_v78 : Ref sig .tc := ⟨.hbm, 122, rfl⟩
abbrev main_c_14 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_15 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_17 : Ref sig .tc := ⟨.hbm, 135, rfl⟩
abbrev main_v88 : Ref sig .tc := ⟨.hbm, 136, rfl⟩
abbrev main_v89 : Ref sig .tc := ⟨.hbm, 137, rfl⟩
abbrev main_c_18 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_19 : Ref sig .tc := ⟨.hbm, 144, rfl⟩
abbrev main_v95 : Ref sig .tc := ⟨.hbm, 145, rfl⟩
abbrev main_v96 : Ref sig .tc := ⟨.hbm, 146, rfl⟩
abbrev main_c_20 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_21 : Ref sig .tc := ⟨.hbm, 154, rfl⟩
abbrev main_v103 : Ref sig .tc := ⟨.hbm, 155, rfl⟩
abbrev main_c_22 : Ref sig .tc := ⟨.hbm, 156, rfl⟩
abbrev main_v104 : Ref sig .tc := ⟨.hbm, 157, rfl⟩
abbrev main_v105 : Ref sig .tc := ⟨.hbm, 158, rfl⟩
abbrev main_c_23 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_c_24 : Ref sig .tc := ⟨.hbm, 168, rfl⟩
abbrev main_v114 : Ref sig .tc := ⟨.hbm, 169, rfl⟩
abbrev main_v115 : Ref sig .tc := ⟨.hbm, 170, rfl⟩
abbrev main_c_25 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_call4_cst : Ref sig .tc := ⟨.hbm, 185, rfl⟩
abbrev main_call4_v0 : Ref sig .tc := ⟨.hbm, 186, rfl⟩
abbrev main_v129 : Ref sig .tc := ⟨.hbm, 187, rfl⟩
abbrev main_v130 : Ref sig .tc := ⟨.hbm, 188, rfl⟩
abbrev main_cst_26 : Ref sig .tc := ⟨.hbm, 189, rfl⟩
abbrev main_v131 : Ref sig .tc := ⟨.hbm, 190, rfl⟩
abbrev main_c_27 : Ref sig .tc := ⟨.hbm, 191, rfl⟩
abbrev main_v132 : Ref sig .tc := ⟨.hbm, 192, rfl⟩
abbrev main_v133 : Ref sig .tc := ⟨.hbm, 193, rfl⟩
abbrev main_c_28 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_29 : Ref sig .tc := ⟨.hbm, 199, rfl⟩
abbrev main_v138 : Ref sig .tc := ⟨.hbm, 200, rfl⟩
abbrev main_v139 : Ref sig .tc := ⟨.hbm, 201, rfl⟩
abbrev main_cst_30 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_c_31 : Ref sig .tc := ⟨.hbm, 206, rfl⟩
abbrev main_v143 : Ref sig .tc := ⟨.hbm, 207, rfl⟩
abbrev main_v144 : Ref sig .tc := ⟨.hbm, 208, rfl⟩
abbrev main_c_32 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_c_33 : Ref sig .tc := ⟨.hbm, 215, rfl⟩
abbrev main_v150 : Ref sig .tc := ⟨.hbm, 216, rfl⟩
abbrev main_v151 : Ref sig .tc := ⟨.hbm, 217, rfl⟩
abbrev main_c_34 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_35 : Ref sig .tc := ⟨.hbm, 225, rfl⟩
abbrev main_v158 : Ref sig .tc := ⟨.hbm, 226, rfl⟩
abbrev main_c_36 : Ref sig .tc := ⟨.hbm, 227, rfl⟩
abbrev main_v159 : Ref sig .tc := ⟨.hbm, 228, rfl⟩
abbrev main_v160 : Ref sig .tc := ⟨.hbm, 229, rfl⟩
abbrev main_c_37 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_c_38 : Ref sig .tc := ⟨.hbm, 239, rfl⟩
abbrev main_v169 : Ref sig .tc := ⟨.hbm, 240, rfl⟩
abbrev main_v170 : Ref sig .tc := ⟨.hbm, 241, rfl⟩
abbrev main_c_39 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_call5_cst : Ref sig .tc := ⟨.hbm, 256, rfl⟩
abbrev main_call5_v0 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_call6_cst : Ref sig .tc := ⟨.hbm, 263, rfl⟩
abbrev main_call6_v0 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x8_S8x64_S100000x64_1_0_0_1_n_n_wf : DotDims.WF S100000x8 S8x64 S100000x64 [1] [0] [0] [1] [] []
  dot_S100000x12_S12x64_S100000x64_1_0_0_1_n_n_wf : DotDims.WF S100000x12 S12x64 S100000x64 [1] [0] [0] [1] [] []
  dot_S100000x10_S10x64_S100000x64_1_0_0_1_n_n_wf : DotDims.WF S100000x10 S10x64 S100000x64 [1] [0] [0] [1] [] []
  dot_S100000x192_S192x64_S100000x64_1_0_0_1_n_n_wf : DotDims.WF S100000x192 S192x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def dot_S100000x12_S12x64_S100000x64_1_0_0_1_n_n : DotDims S100000x12 S12x64 S100000x64 where
  lhsContracting := [1]
  rhsContracting := [0]
  lhsNonContracting := [0]
  rhsNonContracting := [1]
  lhsBatch := []
  rhsBatch := []
  wf := dot_S100000x12_S12x64_S100000x64_1_0_0_1_n_n_wf
def dot_S100000x10_S10x64_S100000x64_1_0_0_1_n_n : DotDims S100000x10 S10x64 S100000x64 where
  lhsContracting := [1]
  rhsContracting := [0]
  lhsNonContracting := [0]
  rhsNonContracting := [1]
  lhsBatch := []
  rhsBatch := []
  wf := dot_S100000x10_S10x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The run of the idealized Pallas program with its RESULT named.

  The program is eight blocked kernels among stretches of host operations.  Its memory at every boundary between two
  segments is a fold from the launch memory: a host stretch applies its operations, a kernel leaves in each of its
  output arrays what its grid points wrote back and every other buffer as it found it.  Every weakly fair execution
  terminates without a fault in a state whose unscoped buffers hold the last fold; here that is read at the result
  buffer as well as at the argument buffers, so the result array is the fold's value at the result buffer.
-/
import proofs.«172681_j28278064677000_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last fold's value there and
    the argument buffers end as launched. -/
theorem run_result : θ_run defs (onTc (τ := τ) (main (F := F))) ⟨m, fun _ => 0, ρ⟩ (fun r => ∀ c : Dev nD,
      r.2.mem ((c.tc : Thread nD τ).loc main_v108) = W16 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v108 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c)⟩)

end Cert.KernelIdeal.KRun

end
-- ==== Proof.Spec.lean ====
/-
  The function both programs compute, over the extended reals, index by index.

  A node has three groups of input features.  Each group is mapped by its own weight matrix and bias and clipped at
  zero, and the three results are laid side by side (`enc`).  Three graph layers follow.  A layer multiplies the
  node features by a weight matrix (`lin`), sends every row through the graph (`aggF`: the sum over the incoming
  edges of the normalised source rows — the layer treats it as a given function of the row matrix), adds the node's own
  row scaled by its self-loop weight (`d2`, one number per node), adds the bias and clips at zero (`comb`).  The head
  is a two-layer perceptron (`mlp`).  Only sums, products and maxima of extended reals occur, each written in one fixed
  order, so no law of arithmetic is needed to compare two programs that both compute this function.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `n` rows and `k` columns. -/
abbrev A2 (n k : Nat) := (⟨2, ![n, k]⟩ : Shape).Idx → EReal
/-- A vector of extended reals of length `n`. -/
abbrev A1 (n : Nat) := (⟨1, ![n]⟩ : Shape).Idx → EReal

/-- The zero every clipping compares with: the float word of +0. -/
abbrev zero32 : EReal := Ideal.ofBits .f32 0x00000000#32

/-- Rows times columns: entry `(r, c)` is the sum over `q` of `X (r, q) · W (q, c)`. -/
def lin {n k h : Nat} (X : A2 n k) (W : A2 k h) : A2 n h :=
  fun i => ∑ q : Fin k, X (ix2 (i 0) q) * W (ix2 q (i 1))

/-- The product plus the bias of the column. -/
def affine {n k h : Nat} (X : A2 n k) (W : A2 k h) (b : A1 h) : A2 n h :=
  fun i => lin X W i + b (ix1 (i 1))

/-- The product plus the bias, clipped at zero. -/
def dense {n k h : Nat} (X : A2 n k) (W : A2 k h) (b : A1 h) : A2 n h :=
  fun i => max (affine X W b i) zero32

/-- The three encoded feature groups side by side: columns 0–63, 64–127 and 128–191. -/
def enc (xf : A2 100000 8) (xw : A2 100000 12) (xt : A2 100000 10)
    (wf : A2 8 64) (bf : A1 64) (ww : A2 12 64) (bw : A1 64) (wt : A2 10 64) (bt : A1 64) : A2 100000 192 :=
  fun i =>
    if h0 : (i 1).val < 64 then dense xf wf bf (ix2 (i 0) (⟨(i 1).val, h0⟩ : Fin 64))
    else if h1 : (i 1).val < 128 then dense xw ww bw (ix2 (i 0) (⟨(i 1).val - 64, by omega⟩ : Fin 64))
    else dense xt wt bt (ix2 (i 0) (⟨(i 1).val - 128, by have := (i 1).isLt; simp only [Matrix.cons_val_one, Matrix.cons_val_zero] at this; omega⟩ : Fin 64))

/-- Aggregated rows plus the own row scaled by the node's self-loop weight, plus the bias, clipped at zero. -/
def comb {n h : Nat} (A H : A2 n h) (d2 : A2 n 1) (b : A1 h) : A2 n h :=
  fun i => max (A i + H i * d2 (ix2 (i 0) (0 : Fin 1)) + b (ix1 (i 1))) zero32

/-- One graph layer: the linear map, the aggregation over the graph, the combination. -/
def layer {n k h : Nat} (aggF : A2 n h → A2 n h) (d2 : A2 n 1) (X : A2 n k) (W : A2 k h) (b : A1 h) : A2 n h :=
  comb (aggF (lin X W)) (lin X W) d2 b

/-- The head: a clipped dense layer, then an affine one. -/
def mlp {n : Nat} (X : A2 n 64) (w1 : A2 64 32) (b1 : A1 32) (w2 : A2 32 1) (b2 : A1 1) : A2 n 1 :=
  affine (dense X w1 b1) w2 b2

/-- The whole network, given the graph's aggregation `aggF` and self-loop weights `d2`. -/
def net (aggF : A2 100000 64 → A2 100000 64) (d2 : A2 100000 1)
    (xf : A2 100000 8) (xw : A2 100000 12) (xt : A2 100000 10)
    (wf : A2 8 64) (bf : A1 64) (ww : A2 12 64) (bw : A1 64) (wt : A2 10 64) (bt : A1 64)
    (g0 : A2 192 64) (c0 : A1 64) (g1 : A2 64 64) (c1 : A1 64) (g2 : A2 64 64) (c2 : A1 64)
    (o1 : A2 64 32) (p1 : A1 32) (o2 : A2 32 1) (p2 : A1 1) : A2 100000 1 :=
  mlp (layer aggF d2 (layer aggF d2 (layer aggF d2 (enc xf xw xt wf bf ww bw wt bt) g0 c0) g1 c1) g2 c2) o1 p1 o2 p2

end Cert.Gcn

end
-- ==== Proof.KHost.lean ====
/-
  What the arrays hold between the blocked kernels of the idealized program.

  Between two kernels the program runs host operations on whole arrays.  From the edge list (two rows of node
  numbers, sources and targets) they compute, once, the per-node factor one over the square root of (in-degree plus
  one), its square as a column (the self-loop weight `d2K`) and the per-edge weight (`normK`: the factor at the
  source times the factor at the target).  Before every graph layer they gather the rows of the layer's linear
  output at the edges' sources, scale each by its edge's weight and add it into the row of the edge's target
  (`aggK`).  The other host operations only narrow a weight matrix to the kernel's input format or view a bias
  vector as a one-row matrix.

  The memory at every boundary between two segments is a fold from the launch memory.  This module reads that fold at
  every input array of every kernel: each holds either launch contents (narrowed or reshaped), or the previous kernel's
  output as that kernel left it, or `aggK` of that output, or `d2K`.  A later layer recomputes the index columns into
  fresh buffers but from the same two rows, and reuses the edge weights and the self-loop weights, so the same two
  functions come out at all three layers.
-/
import proofs.«172681_j28278064677000_2_alg».proof.Proof.Gen.KernelIdeal.Frame
import proofs.«172681_j28278064677000_2_alg».proof.Proof.Spec
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg) (c : Dev nD)

/-! ## The graph terms the host operations compute from the edge list -/

/-- Row 0 of the edge list (the source node of every edge) as a vector. -/
def row0 (a3 : IVec S2x3200000 32) : IVec S3200000 32 :=
  shapeCast S3200000 (extractStridedSlice S1x3200000 ![0, 0] a3 slices_S2x3200000_S1x3200000_0_0) shapeCasts_S1x3200000_S3200000

/-- Row 1 of the edge list (the target node of every edge) as a vector. -/
def row1 (a3 : IVec S2x3200000 32) : IVec S3200000 32 :=
  shapeCast S3200000 (extractStridedSlice S1x3200000 ![1, 0] a3 slices_S2x3200000_S1x3200000_1_0) shapeCasts_S1x3200000_S3200000

/-- A vector of node numbers with every negative entry raised by the node count, as a column. -/
def normCol (e : IVec S3200000 32) : IVec S3200000x1 32 :=
  broadcastInDim S3200000x1 ![0] bcast_S3200000_S3200000x1_0
    (select (cmpi .slt e (broadcastInDim S3200000 ![] bcast_S_S3200000 (constantI S_ 32 0#32)))
      (addi e (broadcastInDim S3200000 ![] bcast_S_S3200000 (constantI S_ 32 100000#32))) e)

/-- One over the square root of (the number of incoming edges plus one), per node. -/
def dinvK (a3 : IVec S2x3200000 32) : FVec Ideal S100000 .f32 :=
  Host.rsqrt (F := Ideal) (addf (F := Ideal)
    (Host.scatterAdd (F := Ideal) scatter_S100000_S3200000x1_S3200000_n_0_0_1
      (broadcastInDim S100000 ![] bcast_S_S100000 (constant (F := Ideal) S_ .f32 0x00000000#32))
      (normCol (row1 a3))
      (broadcastInDim S3200000 ![] bcast_S_S3200000 (constant (F := Ideal) S_ .f32 0x3F800000#32)))
    (broadcastInDim S100000 ![] bcast_S_S100000 (constant (F := Ideal) S_ .f32 0x3F800000#32)))

/-- The self-loop weight of every node: the square of `dinvK`, as a column. -/
def d2K (a3 : IVec S2x3200000 32) : Cert.Gcn.A2 100000 1 :=
  shapeCast S100000x1 (mulf (F := Ideal) (dinvK a3) (dinvK a3)) shapeCasts_S100000_S100000x1

/-- The weight of every edge: `dinvK` at its source times `dinvK` at its target, as a column. -/
def normK (a3 : IVec S2x3200000 32) : FVec Ideal S3200000x1 .f32 :=
  shapeCast S3200000x1
    (mulf (F := Ideal)
      (Host.gather gather_S100000_S3200000x1_S3200000_n_0_n_n_0_1_1 (dinvK a3) (normCol (row0 a3)))
      (Host.gather gather_S100000_S3200000x1_S3200000_n_0_n_n_0_1_1 (dinvK a3) (normCol (row1 a3))))
    shapeCasts_S3200000_S3200000x1

/-- The aggregation over the graph: every edge adds its source row, scaled by the edge's weight, to its target row. -/
def aggK (a3 : IVec S2x3200000 32) (H : Cert.Gcn.A2 100000 64) : Cert.Gcn.A2 100000 64 :=
  Host.scatterAdd (F := Ideal) scatter_S100000x64_S3200000x1_S3200000x64_1_0_0_1
    (broadcastInDim S100000x64 ![] bcast_S_S100000x64 (constant (F := Ideal) S_ .f32 0x00000000#32))
    (normCol (row1 a3))
    (mulf (F := Ideal)
      (Host.gather gather_S100000x64_S3200000x1_S3200000x64_1_0_n_n_0_1_164 H (normCol (row0 a3)))
      (broadcastInDim S3200000x64 ![0, 1] bcast_S3200000x1_S3200000x64_0_1 (normK a3)))

/-! ## The buffers each host stretch writes, and what a stretch or a kernel leaves alone -/

/-- Closes "every operation of the stretch writes only buffers of the list". -/
macro "writes_sub" : tactic => `(tactic| (
  simp only [List.Forall]
  repeat' apply And.intro
  all_goals (
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide))))

abbrev hostOps0_W : List (Ref sig .tc) :=
  [main_v0, main_v1, main_v2, main_v3, main_v4, main_v5, main_v6, main_v7, main_v8, main_v9]
abbrev hostOps1_W : List (Ref sig .tc) :=
  [main_cst, main_v11, main_c, main_v12, main_v13, main_c_0, main_v14, main_v15, main_v16, main_v17, main_cst_1, main_v18,
   main_v19, main_cst_2, main_v20, main_v21, main_v22, main_v23, main_v24, main_c_3, main_v25, main_v26, main_c_4, main_v27,
   main_v28, main_v29, main_v30, main_v31, main_c_5, main_v32, main_v33, main_c_6, main_v34, main_v35, main_v36, main_v37,
   main_v38, main_v39, main_v40, main_v41]
abbrev hostOps2_W : List (Ref sig .tc) :=
  [main_c_7, main_v43, main_v44, main_c_8, main_v45, main_v46, main_v47, main_v48, main_v49, main_v50, main_v51, main_cst_9,
   main_v52, main_c_10, main_v53, main_v54, main_c_11, main_v55, main_v56, main_v57, main_v58, main_v59, main_v60]
abbrev hostOps3_W : List (Ref sig .tc) := [main_v62]
abbrev hostOps4_W : List (Ref sig .tc) :=
  [main_c_12, main_v64, main_v65, main_c_13, main_v66, main_v67, main_v68, main_v69, main_v70, main_v71, main_v72, main_cst_14,
   main_v73, main_c_15, main_v74, main_v75, main_c_16, main_v76, main_v77, main_v78, main_v79, main_v80, main_v81]
abbrev hostOps5_W : List (Ref sig .tc) := [main_v83]
abbrev hostOps6_W : List (Ref sig .tc) :=
  [main_c_17, main_v85, main_v86, main_c_18, main_v87, main_v88, main_v89, main_v90, main_v91, main_v92, main_v93, main_cst_19,
   main_v94, main_c_20, main_v95, main_v96, main_c_21, main_v97, main_v98, main_v99, main_v100, main_v101, main_v102]
abbrev hostOps7_W : List (Ref sig .tc) := [main_v104, main_v105, main_v106, main_v107]

theorem hostOps0_writes : (hostOps0 : List (HloOp τ sig (Elt Ideal))).Forall fun op => op.writes ⊆ (hostOps0_W.map (Proc.devRef (τ := τ) .tc)).toFinset := by writes_sub
theorem hostOps1_writes : (hostOps1 : List (HloOp τ sig (Elt Ideal))).Forall fun op => op.writes ⊆ (hostOps1_W.map (Proc.devRef (τ := τ) .tc)).toFinset := by writes_sub
theorem hostOps2_writes : (hostOps2 : List (HloOp τ sig (Elt Ideal))).Forall fun op => op.writes ⊆ (hostOps2_W.map (Proc.devRef (τ := τ) .tc)).toFinset := by writes_sub
theorem hostOps3_writes : (hostOps3 : List (HloOp τ sig (Elt Ideal))).Forall fun op => op.writes ⊆ (hostOps3_W.map (Proc.devRef (τ := τ) .tc)).toFinset := by writes_sub
theorem hostOps4_writes : (hostOps4 : List (HloOp τ sig (Elt Ideal))).Forall fun op => op.writes ⊆ (hostOps4_W.map (Proc.devRef (τ := τ) .tc)).toFinset := by writes_sub
theorem hostOps5_writes : (hostOps5 : List (HloOp τ sig (Elt Ideal))).Forall fun op => op.writes ⊆ (hostOps5_W.map (Proc.devRef (τ := τ) .tc)).toFinset := by writes_sub
theorem hostOps6_writes : (hostOps6 : List (HloOp τ sig (Elt Ideal))).Forall fun op => op.writes ⊆ (hostOps6_W.map (Proc.devRef (τ := τ) .tc)).toFinset := by writes_sub
theorem hostOps7_writes : (hostOps7 : List (HloOp τ sig (Elt Ideal))).Forall fun op => op.writes ⊆ (hostOps7_W.map (Proc.devRef (τ := τ) .tc)).toFinset := by writes_sub

/-- A buffer a host stretch does not write holds after the stretch what it held before. -/
theorem H0_keep (r : Ref sig .tc) (h : r ∉ hostOps0_W) : W1 m ρ c (Proc.devRef .tc r) = W0 m ρ c (Proc.devRef .tc r) :=
  StableHlo.after_of_writes_sub hostOps0 _ hostOps0_writes h
theorem H1_keep (r : Ref sig .tc) (h : r ∉ hostOps1_W) : W3 m ρ c (Proc.devRef .tc r) = W2 m ρ c (Proc.devRef .tc r) :=
  StableHlo.after_of_writes_sub hostOps1 _ hostOps1_writes h
theorem H2_keep (r : Ref sig .tc) (h : r ∉ hostOps2_W) : W5 m ρ c (Proc.devRef .tc r) = W4 m ρ c (Proc.devRef .tc r) :=
  StableHlo.after_of_writes_sub hostOps2 _ hostOps2_writes h
theorem H3_keep (r : Ref sig .tc) (h : r ∉ hostOps3_W) : W7 m ρ c (Proc.devRef .tc r) = W6 m ρ c (Proc.devRef .tc r) :=
  StableHlo.after_of_writes_sub hostOps3 _ hostOps3_writes h
theorem H4_keep (r : Ref sig .tc) (h : r ∉ hostOps4_W) : W9 m ρ c (Proc.devRef .tc r) = W8 m ρ c (Proc.devRef .tc r) :=
  StableHlo.after_of_writes_sub hostOps4 _ hostOps4_writes h
theorem H5_keep (r : Ref sig .tc) (h : r ∉ hostOps5_W) : W11 m ρ c (Proc.devRef .tc r) = W10 m ρ c (Proc.devRef .tc r) :=
  StableHlo.after_of_writes_sub hostOps5 _ hostOps5_writes h
theorem H6_keep (r : Ref sig .tc) (h : r ∉ hostOps6_W) : W13 m ρ c (Proc.devRef .tc r) = W12 m ρ c (Proc.devRef .tc r) :=
  StableHlo.after_of_writes_sub hostOps6 _ hostOps6_writes h
theorem H7_keep (r : Ref sig .tc) (h : r ∉ hostOps7_W) : W15 m ρ c (Proc.devRef .tc r) = W14 m ρ c (Proc.devRef .tc r) :=
  StableHlo.after_of_writes_sub hostOps7 _ hostOps7_writes h

/-- A buffer that a host stretch does not write and that is no array of the kernel after it holds at the kernel's exit
    what it held before the stretch. -/
theorem step0 (r : Ref sig .tc) (h : r ∉ hostOps0_W) (a : ∀ w, Pipeline.arrRef spec0 w ≠ r) :
    W2 m ρ c (Proc.devRef .tc r) = W0 m ρ c (Proc.devRef .tc r) := (W2_of_ne m ρ c r a).trans (H0_keep m ρ c r h)
theorem step1 (r : Ref sig .tc) (h : r ∉ hostOps1_W) (a : ∀ w, Pipeline.arrRef spec1 w ≠ r) :
    W4 m ρ c (Proc.devRef .tc r) = W2 m ρ c (Proc.devRef .tc r) := (W4_of_ne m ρ c r a).trans (H1_keep m ρ c r h)
theorem step2 (r : Ref sig .tc) (h : r ∉ hostOps2_W) (a : ∀ w, Pipeline.arrRef spec2 w ≠ r) :
    W6 m ρ c (Proc.devRef .tc r) = W4 m ρ c (Proc.devRef .tc r) := (W6_of_ne m ρ c r a).trans (H2_keep m ρ c r h)
theorem step3 (r : Ref sig .tc) (h : r ∉ hostOps3_W) (a : ∀ w, Pipeline.arrRef spec3 w ≠ r) :
    W8 m ρ c (Proc.devRef .tc r) = W6 m ρ c (Proc.devRef .tc r) := (W8_of_ne m ρ c r a).trans (H3_keep m ρ c r h)
theorem step4 (r : Ref sig .tc) (h : r ∉ hostOps4_W) (a : ∀ w, Pipeline.arrRef spec4 w ≠ r) :
    W10 m ρ c (Proc.devRef .tc r) = W8 m ρ c (Proc.devRef .tc r) := (W10_of_ne m ρ c r a).trans (H4_keep m ρ c r h)
theorem step5 (r : Ref sig .tc) (h : r ∉ hostOps5_W) (a : ∀ w, Pipeline.arrRef spec5 w ≠ r) :
    W12 m ρ c (Proc.devRef .tc r) = W10 m ρ c (Proc.devRef .tc r) := (W12_of_ne m ρ c r a).trans (H5_keep m ρ c r h)
theorem step6 (r : Ref sig .tc) (h : r ∉ hostOps6_W) (a : ∀ w, Pipeline.arrRef spec6 w ≠ r) :
    W14 m ρ c (Proc.devRef .tc r) = W12 m ρ c (Proc.devRef .tc r) := (W14_of_ne m ρ c r a).trans (H6_keep m ρ c r h)

/-! ## Kernel 0's inputs: the three feature arrays as launched, the narrowed weights, the biases as one-row matrices -/

theorem V1_arg0 : V1 m ρ c main_arg0 = m ((c : Thread nD τ).loc main_arg0) := H0_keep m ρ c main_arg0 (by decide)
theorem V1_arg1 : V1 m ρ c main_arg1 = m ((c : Thread nD τ).loc main_arg1) := H0_keep m ρ c main_arg1 (by decide)
theorem V1_arg2 : V1 m ρ c main_arg2 = m ((c : Thread nD τ).loc main_arg2) := H0_keep m ρ c main_arg2 (by decide)

theorem V1_v4 : V1 m ρ c main_v4 = truncf (F := Ideal) .bf16 (m ((c : Thread nD τ).loc main_arg4)) bitsLt_bf16_f32 := by
  show StableHlo.after hostOps0 (W0 m ρ c) (Proc.devRef .tc main_v4) = _
  after_results
theorem V1_v5 : V1 m ρ c main_v5 = truncf (F := Ideal) .bf16 (m ((c : Thread nD τ).loc main_arg6)) bitsLt_bf16_f32 := by
  show StableHlo.after hostOps0 (W0 m ρ c) (Proc.devRef .tc main_v5) = _
  after_results
theorem V1_v6 : V1 m ρ c main_v6 = truncf (F := Ideal) .bf16 (m ((c : Thread nD τ).loc main_arg8)) bitsLt_bf16_f32 := by
  show StableHlo.after hostOps0 (W0 m ρ c) (Proc.devRef .tc main_v6) = _
  after_results
theorem V1_v7 : V1 m ρ c main_v7 = shapeCast S1x64 (m ((c : Thread nD τ).loc main_arg5)) shapeCasts_S64_S1x64 := by
  show StableHlo.after hostOps0 (W0 m ρ c) (Proc.devRef .tc main_v7) = _
  after_results
  rfl
theorem V1_v8 : V1 m ρ c main_v8 = shapeCast S1x64 (m ((c : Thread nD τ).loc main_arg7)) shapeCasts_S64_S1x64 := by
  show StableHlo.after hostOps0 (W0 m ρ c) (Proc.devRef .tc main_v8) = _
  after_results
  rfl
theorem V1_v9 : V1 m ρ c main_v9 = shapeCast S1x64 (m ((c : Thread nD τ).loc main_arg9)) shapeCasts_S64_S1x64 := by
  show StableHlo.after hostOps0 (W0 m ρ c) (Proc.devRef .tc main_v9) = _
  after_results
  rfl

/-! ## The two rows of the edge list, carried to every stretch that reads them -/

theorem W1_v1 : W1 m ρ c (Proc.devRef .tc main_v1) = row0 (m ((c : Thread nD τ).loc main_arg3)) := by
  show StableHlo.after hostOps0 (W0 m ρ c) (Proc.devRef .tc main_v1) = _
  after_results
  rfl
theorem W1_v3 : W1 m ρ c (Proc.devRef .tc main_v3) = row1 (m ((c : Thread nD τ).loc main_arg3)) := by
  show StableHlo.after hostOps0 (W0 m ρ c) (Proc.devRef .tc main_v3) = _
  after_results
  rfl
theorem W2_v1 : W2 m ρ c (Proc.devRef .tc main_v1) = row0 (m ((c : Thread nD τ).loc main_arg3)) :=
  (W2_of_ne m ρ c main_v1 (by decide)).trans (W1_v1 m ρ c)
theorem W2_v3 : W2 m ρ c (Proc.devRef .tc main_v3) = row1 (m ((c : Thread nD τ).loc main_arg3)) :=
  (W2_of_ne m ρ c main_v3 (by decide)).trans (W1_v3 m ρ c)
theorem W4_v1 : W4 m ρ c (Proc.devRef .tc main_v1) = row0 (m ((c : Thread nD τ).loc main_arg3)) :=
  (step1 m ρ c main_v1 (by decide) (by decide)).trans (W2_v1 m ρ c)
theorem W4_v3 : W4 m ρ c (Proc.devRef .tc main_v3) = row1 (m ((c : Thread nD τ).loc main_arg3)) :=
  (step1 m ρ c main_v3 (by decide) (by decide)).trans (W2_v3 m ρ c)
theorem W6_v1 : W6 m ρ c (Proc.devRef .tc main_v1) = row0 (m ((c : Thread nD τ).loc main_arg3)) :=
  (step2 m ρ c main_v1 (by decide) (by decide)).trans (W4_v1 m ρ c)
theorem W6_v3 : W6 m ρ c (Proc.devRef .tc main_v3) = row1 (m ((c : Thread nD τ).loc main_arg3)) :=
  (step2 m ρ c main_v3 (by decide) (by decide)).trans (W4_v3 m ρ c)
theorem W8_v1 : W8 m ρ c (Proc.devRef .tc main_v1) = row0 (m ((c : Thread nD τ).loc main_arg3)) :=
  (step3 m ρ c main_v1 (by decide) (by decide)).trans (W6_v1 m ρ c)
theorem W8_v3 : W8 m ρ c (Proc.devRef .tc main_v3) = row1 (m ((c : Thread nD τ).loc main_arg3)) :=
  (step3 m ρ c main_v3 (by decide) (by decide)).trans (W6_v3 m ρ c)
theorem W10_v1 : W10 m ρ c (Proc.devRef .tc main_v1) = row0 (m ((c : Thread nD τ).loc main_arg3)) :=
  (step4 m ρ c main_v1 (by decide) (by decide)).trans (W8_v1 m ρ c)
theorem W10_v3 : W10 m ρ c (Proc.devRef .tc main_v3) = row1 (m ((c : Thread nD τ).loc main_arg3)) :=
  (step4 m ρ c main_v3 (by decide) (by decide)).trans (W8_v3 m ρ c)
theorem W12_v1 : W12 m ρ c (Proc.devRef .tc main_v1) = row0 (m ((c : Thread nD τ).loc main_arg3)) :=
  (step5 m ρ c main_v1 (by decide) (by decide)).trans (W10_v1 m ρ c)
theorem W12_v3 : W12 m ρ c (Proc.devRef .tc main_v3) = row1 (m ((c : Thread nD τ).loc main_arg3)) :=
  (step5 m ρ c main_v3 (by decide) (by decide)).trans (W10_v3 m ρ c)

/-! ## The argument arrays a later stretch reads, as launched when that stretch begins -/

theorem W2_arg10 : W2 m ρ c (Proc.devRef .tc main_arg10) = m ((c : Thread nD τ).loc main_arg10) :=
  step0 m ρ c main_arg10 (by decide) (by decide)
theorem W4_arg11 : W4 m ρ c (Proc.devRef .tc main_arg11) = m ((c : Thread nD τ).loc main_arg11) :=
  (step1 m ρ c main_arg11 (by decide) (by decide)).trans (step0 m ρ c main_arg11 (by decide) (by decide))
theorem W6_arg12 : W6 m ρ c (Proc.devRef .tc main_arg12) = m ((c : Thread nD τ).loc main_arg12) :=
  (step2 m ρ c main_arg12 (by decide) (by decide)).trans <| (step1 m ρ c main_arg12 (by decide) (by decide)).trans
    (step0 m ρ c main_arg12 (by decide) (by decide))
theorem W8_arg13 : W8 m ρ c (Proc.devRef .tc main_arg13) = m ((c : Thread nD τ).loc main_arg13) :=
  (step3 m ρ c main_arg13 (by decide) (by decide)).trans <| (step2 m ρ c main_arg13 (by decide) (by decide)).trans <|
    (step1 m ρ c main_arg13 (by decide) (by decide)).trans (step0 m ρ c main_arg13 (by decide) (by decide))
theorem W10_arg14 : W10 m ρ c (Proc.devRef .tc main_arg14) = m ((c : Thread nD τ).loc main_arg14) :=
  (step4 m ρ c main_arg14 (by decide) (by decide)).trans <| (step3 m ρ c main_arg14 (by decide) (by decide)).trans <|
    (step2 m ρ c main_arg14 (by decide) (by decide)).trans <| (step1 m ρ c main_arg14 (by decide) (by decide)).trans
    (step0 m ρ c main_arg14 (by decide) (by decide))
theorem W12_arg15 : W12 m ρ c (Proc.devRef .tc main_arg15) = m ((c : Thread nD τ).loc main_arg15) :=
  (step5 m ρ c main_arg15 (by decide) (by decide)).trans <| (step4 m ρ c main_arg15 (by decide) (by decide)).trans <|
    (step3 m ρ c main_arg15 (by decide) (by decide)).trans <| (step2 m ρ c main_arg15 (by decide) (by decide)).trans <|
    (step1 m ρ c main_arg15 (by decide) (by decide)).trans (step0 m ρ c main_arg15 (by decide) (by decide))
/-- An array that no host stretch writes and no kernel before the last has among its arrays holds its launch contents
    when the last host stretch begins. -/
theorem W14_of_launch (r : Ref sig .tc)
    (h0 : r ∉ hostOps0_W) (a0 : ∀ w, Pipeline.arrRef spec0 w ≠ r) (h1 : r ∉ hostOps1_W) (a1 : ∀ w, Pipeline.arrRef spec1 w ≠ r)
    (h2 : r ∉ hostOps2_W) (a2 : ∀ w, Pipeline.arrRef spec2 w ≠ r) (h3 : r ∉ hostOps3_W) (a3 : ∀ w, Pipeline.arrRef spec3 w ≠ r)
    (h4 : r ∉ hostOps4_W) (a4 : ∀ w, Pipeline.arrRef spec4 w ≠ r) (h5 : r ∉ hostOps5_W) (a5 : ∀ w, Pipeline.arrRef spec5 w ≠ r)
    (h6 : r ∉ hostOps6_W) (a6 : ∀ w, Pipeline.arrRef spec6 w ≠ r) :
    W14 m ρ c (Proc.devRef .tc r) = W0 m ρ c (Proc.devRef .tc r) :=
  (step6 m ρ c r h6 a6).trans <| (step5 m ρ c r h5 a5).trans <| (step4 m ρ c r h4 a4).trans <| (step3 m ρ c r h3 a3).trans <|
    (step2 m ρ c r h2 a2).trans <| (step1 m ρ c r h1 a1).trans (step0 m ρ c r h0 a0)
theorem W14_arg16 : W14 m ρ c (Proc.devRef .tc main_arg16) = m ((c : Thread nD τ).loc main_arg16) :=
  W14_of_launch m ρ c main_arg16 (by decide) (by decide) (by decide) (by decide) (by decide) (by decide) (by decide) (by decide)
    (by decide) (by decide) (by decide) (by decide) (by decide) (by decide)
theorem W14_arg17 : W14 m ρ c (Proc.devRef .tc main_arg17) = m ((c : Thread nD τ).loc main_arg17) :=
  W14_of_launch m ρ c main_arg17 (by decide) (by decide) (by decide) (by decide) (by decide) (by decide) (by decide) (by decide)
    (by decide) (by decide) (by decide) (by decide) (by decide) (by decide)
theorem W14_arg18 : W14 m ρ c (Proc.devRef .tc main_arg18) = m ((c : Thread nD τ).loc main_arg18) :=
  W14_of_launch m ρ c main_arg18 (by decide) (by decide) (by decide) (by decide) (by decide) (by decide) (by decide) (by decide)
    (by decide) (by decide) (by decide) (by decide) (by decide) (by decide)
theorem W14_arg19 : W14 m ρ c (Proc.devRef .tc main_arg19) = m ((c : Thread nD τ).loc main_arg19) :=
  W14_of_launch m ρ c main_arg19 (by decide) (by decide) (by decide) (by decide) (by decide) (by decide) (by decide) (by decide)
    (by decide) (by decide) (by decide) (by decide) (by decide) (by decide)

/-! ## The self-loop weights and the edge weights, computed once and carried -/

theorem W3_v24 : W3 m ρ c (Proc.devRef .tc main_v24) = d2K (m ((c : Thread nD τ).loc main_arg3)) := by
  show StableHlo.after hostOps1 (W2 m ρ c) (Proc.devRef .tc main_v24) = _
  after_results_simp
  rw [W2_v3]
  rfl
theorem W3_v40 : W3 m ρ c (Proc.devRef .tc main_v40) = normK (m ((c : Thread nD τ).loc main_arg3)) := by
  show StableHlo.after hostOps1 (W2 m ρ c) (Proc.devRef .tc main_v40) = _
  after_results_simp
  rw [W2_v1, W2_v3]
  rfl

theorem W4_v24 : W4 m ρ c (Proc.devRef .tc main_v24) = d2K (m ((c : Thread nD τ).loc main_arg3)) :=
  (W4_of_ne m ρ c main_v24 (by decide)).trans (W3_v24 m ρ c)
theorem W4_v40 : W4 m ρ c (Proc.devRef .tc main_v40) = normK (m ((c : Thread nD τ).loc main_arg3)) :=
  (W4_of_ne m ρ c main_v40 (by decide)).trans (W3_v40 m ρ c)
theorem W6_v40 : W6 m ρ c (Proc.devRef .tc main_v40) = normK (m ((c : Thread nD τ).loc main_arg3)) :=
  (step2 m ρ c main_v40 (by decide) (by decide)).trans (W4_v40 m ρ c)
theorem W8_v40 : W8 m ρ c (Proc.devRef .tc main_v40) = normK (m ((c : Thread nD τ).loc main_arg3)) :=
  (step3 m ρ c main_v40 (by decide) (by decide)).trans (W6_v40 m ρ c)
theorem W10_v40 : W10 m ρ c (Proc.devRef .tc main_v40) = normK (m ((c : Thread nD τ).loc main_arg3)) :=
  (step4 m ρ c main_v40 (by decide) (by decide)).trans (W8_v40 m ρ c)
theorem W12_v40 : W12 m ρ c (Proc.devRef .tc main_v40) = normK (m ((c : Thread nD τ).loc main_arg3)) :=
  (step5 m ρ c main_v40 (by decide) (by decide)).trans (W10_v40 m ρ c)

/-! ## Kernel 1's inputs -/

theorem V3_v10 : V3 m ρ c main_v10 = W2 m ρ c (Proc.devRef .tc main_v10) := H1_keep m ρ c main_v10 (by decide)
theorem V3_v41 : V3 m ρ c main_v41 = truncf (F := Ideal) .bf16 (m ((c : Thread nD τ).loc main_arg10)) bitsLt_bf16_f32 := by
  show StableHlo.after hostOps1 (W2 m ρ c) (Proc.devRef .tc main_v41) = _
  after_results_simp
  rw [W2_arg10]

/-! ## Kernel 2's inputs -/

theorem V5_v59 : V5 m ρ c main_v59 = aggK (m ((c : Thread nD τ).loc main_arg3)) (W4 m ρ c (Proc.devRef .tc main_v42)) := by
  show StableHlo.after hostOps2 (W4 m ρ c) (Proc.devRef .tc main_v59) = _
  after_results_simp
  rw [W4_v1, W4_v3, W4_v40]
  rfl
theorem V5_v42 : V5 m ρ c main_v42 = W4 m ρ c (Proc.devRef .tc main_v42) := H2_keep m ρ c main_v42 (by decide)
theorem V5_v24 : V5 m ρ c main_v24 = d2K (m ((c : Thread nD τ).loc main_arg3)) :=
  (H2_keep m ρ c main_v24 (by decide)).trans (W4_v24 m ρ c)
theorem V5_v60 : V5 m ρ c main_v60 = shapeCast S1x64 (m ((c : Thread nD τ).loc main_arg11)) shapeCasts_S64_S1x64 := by
  show StableHlo.after hostOps2 (W4 m ρ c) (Proc.devRef .tc main_v60) = _
  after_results_simp
  rw [W4_arg11]
  rfl

/-- The self-loop weights are an input array of kernel 2, which leaves its inputs as it found them. -/
theorem W6_v24 : W6 m ρ c (Proc.devRef .tc main_v24) = d2K (m ((c : Thread nD τ).loc main_arg3)) :=
  ((W6_arr m ρ c 2).trans (((dat2 (V5 m ρ) c).arrAt_in 2 rfl _).trans (A_eq2 (V5 m ρ) c 2))).trans (V5_v24 m ρ c)

/-! ## Kernel 3's inputs -/

theorem V7_v61 : V7 m ρ c main_v61 = W6 m ρ c (Proc.devRef .tc main_v61) := H3_keep m ρ c main_v61 (by decide)
theorem V7_v62 : V7 m ρ c main_v62 = truncf (F := Ideal) .bf16 (m ((c : Thread nD τ).loc main_arg12)) bitsLt_bf16_f32 := by
  show StableHlo.after hostOps3 (W6 m ρ c) (Proc.devRef .tc main_v62) = _
  after_results
  rw [W6_arg12]

/-! ## Kernel 4's inputs -/

theorem W8_v24 : W8 m ρ c (Proc.devRef .tc main_v24) = d2K (m ((c : Thread nD τ).loc main_arg3)) :=
  (step3 m ρ c main_v24 (by decide) (by decide)).trans (W6_v24 m ρ c)

theorem V9_v80 : V9 m ρ c main_v80 = aggK (m ((c : Thread nD τ).loc main_arg3)) (W8 m ρ c (Proc.devRef .tc main_v63)) := by
  show StableHlo.after hostOps4 (W8 m ρ c) (Proc.devRef .tc main_v80) = _
  after_results_simp
  rw [W8_v1, W8_v3, W8_v40]
  rfl
theorem V9_v63 : V9 m ρ c main_v63 = W8 m ρ c (Proc.devRef .tc main_v63) := H4_keep m ρ c main_v63 (by decide)
theorem V9_v24 : V9 m ρ c main_v24 = d2K (m ((c : Thread nD τ).loc main_arg3)) :=
  (H4_keep m ρ c main_v24 (by decide)).trans (W8_v24 m ρ c)
theorem V9_v81 : V9 m ρ c main_v81 = shapeCast S1x64 (m ((c : Thread nD τ).loc main_arg13)) shapeCasts_S64_S1x64 := by
  show StableHlo.after hostOps4 (W8 m ρ c) (Proc.devRef .tc main_v81) = _
  after_results_simp
  rw [W8_arg13]
  rfl

theorem W10_v24 : W10 m ρ c (Proc.devRef .tc main_v24) = d2K (m ((c : Thread nD τ).loc main_arg3)) :=
  ((W10_arr m ρ c 2).trans (((dat4 (V9 m ρ) c).arrAt_in 2 rfl _).trans (A_eq4 (V9 m ρ) c 2))).trans (V9_v24 m ρ c)

/-! ## Kernel 5's inputs -/

theorem V11_v82 : V11 m ρ c main_v82 = W10 m ρ c (Proc.devRef .tc main_v82) := H5_keep m ρ c main_v82 (by decide)
theorem V11_v83 : V11 m ρ c main_v83 = truncf (F := Ideal) .bf16 (m ((c : Thread nD τ).loc main_arg14)) bitsLt_bf16_f32 := by
  show StableHlo.after hostOps5 (W10 m ρ c) (Proc.devRef .tc main_v83) = _
  after_results
  rw [W10_arg14]

/-! ## Kernel 6's inputs -/

theorem W12_v24 : W12 m ρ c (Proc.devRef .tc main_v24) = d2K (m ((c : Thread nD τ).loc main_arg3)) :=
  (step5 m ρ c main_v24 (by decide) (by decide)).trans (W10_v24 m ρ c)

theorem V13_v101 : V13 m ρ c main_v101 = aggK (m ((c : Thread nD τ).loc main_arg3)) (W12 m ρ c (Proc.devRef .tc main_v84)) := by
  show StableHlo.after hostOps6 (W12 m ρ c) (Proc.devRef .tc main_v101) = _
  after_results_simp
  rw [W12_v1, W12_v3, W12_v40]
  rfl
theorem V13_v84 : V13 m ρ c main_v84 = W12 m ρ c (Proc.devRef .tc main_v84) := H6_keep m ρ c main_v84 (by decide)
theorem V13_v24 : V13 m ρ c main_v24 = d2K (m ((c : Thread nD τ).loc main_arg3)) :=
  (H6_keep m ρ c main_v24 (by decide)).trans (W12_v24 m ρ c)
theorem V13_v102 : V13 m ρ c main_v102 = shapeCast S1x64 (m ((c : Thread nD τ).loc main_arg15)) shapeCasts_S64_S1x64 := by
  show StableHlo.after hostOps6 (W12 m ρ c) (Proc.devRef .tc main_v102) = _
  after_results_simp
  rw [W12_arg15]
  rfl

/-! ## Kernel 7's inputs -/

theorem V15_v103 : V15 m ρ c main_v103 = W14 m ρ c (Proc.devRef .tc main_v103) := H7_keep m ρ c main_v103 (by decide)
theorem V15_v104 : V15 m ρ c main_v104 = truncf (F := Ideal) .bf16 (m ((c : Thread nD τ).loc main_arg16)) bitsLt_bf16_f32 := by
  show StableHlo.after hostOps7 (W14 m ρ c) (Proc.devRef .tc main_v104) = _
  after_results
  rw [W14_arg16]
theorem V15_v105 : V15 m ρ c main_v105 = truncf (F := Ideal) .bf16 (m ((c : Thread nD τ).loc main_arg18)) bitsLt_bf16_f32 := by
  show StableHlo.after hostOps7 (W14 m ρ c) (Proc.devRef .tc main_v105) = _
  after_results
  rw [W14_arg18]
theorem V15_v106 : V15 m ρ c main_v106 = shapeCast S1x32 (m ((c : Thread nD τ).loc main_arg17)) shapeCasts_S32_S1x32 := by
  show StableHlo.after hostOps7 (W14 m ρ c) (Proc.devRef .tc main_v106) = _
  after_results
  rw [W14_arg17]
  rfl
theorem V15_v107 : V15 m ρ c main_v107 = shapeCast S1x1 (m ((c : Thread nD τ).loc main_arg19)) shapeCasts_S1_S1x1 := by
  show StableHlo.after hostOps7 (W14 m ρ c) (Proc.devRef .tc main_v107) = _
  after_results
  rw [W14_arg19]
  rfl

/-! ## The same facts numbered by kernel and input window -/

theorem in0_0 : V1 m ρ c main_arg0 = m ((c : Thread nD τ).loc main_arg0) := V1_arg0 m ρ c
theorem in0_1 : V1 m ρ c main_arg1 = m ((c : Thread nD τ).loc main_arg1) := V1_arg1 m ρ c
theorem in0_2 : V1 m ρ c main_arg2 = m ((c : Thread nD τ).loc main_arg2) := V1_arg2 m ρ c
theorem in0_3 : V1 m ρ c main_v4 = truncf (F := Ideal) .bf16 (m ((c : Thread nD τ).loc main_arg4)) bitsLt_bf16_f32 := V1_v4 m ρ c
theorem in0_4 : V1 m ρ c main_v7 = shapeCast S1x64 (m ((c : Thread nD τ).loc main_arg5)) shapeCasts_S64_S1x64 := V1_v7 m ρ c
theorem in0_5 : V1 m ρ c main_v5 = truncf (F := Ideal) .bf16 (m ((c : Thread nD τ).loc main_arg6)) bitsLt_bf16_f32 := V1_v5 m ρ c
theorem in0_6 : V1 m ρ c main_v8 = shapeCast S1x64 (m ((c : Thread nD τ).loc main_arg7)) shapeCasts_S64_S1x64 := V1_v8 m ρ c
theorem in0_7 : V1 m ρ c main_v6 = truncf (F := Ideal) .bf16 (m ((c : Thread nD τ).loc main_arg8)) bitsLt_bf16_f32 := V1_v6 m ρ c
theorem in0_8 : V1 m ρ c main_v9 = shapeCast S1x64 (m ((c : Thread nD τ).loc main_arg9)) shapeCasts_S64_S1x64 := V1_v9 m ρ c
theorem in1_0 : V3 m ρ c main_v10 = W2 m ρ c (Proc.devRef .tc main_v10) := V3_v10 m ρ c
theorem in1_1 : V3 m ρ c main_v41 = truncf (F := Ideal) .bf16 (m ((c : Thread nD τ).loc main_arg10)) bitsLt_bf16_f32 := V3_v41 m ρ c
theorem in2_0 : V5 m ρ c main_v59 = aggK (m ((c : Thread nD τ).loc main_arg3)) (W4 m ρ c (Proc.devRef .tc main_v42)) := V5_v59 m ρ c
theorem in2_1 : V5 m ρ c main_v42 = W4 m ρ c (Proc.devRef .tc main_v42) := V5_v42 m ρ c
theorem in2_2 : V5 m ρ c main_v24 = d2K (m ((c : Thread nD τ).loc main_arg3)) := V5_v24 m ρ c
theorem in2_3 : V5 m ρ c main_v60 = shapeCast S1x64 (m ((c : Thread nD τ).loc main_arg11)) shapeCasts_S64_S1x64 := V5_v60 m ρ c
theorem in3_0 : V7 m ρ c main_v61 = W6 m ρ c (Proc.devRef .tc main_v61) := V7_v61 m ρ c
theorem in3_1 : V7 m ρ c main_v62 = truncf (F := Ideal) .bf16 (m ((c : Thread nD τ).loc main_arg12)) bitsLt_bf16_f32 := V7_v62 m ρ c
theorem in4_0 : V9 m ρ c main_v80 = aggK (m ((c : Thread nD τ).loc main_arg3)) (W8 m ρ c (Proc.devRef .tc main_v63)) := V9_v80 m ρ c
theorem in4_1 : V9 m ρ c main_v63 = W8 m ρ c (Proc.devRef .tc main_v63) := V9_v63 m ρ c
theorem in4_2 : V9 m ρ c main_v24 = d2K (m ((c : Thread nD τ).loc main_arg3)) := V9_v24 m ρ c
theorem in4_3 : V9 m ρ c main_v81 = shapeCast S1x64 (m ((c : Thread nD τ).loc main_arg13)) shapeCasts_S64_S1x64 := V9_v81 m ρ c
theorem in5_0 : V11 m ρ c main_v82 = W10 m ρ c (Proc.devRef .tc main_v82) := V11_v82 m ρ c
theorem in5_1 : V11 m ρ c main_v83 = truncf (F := Ideal) .bf16 (m ((c : Thread nD τ).loc main_arg14)) bitsLt_bf16_f32 := V11_v83 m ρ c
theorem in6_0 : V13 m ρ c main_v101 = aggK (m ((c : Thread nD τ).loc main_arg3)) (W12 m ρ c (Proc.devRef .tc main_v84)) := V13_v101 m ρ c
theorem in6_1 : V13 m ρ c main_v84 = W12 m ρ c (Proc.devRef .tc main_v84) := V13_v84 m ρ c
theorem in6_2 : V13 m ρ c main_v24 = d2K (m ((c : Thread nD τ).loc main_arg3)) := V13_v24 m ρ c
theorem in6_3 : V13 m ρ c main_v102 = shapeCast S1x64 (m ((c : Thread nD τ).loc main_arg15)) shapeCasts_S64_S1x64 := V13_v102 m ρ c
theorem in7_0 : V15 m ρ c main_v103 = W14 m ρ c (Proc.devRef .tc main_v103) := V15_v103 m ρ c
theorem in7_1 : V15 m ρ c main_v104 = truncf (F := Ideal) .bf16 (m ((c : Thread nD τ).loc main_arg16)) bitsLt_bf16_f32 := V15_v104 m ρ c
theorem in7_2 : V15 m ρ c main_v106 = shapeCast S1x32 (m ((c : Thread nD τ).loc main_arg17)) shapeCasts_S32_S1x32 := V15_v106 m ρ c
theorem in7_3 : V15 m ρ c main_v105 = truncf (F := Ideal) .bf16 (m ((c : Thread nD τ).loc main_arg18)) bitsLt_bf16_f32 := V15_v105 m ρ c
theorem in7_4 : V15 m ρ c main_v107 = shapeCast S1x1 (m ((c : Thread nD τ).loc main_arg19)) shapeCasts_S1_S1x1 := V15_v107 m ρ c

end Cert.KernelIdeal.KHost
-- ==== Proof.LibRowsCols.lean ====
/-
  A matrix product with one contracted axis, read at an output index, is rows times columns.

  The contraction of axis 1 of the left operand with axis 0 of the right one, with no batch axis, accumulated onto
  zero, has at the output index `(r, c)` the value `∑ q, x (r, q) · w (q, c)`: the sum over the contraction's index
  set is carried to the sum over `Fin k` by the bijection between a one-axis index and its coordinate.
-/
import Idealize.ShloMosaic.PureOps.Ideal.Laws
import Idealize.ShloMosaic.Lib.ValueIdx
import proofs.«172681_j28278064677000_2_alg».proof.Proof.Spec

noncomputable section

open scoped BigOperators

namespace Cert.Gcn

open Idealize.ShloMosaic Idealize.ShloMosaic.ValueIdx

/-- The sum over a one-axis contraction, with the operand indices known coordinate by coordinate, is `lin`. -/
theorem sum_contr_eq_lin {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : A2 n k) (w : A2 k h) (i : (⟨2, ![n, h]⟩ : Shape).Idx) :
    (∑ q : D.contr.Idx, x (D.lhsIdx i q) * w (D.rhsIdx i q)) = lin x w i := by
  unfold lin
  rw [← Equiv.sum_comp (contrEquiv1 D k hr hs).symm]
  refine Finset.sum_congr rfl fun q _ => ?_
  have hq := contrEquiv1_symm_val D k hr hs q
  have el : D.lhsIdx i ((contrEquiv1 D k hr hs).symm q) = ix2 (i 0) q := funext fun a => Fin.ext (by
    match a with
    | ⟨0, _⟩ => exact hl0 _ _
    | ⟨1, _⟩ => exact (hl1 _ _).trans hq)
  have er : D.rhsIdx i ((contrEquiv1 D k hr hs).symm q) = ix2 q (i 1) := funext fun a => Fin.ext (by
    match a with
    | ⟨0, _⟩ => exact (hr0 _ _).trans hq
    | ⟨1, _⟩ => exact hr1 _ _)
  exact congrArg₂ (· * ·) (congrArg x el) (congrArg w er)

/-- A blocked matrix unit's product onto the zero accumulator is `lin`. -/
theorem matmul_zero_eq_lin {n k h : Nat} {φ₁ φ₂ : FTy}
    (D : DotDims (⟨2, ![n, k]⟩ : Shape) (⟨2, ![k, h]⟩ : Shape) (⟨2, ![n, h]⟩ : Shape))
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal (⟨2, ![n, k]⟩ : Shape) φ₁) (w : FVec Ideal (⟨2, ![k, h]⟩ : Shape) φ₂) :
    FloatOps.matmul D none x w (constant (⟨2, ![n, h]⟩ : Shape) .f32 0x00000000#32) = lin (x : A2 n k) (w : A2 k h) := by
  funext i
  rw [Ideal.matmul_constant_zero_apply]
  exact sum_contr_eq_lin D hr hs hl0 hl1 hr0 hr1 x w i

/-- The host's product of the same shape is `lin` as well. -/
theorem dotGeneral_eq_lin {n k h : Nat} {φ₁ φ₂ : FTy}
    (D : DotDims (⟨2, ![n, k]⟩ : Shape) (⟨2, ![k, h]⟩ : Shape) (⟨2, ![n, h]⟩ : Shape)) (sched : HostSchedule)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal (⟨2, ![n, k]⟩ : Shape) φ₁) (w : FVec Ideal (⟨2, ![k, h]⟩ : Shape) φ₂) :
    FloatOps.dotGeneral D none sched x w = lin (x : A2 n k) (w : A2 k h) := by
  funext i
  rw [Ideal.dotGeneral_apply]
  exact sum_contr_eq_lin D hr hs hl0 hl1 hr0 hr1 x w i

end Cert.Gcn

end
-- ==== Proof.LibBroadcast.lean ====
/-
  Broadcasts of a single row or a single column, read at an index, and the two small re-layouts of a vector that
  the programs use for a bias and for a per-node weight.

  A `[1, b]` array broadcast to `[a, b]` has at `(p, c)` the row's entry `c`; an `[a, 1]` array broadcast to
  `[a, b]` has at `(p, c)` the column's entry `p`.  A vector of length `n` re-laid as a `[1, n]` row or as an
  `[n, 1]` column keeps its entries in order.
-/
import Idealize.ShloMosaic.Lib.Pipeline.Value
import Idealize.ShloMosaic.Lib.ValueLayout
import proofs.«172681_j28278064677000_2_alg».proof.Proof.Spec

noncomputable section

namespace Cert.Gcn

open Idealize.ShloMosaic Idealize.ShloMosaic.ValueIdx

variable {α : Type}

/-- The one row of a `[1, h]` matrix, as a vector. -/
def rowOf {h : Nat} (B : A2 1 h) : A1 h := fun j => B (ix2 (0 : Fin 1) (j 0))

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Gcn

end
-- ==== Proof.LibRows.lean ====
/-
  Entries of a product depend on one row of the left factor only.

  If row `p` of `X₁` equals row `p'` of `X₂`, then row `p` of `X₁ · W` equals row `p'` of `X₂ · W`; the same holds after
  adding a bias, after clipping, and for the two-layer head.  This is what lets a row block of a blocked kernel be
  compared with the rows of the whole array it was cut from.
-/
import proofs.«172681_j28278064677000_2_alg».proof.Proof.Spec

noncomputable section

open scoped BigOperators

namespace Cert.Gcn

open Idealize.ShloMosaic Idealize.ShloMosaic.ValueIdx

theorem lin_rows {n n' k h : Nat} (X₁ : A2 n k) (X₂ : A2 n' k) (W : A2 k h) (p : Fin n) (p' : Fin n') (c : Fin h)
    (hrow : ∀ q : Fin k, X₁ (ix2 p q) = X₂ (ix2 p' q)) : lin X₁ W (ix2 p c) = lin X₂ W (ix2 p' c) := by
  unfold lin
  refine Finset.sum_congr rfl fun q _ => ?_
  show X₁ (ix2 p q) * W (ix2 q c) = X₂ (ix2 p' q) * W (ix2 q c)
  rw [hrow q]

theorem affine_rows {n n' k h : Nat} (X₁ : A2 n k) (X₂ : A2 n' k) (W : A2 k h) (b : A1 h) (p : Fin n) (p' : Fin n') (c : Fin h)
    (hrow : ∀ q : Fin k, X₁ (ix2 p q) = X₂ (ix2 p' q)) : affine X₁ W b (ix2 p c) = affine X₂ W b (ix2 p' c) := by
  unfold affine
  show lin X₁ W (ix2 p c) + b (ix1 c) = lin X₂ W (ix2 p' c) + b (ix1 c)
  rw [lin_rows X₁ X₂ W p p' c hrow]

theorem dense_rows {n n' k h : Nat} (X₁ : A2 n k) (X₂ : A2 n' k) (W : A2 k h) (b : A1 h) (p : Fin n) (p' : Fin n') (c : Fin h)
    (hrow : ∀ q : Fin k, X₁ (ix2 p q) = X₂ (ix2 p' q)) : dense X₁ W b (ix2 p c) = dense X₂ W b (ix2 p' c) := by
  unfold dense
  rw [affine_rows X₁ X₂ W b p p' c hrow]

theorem mlp_rows {n n' : Nat} (X₁ : A2 n 64) (X₂ : A2 n' 64) (w1 : A2 64 32) (b1 : A1 32) (w2 : A2 32 1) (b2 : A1 1)
    (p : Fin n) (p' : Fin n') (c : Fin 1) (hrow : ∀ q : Fin 64, X₁ (ix2 p q) = X₂ (ix2 p' q)) :
    mlp X₁ w1 b1 w2 b2 (ix2 p c) = mlp X₂ w1 b1 w2 b2 (ix2 p' c) := by
  unfold mlp
  exact affine_rows _ _ w2 b2 p p' c fun q => dense_rows X₁ X₂ w1 b1 p p' q hrow

end Cert.Gcn

end
-- ==== Proof.RegEnc.lean ====
/-
  The encoder kernel: three dense layers clipped at zero, written side by side into 192 columns, 5000 rows per grid point.

  At a grid point the body loads row block `t` of the three feature groups and the three weight matrices and bias rows
  whole, and stores the three clipped dense layers into columns 0–63, 64–127 and 128–191 of row block `t` of the output.
  The three stores tile the block, so an entry of the block is decided by its column range; an entry depends on one row
  of the features only, and the twenty blocks tile the rows.
-/
import proofs.«172681_j28278064677000_2_alg».proof.Proof.Gen.KernelIdeal.Frame
import proofs.«172681_j28278064677000_2_alg».proof.Proof.LibRowsCols
import proofs.«172681_j28278064677000_2_alg».proof.Proof.LibBroadcast
import proofs.«172681_j28278064677000_2_alg».proof.Proof.LibRows
import Idealize.ShloMosaic.Lib.Pipeline.Value

set_option maxRecDepth 16384

noncomputable section

namespace Cert.Gcn

open Idealize.ShloMosaic Idealize.ShloMosaic.ValueIdx

/-- The three encoded feature groups side by side, for any number of rows. -/
def encN {n : Nat} (xf : A2 n 8) (xw : A2 n 12) (xt : A2 n 10)
    (wf : A2 8 64) (bf : A1 64) (ww : A2 12 64) (bw : A1 64) (wt : A2 10 64) (bt : A1 64) : A2 n 192 :=
  fun i =>
    if h0 : (i 1).val < 64 then dense xf wf bf (ix2 (i 0) (⟨(i 1).val, h0⟩ : Fin 64))
    else if h1 : (i 1).val < 128 then dense xw ww bw (ix2 (i 0) (⟨(i 1).val - 64, by omega⟩ : Fin 64))
    else dense xt wt bt (ix2 (i 0) (⟨(i 1).val - 128, by have := (i 1).isLt; simp only [Matrix.cons_val_one, Matrix.cons_val_zero] at this; omega⟩ : Fin 64))

theorem enc_eq_encN (xf : A2 100000 8) (xw : A2 100000 12) (xt : A2 100000 10)
    (wf : A2 8 64) (bf : A1 64) (ww : A2 12 64) (bw : A1 64) (wt : A2 10 64) (bt : A1 64) :
    enc xf xw xt wf bf ww bw wt bt = encN xf xw xt wf bf ww bw wt bt := rfl

/-- An entry of the encoded features depends on one row of each feature group only. -/
theorem encN_rows {n n' : Nat} (xf : A2 n 8) (xw : A2 n 12) (xt : A2 n 10) (xf' : A2 n' 8) (xw' : A2 n' 12) (xt' : A2 n' 10)
    (wf : A2 8 64) (bf : A1 64) (ww : A2 12 64) (bw : A1 64) (wt : A2 10 64) (bt : A1 64) (p : Fin n) (p' : Fin n') (c : Fin 192)
    (hf : ∀ k : Fin 8, xf (ix2 p k) = xf' (ix2 p' k)) (hw : ∀ k : Fin 12, xw (ix2 p k) = xw' (ix2 p' k))
    (ht : ∀ k : Fin 10, xt (ix2 p k) = xt' (ix2 p' k)) :
    encN xf xw xt wf bf ww bw wt bt (ix2 p c) = encN xf' xw' xt' wf bf ww bw wt bt (ix2 p' c) := by
  unfold encN
  show (if h0 : c.val < 64 then dense xf wf bf (ix2 p (⟨c.val, h0⟩ : Fin 64))
      else if h1 : c.val < 128 then dense xw ww bw (ix2 p (⟨c.val - 64, _⟩ : Fin 64))
      else dense xt wt bt (ix2 p (⟨c.val - 128, _⟩ : Fin 64)))
    = (if h0 : c.val < 64 then dense xf' wf bf (ix2 p' (⟨c.val, h0⟩ : Fin 64))
      else if h1 : c.val < 128 then dense xw' ww bw (ix2 p' (⟨c.val - 64, _⟩ : Fin 64))
      else dense xt' wt bt (ix2 p' (⟨c.val - 128, _⟩ : Fin 64)))
  split_ifs
  · exact dense_rows xf xf' wf bf p p' _ hf
  · exact dense_rows xw xw' ww bw p p' _ hw
  · exact dense_rows xt xt' wt bt p p' _ ht

end Cert.Gcn

namespace Cert.KernelIdeal.RegEnc

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

theorem dot0_1_lin (x : FVec Ideal S5000x8 .bf16) (w : FVec Ideal S8x64 .bf16) :
    matmul dot_S5000x8_S8x64_S5000x64_1_0_0_1_n_n none x w (constant S5000x64 .f32 0x00000000#32) = Gcn.lin x w :=
  Gcn.matmul_zero_eq_lin dot_S5000x8_S8x64_S5000x64_1_0_0_1_n_n rfl rfl
    (fun i q => by
      unfold DotDims.lhsIdx
      rw [dif_neg (show ¬(0 : Fin S5000x8.rank) ∈ dot_S5000x8_S8x64_S5000x64_1_0_0_1_n_n.lhsBatch by decide), dif_pos (show (0 : Fin S5000x8.rank) ∈ dot_S5000x8_S8x64_S5000x64_1_0_0_1_n_n.lhsNonContracting by decide)]
      rfl)
    (fun i q => dot_S5000x8_S8x64_S5000x64_1_0_0_1_n_n.lhsIdx_val_of_single rfl i q)
    (fun i q => dot_S5000x8_S8x64_S5000x64_1_0_0_1_n_n.rhsIdx_val_of_single rfl i q)
    (fun i q => by
      unfold DotDims.rhsIdx
      rw [dif_neg (show ¬(1 : Fin S8x64.rank) ∈ dot_S5000x8_S8x64_S5000x64_1_0_0_1_n_n.rhsBatch by decide), dif_pos (show (1 : Fin S8x64.rank) ∈ dot_S5000x8_S8x64_S5000x64_1_0_0_1_n_n.rhsNonContracting by decide)]
      rfl)
    x w

theorem dot0_2_lin (x : FVec Ideal S5000x12 .bf16) (w : FVec Ideal S12x64 .bf16) :
    matmul dot_S5000x12_S12x64_S5000x64_1_0_0_1_n_n none x w (constant S5000x64 .f32 0x00000000#32) = Gcn.lin x w :=
  Gcn.matmul_zero_eq_lin dot_S5000x12_S12x64_S5000x64_1_0_0_1_n_n rfl rfl
    (fun i q => by
      unfold DotDims.lhsIdx
      rw [dif_neg (show ¬(0 : Fin S5000x12.rank) ∈ dot_S5000x12_S12x64_S5000x64_1_0_0_1_n_n.lhsBatch by decide), dif_pos (show (0 : Fin S5000x12.rank) ∈ dot_S5000x12_S12x64_S5000x64_1_0_0_1_n_n.lhsNonContracting by decide)]
      rfl)
    (fun i q => dot_S5000x12_S12x64_S5000x64_1_0_0_1_n_n.lhsIdx_val_of_single rfl i q)
    (fun i q => dot_S5000x12_S12x64_S5000x64_1_0_0_1_n_n.rhsIdx_val_of_single rfl i q)
    (fun i q => by
      unfold DotDims.rhsIdx
      rw [dif_neg (show ¬(1 : Fin S12x64.rank) ∈ dot_S5000x12_S12x64_S5000x64_1_0_0_1_n_n.rhsBatch by decide), dif_pos (show (1 : Fin S12x64.rank) ∈ dot_S5000x12_S12x64_S5000x64_1_0_0_1_n_n.rhsNonContracting by decide)]
      rfl)
    x w

theorem dot0_3_lin (x : FVec Ideal S5000x10 .bf16) (w : FVec Ideal S10x64 .bf16) :
    matmul dot_S5000x10_S10x64_S5000x64_1_0_0_1_n_n none x w (constant S5000x64 .f32 0x00000000#32) = Gcn.lin x w :=
  Gcn.matmul_zero_eq_lin dot_S5000x10_S10x64_S5000x64_1_0_0_1_n_n rfl rfl
    (fun i q => by
      unfold DotDims.lhsIdx
      rw [dif_neg (show ¬(0 : Fin S5000x10.rank) ∈ dot_S5000x10_S10x64_S5000x64_1_0_0_1_n_n.lhsBatch by decide), dif_pos (show (0 : Fin S5000x10.rank) ∈ dot_S5000x10_S10x64_S5000x64_1_0_0_1_n_n.lhsNonContracting by decide)]
      rfl)
    (fun i q => dot_S5000x10_S10x64_S5000x64_1_0_0_1_n_n.lhsIdx_val_of_single rfl i q)
    (fun i q => dot_S5000x10_S10x64_S5000x64_1_0_0_1_n_n.rhsIdx_val_of_single rfl i q)
    (fun i q => by
      unfold DotDims.rhsIdx
      rw [dif_neg (show ¬(1 : Fin S10x64.rank) ∈ dot_S5000x10_S10x64_S5000x64_1_0_0_1_n_n.rhsBatch by decide), dif_pos (show (1 : Fin S10x64.rank) ∈ dot_S5000x10_S10x64_S5000x64_1_0_0_1_n_n.rhsNonContracting by decide)]
      rfl)
    x w

/-- The arithmetic of encoder 1: the loaded feature block through its dense layer. -/
theorem pay0_1_eq (v0 : Vec Ideal S5000x8 .f32) (v2 : Vec Ideal S8x64 .bf16) (v5 : Vec Ideal S1x64 .f32) :
    k0_pay1 v0 v2 v5 = Gcn.dense (n := 5000) v0 v2 (Gcn.rowOf v5) := by
  unfold k0_pay1
  try dsimp only
  rw [shapeCast_self, shapeCast_self, dot0_1_lin]
  funext y
  obtain ⟨p, q, rfl⟩ : ∃ (p : Fin 5000) (q : Fin 64), y = ix2 p q := ⟨y 0, y 1, eq_ix2 y⟩
  show max (Gcn.lin _ v2 (ix2 p q) + broadcastTo S5000x64 v5 broadcasts_S1x64_S5000x64 (ix2 p q)) Gcn.zero32 = _
  rw [broadcastTo_1b_ab_apply]
  rfl

/-- The arithmetic of encoder 2: the loaded feature block through its dense layer. -/
theorem pay0_2_eq (v11 : Vec Ideal S5000x12 .f32) (v13 : Vec Ideal S12x64 .bf16) (v16 : Vec Ideal S1x64 .f32) :
    k0_pay2 v11 v13 v16 = Gcn.dense (n := 5000) v11 v13 (Gcn.rowOf v16) := by
  unfold k0_pay2
  try dsimp only
  rw [shapeCast_self, shapeCast_self, dot0_2_lin]
  funext y
  obtain ⟨p, q, rfl⟩ : ∃ (p : Fin 5000) (q : Fin 64), y = ix2 p q := ⟨y 0, y 1, eq_ix2 y⟩
  show max (Gcn.lin _ v13 (ix2 p q) + broadcastTo S5000x64 v16 broadcasts_S1x64_S5000x64 (ix2 p q)) Gcn.zero32 = _
  rw [broadcastTo_1b_ab_apply]
  rfl

/-- The arithmetic of encoder 3: the loaded feature block through its dense layer. -/
theorem pay0_3_eq (v22 : Vec Ideal S5000x10 .f32) (v24 : Vec Ideal S10x64 .bf16) (v27 : Vec Ideal S1x64 .f32) :
    k0_pay3 v22 v24 v27 = Gcn.dense (n := 5000) v22 v24 (Gcn.rowOf v27) := by
  unfold k0_pay3
  try dsimp only
  rw [shapeCast_self, shapeCast_self, dot0_3_lin]
  funext y
  obtain ⟨p, q, rfl⟩ : ∃ (p : Fin 5000) (q : Fin 64), y = ix2 p q := ⟨y 0, y 1, eq_ix2 y⟩
  show max (Gcn.lin _ v24 (ix2 p q) + broadcastTo S5000x64 v27 broadcasts_S1x64_S5000x64 (ix2 p q)) Gcn.zero32 = _
  rw [broadcastTo_1b_ab_apply]
  rfl

set_option maxHeartbeats 1600000 in
/-- What the body leaves in the output block: the three encoded groups side by side. -/
theorem out0_9_eq (x0 : Vec Ideal S5000x8 .f32) (x1 : Vec Ideal S5000x12 .f32) (x2 : Vec Ideal S5000x10 .f32) (x3 : Vec Ideal S8x64 .bf16) (x4 : Vec Ideal S1x64 .f32) (x5 : Vec Ideal S12x64 .bf16) (x6 : Vec Ideal S1x64 .f32) (x7 : Vec Ideal S10x64 .bf16) (x8 : Vec Ideal S1x64 .f32) :
    out0_9 x0 x1 x2 x3 x4 x5 x6 x7 x8 = Gcn.encN (n := 5000) x0 x1 x2 x3 (Gcn.rowOf x4) x5 (Gcn.rowOf x6) x7 (Gcn.rowOf x8) := by
  funext y
  unfold out0_9
  simp only [View.ld_unit_zero (S := S5000x8) hz, View.ld_unit_zero (S := S5000x12) hz, View.ld_unit_zero (S := S5000x10) hz,
    View.ld_unit_zero (S := S8x64) hz, View.ld_unit_zero (S := S12x64) hz, View.ld_unit_zero (S := S10x64) hz, View.ld_unit_zero (S := S1x64) hz]
  rw [pay0_1_eq, pay0_2_eq, pay0_3_eq]
  refine View.canon_apply_of_pieces (Val := Elt Ideal) (Gcn.encN (n := 5000) x0 x1 x2 x3 (Gcn.rowOf x4) x5 (Gcn.rowOf x6) x7 (Gcn.rowOf x8)) _ ?_ y (cover0_9 _ _ _ y)
  intro pc hpc x
  simp only [List.mem_cons, List.not_mem_nil, or_false] at hpc
  rcases hpc with rfl | rfl | rfl
  · obtain ⟨p, q, rfl⟩ : ∃ (p : Fin 5000) (q : Fin 64), x = ix2 p q := ⟨x 0, x 1, eq_ix2 x⟩
    show Gcn.dense x2 x7 (Gcn.rowOf x8) (ix2 p q) = Gcn.encN x0 x1 x2 x3 (Gcn.rowOf x4) x5 (Gcn.rowOf x6) x7 (Gcn.rowOf x8) (r0_9.emb (ix2 p q))
    unfold Gcn.encN
    have hv : (r0_9.emb (ix2 p q) 1).val = 128 + 1 * q.val := rfl
    have hq := q.isLt
    split_ifs with h0 h1
    ·
      exfalso; omega
    ·
      exfalso; omega
    ·
      refine congrArg (Gcn.dense x2 x7 (Gcn.rowOf x8)) (funext fun a => Fin.ext ?_)
      match a with
      | ⟨0, _⟩ => show p.val = 0 + 1 * p.val; omega
      | ⟨1, _⟩ => show q.val = 128 + 1 * q.val - 128; omega
  · obtain ⟨p, q, rfl⟩ : ∃ (p : Fin 5000) (q : Fin 64), x = ix2 p q := ⟨x 0, x 1, eq_ix2 x⟩
    show Gcn.dense x1 x5 (Gcn.rowOf x6) (ix2 p q) = Gcn.encN x0 x1 x2 x3 (Gcn.rowOf x4) x5 (Gcn.rowOf x6) x7 (Gcn.rowOf x8) (r0_8.emb (ix2 p q))
    unfold Gcn.encN
    have hv : (r0_8.emb (ix2 p q) 1).val = 64 + 1 * q.val := rfl
    have hq := q.isLt
    split_ifs with h0 h1
    ·
      exfalso; omega
    ·
      refine congrArg (Gcn.dense x1 x5 (Gcn.rowOf x6)) (funext fun a => Fin.ext ?_)
      match a with
      | ⟨0, _⟩ => show p.val = 0 + 1 * p.val; omega
      | ⟨1, _⟩ => show q.val = 64 + 1 * q.val - 64; omega
    ·
      exfalso; omega
  · obtain ⟨p, q, rfl⟩ : ∃ (p : Fin 5000) (q : Fin 64), x = ix2 p q := ⟨x 0, x 1, eq_ix2 x⟩
    show Gcn.dense x0 x3 (Gcn.rowOf x4) (ix2 p q) = Gcn.encN x0 x1 x2 x3 (Gcn.rowOf x4) x5 (Gcn.rowOf x6) x7 (Gcn.rowOf x8) (r0_7.emb (ix2 p q))
    unfold Gcn.encN
    have hv : (r0_7.emb (ix2 p q) 1).val = 0 + 1 * q.val := rfl
    have hq := q.isLt
    split_ifs with h0 h1
    ·
      refine congrArg (Gcn.dense x0 x3 (Gcn.rowOf x4)) (funext fun a => Fin.ext ?_)
      match a with
      | ⟨0, _⟩ => show p.val = 0 + 1 * p.val; omega
      | ⟨1, _⟩ => show q.val = 0 + 1 * q.val; omega
    ·
      exfalso; omega
    ·
      exfalso; omega

/-- The printed index maps over the grid: the three feature groups and the output move with the point, the six parameters are one block each. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

set_option maxHeartbeats 3200000 in
/-- What point `t` writes back is row block `t` of the encoding of the arrays the kernel finds. -/
theorem flushed0_eq (c : Dev nD) (X0 : Gcn.A2 100000 8) (X1 : Gcn.A2 100000 12) (X2 : Gcn.A2 100000 10)
    (Wf : Gcn.A2 8 64) (Bf : Gcn.A2 1 64) (Ww : Gcn.A2 12 64) (Bw : Gcn.A2 1 64) (Wt : Gcn.A2 10 64) (Bt : Gcn.A2 1 64)
    (h0 : V c (Pipeline.arrRef spec0 0) = X0) (h1 : V c (Pipeline.arrRef spec0 1) = X1) (h2 : V c (Pipeline.arrRef spec0 2) = X2)
    (h3 : V c (Pipeline.arrRef spec0 3) = Wf) (h4 : V c (Pipeline.arrRef spec0 4) = Bf) (h5 : V c (Pipeline.arrRef spec0 5) = Ww)
    (h6 : V c (Pipeline.arrRef spec0 6) = Bw) (h7 : V c (Pipeline.arrRef spec0 7) = Wt) (h8 : V c (Pipeline.arrRef spec0 8) = Bt) (t : Fin cfg0.N) :
    (dat0 (F := Ideal) V c).flushed 9 t = ((cfg0.win 9).blk t).view.read (Elt Ideal) (Gcn.enc X0 X1 X2 Wf (Gcn.rowOf Bf) Ww (Gcn.rowOf Bw) Wt (Gcn.rowOf Bt)) := by
  show (cfg0.win 9).cut (grid0.coords t) ((dat0 (F := Ideal) V c).after 9 t) = _
  rw [after0_9, out0_9_eq]
  obtain ⟨e0, e1, e2, e3, e4, e5, e6, e7, e8, e9, e10, e11, e12, e13, e14, e15, e16, e17, e18, e19⟩ := idx_facts0 t
  funext y
  obtain ⟨p, q, rfl⟩ : ∃ (p : Fin 5000) (q : Fin 192), y = ix2 p q := ⟨y 0, y 1, eq_ix2 y⟩
  show Gcn.encN (iblk0 V c 0 t) (iblk0 V c 1 t) (iblk0 V c 2 t) (iblk0 V c 3 t) (Gcn.rowOf (iblk0 V c 4 t)) (iblk0 V c 5 t) (Gcn.rowOf (iblk0 V c 6 t)) (iblk0 V c 7 t) (Gcn.rowOf (iblk0 V c 8 t)) (ix2 p q)
    = Gcn.enc X0 X1 X2 Wf (Gcn.rowOf Bf) Ww (Gcn.rowOf Bw) Wt (Gcn.rowOf Bt) (((cfg0.win 9).blk t).view.emb (ix2 p q))
  have hw3 : iblk0 V c 3 t = Wf := by
    funext z
    unfold iblk0
    rw [View.read_apply, h3]
    refine congrArg Wf (funext fun a => Fin.ext ?_)
    match a with
    | ⟨0, _⟩ => show win0_3.index t (0 : Fin 2) * 8 + 1 * (z 0).val = (z 0).val; omega
    | ⟨1, _⟩ => show win0_3.index t (1 : Fin 2) * 64 + 1 * (z 1).val = (z 1).val; omega
  have hw4 : iblk0 V c 4 t = Bf := by
    funext z
    unfold iblk0
    rw [View.read_apply, h4]
    refine congrArg Bf (funext fun a => Fin.ext ?_)
    match a with
    | ⟨0, _⟩ => show win0_4.index t (0 : Fin 2) * 1 + 1 * (z 0).val = (z 0).val; omega
    | ⟨1, _⟩ => show win0_4.index t (1 : Fin 2) * 64 + 1 * (z 1).val = (z 1).val; omega
  have hw5 : iblk0 V c 5 t = Ww := by
    funext z
    unfold iblk0
    rw [View.read_apply, h5]
    refine congrArg Ww (funext fun a => Fin.ext ?_)
    match a with
    | ⟨0, _⟩ => show win0_5.index t (0 : Fin 2) * 12 + 1 * (z 0).val = (z 0).val; omega
    | ⟨1, _⟩ => show win0_5.index t (1 : Fin 2) * 64 + 1 * (z 1).val = (z 1).val; omega
  have hw6 : iblk0 V c 6 t = Bw := by
    funext z
    unfold iblk0
    rw [View.read_apply, h6]
    refine congrArg Bw (funext fun a => Fin.ext ?_)
    match a with
    | ⟨0, _⟩ => show win0_6.index t (0 : Fin 2) * 1 + 1 * (z 0).val = (z 0).val; omega
    | ⟨1, _⟩ => show win0_6.index t (1 : Fin 2) * 64 + 1 * (z 1).val = (z 1).val; omega
  have hw7 : iblk0 V c 7 t = Wt := by
    funext z
    unfold iblk0
    rw [View.read_apply, h7]
    refine congrArg Wt (funext fun a => Fin.ext ?_)
    match a with
    | ⟨0, _⟩ => show win0_7.index t (0 : Fin 2) * 10 + 1 * (z 0).val = (z 0).val; omega
    | ⟨1, _⟩ => show win0_7.index t (1 : Fin 2) * 64 + 1 * (z 1).val = (z 1).val; omega
  have hw8 : iblk0 V c 8 t = Bt := by
    funext z
    unfold iblk0
    rw [View.read_apply, h8]
    refine congrArg Bt (funext fun a => Fin.ext ?_)
    match a with
    | ⟨0, _⟩ => show win0_8.index t (0 : Fin 2) * 1 + 1 * (z 0).val = (z 0).val; omega
    | ⟨1, _⟩ => show win0_8.index t (1 : Fin 2) * 64 + 1 * (z 1).val = (z 1).val; omega
  rw [hw3, hw4, hw5, hw6, hw7, hw8, Gcn.enc_eq_encN]
  have hE : ((cfg0.win 9).blk t).view.emb (ix2 p q) = ix2 ((((cfg0.win 9).blk t).view.emb (ix2 p q)) 0) q := by
    funext a; apply Fin.ext
    match a with
    | ⟨0, _⟩ => rfl
    | ⟨1, _⟩ => show win0_9.index t (1 : Fin 2) * 192 + 1 * q.val = q.val; omega
  have hr0 : ∀ k : Fin 8, iblk0 V c 0 t (ix2 p k) = X0 (ix2 ((((cfg0.win 9).blk t).view.emb (ix2 p q)) 0) k) := by
    intro k
    unfold iblk0
    rw [View.read_apply, h0]
    refine congrArg X0 (funext fun a => Fin.ext ?_)
    match a with
    | ⟨0, _⟩ => show win0_0.index t (0 : Fin 2) * 5000 + 1 * p.val = win0_9.index t (0 : Fin 2) * 5000 + 1 * p.val; omega
    | ⟨1, _⟩ => show win0_0.index t (1 : Fin 2) * 8 + 1 * k.val = k.val; omega
  have hr1 : ∀ k : Fin 12, iblk0 V c 1 t (ix2 p k) = X1 (ix2 ((((cfg0.win 9).blk t).view.emb (ix2 p q)) 0) k) := by
    intro k
    unfold iblk0
    rw [View.read_apply, h1]
    refine congrArg X1 (funext fun a => Fin.ext ?_)
    match a with
    | ⟨0, _⟩ => show win0_1.index t (0 : Fin 2) * 5000 + 1 * p.val = win0_9.index t (0 : Fin 2) * 5000 + 1 * p.val; omega
    | ⟨1, _⟩ => show win0_1.index t (1 : Fin 2) * 12 + 1 * k.val = k.val; omega
  have hr2 : ∀ k : Fin 10, iblk0 V c 2 t (ix2 p k) = X2 (ix2 ((((cfg0.win 9).blk t).view.emb (ix2 p q)) 0) k) := by
    intro k
    unfold iblk0
    rw [View.read_apply, h2]
    refine congrArg X2 (funext fun a => Fin.ext ?_)
    match a with
    | ⟨0, _⟩ => show win0_2.index t (0 : Fin 2) * 5000 + 1 * p.val = win0_9.index t (0 : Fin 2) * 5000 + 1 * p.val; omega
    | ⟨1, _⟩ => show win0_2.index t (1 : Fin 2) * 10 + 1 * k.val = k.val; omega
  rw [hE]
  exact Gcn.encN_rows _ _ _ X0 X1 X2 Wf (Gcn.rowOf Bf) Ww (Gcn.rowOf Bw) Wt (Gcn.rowOf Bt) p _ q hr0 hr1 hr2

/-- Every row lies in the block of the point numbered by its row block. -/
theorem cover0 (i : S100000x192.Idx) : ∃ t : Fin cfg0.N, (cfg0.win 9).flush t = true ∧ i ∈ ((cfg0.win 9).blk t).view.set := by
  have hi0 : (i 0).val < 100000 := (i 0).isLt
  have hi1 : (i 1).val < 192 := (i 1).isLt
  let t : Fin cfg0.N := ⟨(i 0).val / 5000, by rw [show cfg0.N = 20 from N_0]; omega⟩
  obtain ⟨e0, e1, e2, e3, e4, e5, e6, e7, e8, e9, e10, e11, e12, e13, e14, e15, e16, e17, e18, e19⟩ := idx_facts0 t
  have e18' : win0_9.index t (0 : Fin 2) = (i 0).val / 5000 := e18
  refine ⟨t, flush0_9 t, ?_⟩
  show i ∈ ((View.whole main_v10).slice (win0_9.rect t)).set
  rw [View.set_slice_whole, Rect.mem_set_unit]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 192 ≤ (i 1).val ∧ (i 1).val < win0_9.index t (1 : Fin 2) * 192 + 192; omega

/-- The output array after the kernel is the encoding of the nine arrays the kernel finds. -/
theorem final0 (c : Dev nD) (X0 : Gcn.A2 100000 8) (X1 : Gcn.A2 100000 12) (X2 : Gcn.A2 100000 10)
    (Wf : Gcn.A2 8 64) (Bf : Gcn.A2 1 64) (Ww : Gcn.A2 12 64) (Bw : Gcn.A2 1 64) (Wt : Gcn.A2 10 64) (Bt : Gcn.A2 1 64)
    (h0 : V c (Pipeline.arrRef spec0 0) = X0) (h1 : V c (Pipeline.arrRef spec0 1) = X1) (h2 : V c (Pipeline.arrRef spec0 2) = X2)
    (h3 : V c (Pipeline.arrRef spec0 3) = Wf) (h4 : V c (Pipeline.arrRef spec0 4) = Bf) (h5 : V c (Pipeline.arrRef spec0 5) = Ww)
    (h6 : V c (Pipeline.arrRef spec0 6) = Bw) (h7 : V c (Pipeline.arrRef spec0 7) = Wt) (h8 : V c (Pipeline.arrRef spec0 8) = Bt) :
    (dat0 (F := Ideal) V c).arrAt 9 cfg0.N = Gcn.enc X0 X1 X2 Wf (Gcn.rowOf Bf) Ww (Gcn.rowOf Bw) Wt (Gcn.rowOf Bt) :=
  (dat0 (F := Ideal) V c).arrAt_eq_of_cover 9 _ (fun t _ => flushed0_eq V c X0 X1 X2 Wf Bf Ww Bw Wt Bt h0 h1 h2 h3 h4 h5 h6 h7 h8 t) (cover0)

end Cert.KernelIdeal.RegEnc

end
-- ==== Proof.RegLin.lean ====
/-
  The three linear kernels: each multiplies the node features, 5000 rows per grid point, by one weight matrix.

  At a grid point the body loads row block `t` of the features and the whole weight matrix and stores their product
  into row block `t` of the output; the twenty row blocks tile the 100000 rows, so after the kernel the output array is
  the product of the two arrays the kernel found, entry `(r, c) = ∑ q, X (r, q) · W (q, c)`.  The conversion of the
  feature block to the narrow float format is the identity on extended reals.
-/
import proofs.«172681_j28278064677000_2_alg».proof.Proof.Gen.KernelIdeal.Frame
import proofs.«172681_j28278064677000_2_alg».proof.Proof.LibRowsCols
import Idealize.ShloMosaic.Lib.Pipeline.Value

set_option maxRecDepth 16384

noncomputable section

open scoped BigOperators

namespace Cert.KernelIdeal.RegLin

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## The linear kernel number 1: rows of a [100000, 192] matrix times a [192, 64] matrix, 5000 rows per grid point -/

section Lin1

theorem dot1_lin (x : FVec Ideal S5000x192 .bf16) (w : FVec Ideal S192x64 .bf16) :
    FloatOps.matmul dot_S5000x192_S192x64_S5000x64_1_0_0_1_n_n none x w (constant S5000x64 .f32 0x00000000#32) = Gcn.lin x w :=
  Gcn.matmul_zero_eq_lin dot_S5000x192_S192x64_S5000x64_1_0_0_1_n_n rfl rfl
    (fun i q => by
      unfold DotDims.lhsIdx
      rw [dif_neg (show ¬(0 : Fin S5000x192.rank) ∈ dot_S5000x192_S192x64_S5000x64_1_0_0_1_n_n.lhsBatch by decide), dif_pos (show (0 : Fin S5000x192.rank) ∈ dot_S5000x192_S192x64_S5000x64_1_0_0_1_n_n.lhsNonContracting by decide)]
      rfl)
    (fun i q => dot_S5000x192_S192x64_S5000x64_1_0_0_1_n_n.lhsIdx_val_of_single rfl i q)
    (fun i q => dot_S5000x192_S192x64_S5000x64_1_0_0_1_n_n.rhsIdx_val_of_single rfl i q)
    (fun i q => by
      unfold DotDims.rhsIdx
      rw [dif_neg (show ¬(1 : Fin S192x64.rank) ∈ dot_S5000x192_S192x64_S5000x64_1_0_0_1_n_n.rhsBatch by decide), dif_pos (show (1 : Fin S192x64.rank) ∈ dot_S5000x192_S192x64_S5000x64_1_0_0_1_n_n.rhsNonContracting by decide)]
      rfl)
    x w

/-- The body's arithmetic: the loaded row block times the loaded weight matrix. -/
theorem pay1_eq (x0 : Vec Ideal S5000x192 .f32) (x1 : Vec Ideal S192x64 .bf16) : k1_pay1 x0 x1 = Gcn.lin x0 x1 := by
  unfold k1_pay1
  dsimp only
  rw [shapeCast_self, shapeCast_self]
  exact dot1_lin _ _

/-- The printed index maps over the grid: point `t` reads and writes row block `t`, and the weight matrix is one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1600000 in
/-- What point `t` writes back is row block `t` of the product of the arrays the kernel finds. -/
theorem flushed1_eq (c : Dev nD) (X : Gcn.A2 100000 192) (Wt : Gcn.A2 192 64)
    (hX : V c (Pipeline.arrRef spec1 0) = X) (hW : V c (Pipeline.arrRef spec1 1) = Wt) (t : Fin cfg1.N) :
    (dat1 (F := Ideal) V c).flushed 2 t = ((cfg1.win 2).blk t).view.read (Elt Ideal) (Gcn.lin X Wt) := by
  show (cfg1.win 2).cut (grid1.coords t) ((dat1 (F := Ideal) V c).after 2 t) = _
  rw [after1_2]
  unfold out1_2
  rw [View.canon_unit_zero hz]
  simp only [View.ld_unit_zero (S := S5000x192) hz, View.ld_unit_zero (S := S192x64) hz]
  rw [pay1_eq]
  obtain ⟨e0, e1, e2, e3, e4, e5⟩ := idx_facts1 t
  funext y
  show Gcn.lin (iblk1 V c 0 t) (iblk1 V c 1 t) y = Gcn.lin X Wt (((cfg1.win 2).blk t).view.emb y)
  unfold Gcn.lin
  refine Finset.sum_congr rfl fun q _ => ?_
  have h0 : iblk1 V c 0 t (ix2 (y 0) q) = X (ix2 ((((cfg1.win 2).blk t).view.emb y) 0) q) := by
    unfold iblk1
    rw [View.read_apply, hX]
    refine congrArg X (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 192 + 1 * q.val = q.val; omega
  have h1 : iblk1 V c 1 t (ix2 q (y 1)) = Wt (ix2 q ((((cfg1.win 2).blk t).view.emb y) 1)) := by
    unfold iblk1
    rw [View.read_apply, hW]
    refine congrArg Wt (funext fun a => Fin.ext ?_)
    match a with
    | ⟨0, _⟩ => show win1_1.index t (0 : Fin 2) * 192 + 1 * q.val = q.val; omega
    | ⟨1, _⟩ => show win1_1.index t (1 : Fin 2) * 64 + 1 * (y 1).val = win1_2.index t (1 : Fin 2) * 64 + 1 * (y 1).val; omega
  rw [h0, h1]

/-- Every row lies in the block of the point numbered by its row block. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨e0, e1, e2, e3, e4, e5⟩ := idx_facts1 t
  have e4' : win1_2.index t (0 : Fin 2) = (i 0).val / 5000 := e4
  refine ⟨t, flush1_2 t, ?_⟩
  show i ∈ ((View.whole main_v42).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the kernel is the product of the two arrays the kernel finds. -/
theorem final1 (c : Dev nD) (X : Gcn.A2 100000 192) (Wt : Gcn.A2 192 64)
    (hX : V c (Pipeline.arrRef spec1 0) = X) (hW : V c (Pipeline.arrRef spec1 1) = Wt) :
    (dat1 (F := Ideal) V c).arrAt 2 cfg1.N = Gcn.lin X Wt :=
  (dat1 (F := Ideal) V c).arrAt_eq_of_cover 2 (Gcn.lin X Wt) (fun t _ => flushed1_eq V c X Wt hX hW t) (cover1)

end Lin1

/-! ## The linear kernel number 3: rows of a [100000, 64] matrix times a [64, 64] matrix, 5000 rows per grid point -/

section Lin3

theorem dot3_lin (x : FVec Ideal S5000x64 .bf16) (w : FVec Ideal S64x64 .bf16) :
    FloatOps.matmul dot_S5000x64_S64x64_S5000x64_1_0_0_1_n_n none x w (constant S5000x64 .f32 0x00000000#32) = Gcn.lin x w :=
  Gcn.matmul_zero_eq_lin dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    x w

/-- The body's arithmetic: the loaded row block times the loaded weight matrix. -/
theorem pay3_eq (x0 : Vec Ideal S5000x64 .f32) (x1 : Vec Ideal S64x64 .bf16) : k3_pay1 x0 x1 = Gcn.lin x0 x1 := by
  unfold k3_pay1
  dsimp only
  rw [shapeCast_self, shapeCast_self]
  exact dot3_lin _ _

/-- The printed index maps over the grid: point `t` reads and writes row block `t`, and the weight matrix is one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1600000 in
/-- What point `t` writes back is row block `t` of the product of the arrays the kernel finds. -/
theorem flushed3_eq (c : Dev nD) (X : Gcn.A2 100000 64) (Wt : Gcn.A2 64 64)
    (hX : V c (Pipeline.arrRef spec3 0) = X) (hW : V c (Pipeline.arrRef spec3 1) = Wt) (t : Fin cfg3.N) :
    (dat3 (F := Ideal) V c).flushed 2 t = ((cfg3.win 2).blk t).view.read (Elt Ideal) (Gcn.lin X Wt) := by
  show (cfg3.win 2).cut (grid3.coords t) ((dat3 (F := Ideal) V c).after 2 t) = _
  rw [after3_2]
  unfold out3_2
  rw [View.canon_unit_zero hz]
  simp only [View.ld_unit_zero (S := S5000x64) hz, View.ld_unit_zero (S := S64x64) hz]
  rw [pay3_eq]
  obtain ⟨e0, e1, e2, e3, e4, e5⟩ := idx_facts3 t
  funext y
  show Gcn.lin (iblk3 V c 0 t) (iblk3 V c 1 t) y = Gcn.lin X Wt (((cfg3.win 2).blk t).view.emb y)
  unfold Gcn.lin
  refine Finset.sum_congr rfl fun q _ => ?_
  have h0 : iblk3 V c 0 t (ix2 (y 0) q) = X (ix2 ((((cfg3.win 2).blk t).view.emb y) 0) q) := by
    unfold iblk3
    rw [View.read_apply, hX]
    refine congrArg X (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 64 + 1 * q.val = q.val; omega
  have h1 : iblk3 V c 1 t (ix2 q (y 1)) = Wt (ix2 q ((((cfg3.win 2).blk t).view.emb y) 1)) := by
    unfold iblk3
    rw [View.read_apply, hW]
    refine congrArg Wt (funext fun a => Fin.ext ?_)
    match a with
    | ⟨0, _⟩ => show win3_1.index t (0 : Fin 2) * 64 + 1 * q.val = q.val; omega
    | ⟨1, _⟩ => show win3_1.index t (1 : Fin 2) * 64 + 1 * (y 1).val = win3_2.index t (1 : Fin 2) * 64 + 1 * (y 1).val; omega
  rw [h0, h1]

/-- Every row lies in the block of the point numbered by its row block. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 5000, by rw [show cfg3.N = 20 from N_3]; omega⟩
  obtain ⟨e0, e1, e2, e3, e4, e5⟩ := idx_facts3 t
  have e4' : win3_2.index t (0 : Fin 2) = (i 0).val / 5000 := e4
  refine ⟨t, flush3_2 t, ?_⟩
  show i ∈ ((View.whole main_v63).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the kernel is the product of the two arrays the kernel finds. -/
theorem final3 (c : Dev nD) (X : Gcn.A2 100000 64) (Wt : Gcn.A2 64 64)
    (hX : V c (Pipeline.arrRef spec3 0) = X) (hW : V c (Pipeline.arrRef spec3 1) = Wt) :
    (dat3 (F := Ideal) V c).arrAt 2 cfg3.N = Gcn.lin X Wt :=
  (dat3 (F := Ideal) V c).arrAt_eq_of_cover 2 (Gcn.lin X Wt) (fun t _ => flushed3_eq V c X Wt hX hW t) (cover3)

end Lin3

/-! ## The linear kernel number 5: rows of a [100000, 64] matrix times a [64, 64] matrix, 5000 rows per grid point -/

section Lin5

theorem dot5_lin (x : FVec Ideal S5000x64 .bf16) (w : FVec Ideal S64x64 .bf16) :
    FloatOps.matmul dot_S5000x64_S64x64_S5000x64_1_0_0_1_n_n none x w (constant S5000x64 .f32 0x00000000#32) = Gcn.lin x w :=
  Gcn.matmul_zero_eq_lin dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    x w

/-- The body's arithmetic: the loaded row block times the loaded weight matrix. -/
theorem pay5_eq (x0 : Vec Ideal S5000x64 .f32) (x1 : Vec Ideal S64x64 .bf16) : k5_pay1 x0 x1 = Gcn.lin x0 x1 := by
  unfold k5_pay1
  dsimp only
  rw [shapeCast_self, shapeCast_self]
  exact dot5_lin _ _

/-- The printed index maps over the grid: point `t` reads and writes row block `t`, and the weight matrix is one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

set_option maxHeartbeats 1600000 in
/-- What point `t` writes back is row block `t` of the product of the arrays the kernel finds. -/
theorem flushed5_eq (c : Dev nD) (X : Gcn.A2 100000 64) (Wt : Gcn.A2 64 64)
    (hX : V c (Pipeline.arrRef spec5 0) = X) (hW : V c (Pipeline.arrRef spec5 1) = Wt) (t : Fin cfg5.N) :
    (dat5 (F := Ideal) V c).flushed 2 t = ((cfg5.win 2).blk t).view.read (Elt Ideal) (Gcn.lin X Wt) := by
  show (cfg5.win 2).cut (grid5.coords t) ((dat5 (F := Ideal) V c).after 2 t) = _
  rw [after5_2]
  unfold out5_2
  rw [View.canon_unit_zero hz]
  simp only [View.ld_unit_zero (S := S5000x64) hz, View.ld_unit_zero (S := S64x64) hz]
  rw [pay5_eq]
  obtain ⟨e0, e1, e2, e3, e4, e5⟩ := idx_facts5 t
  funext y
  show Gcn.lin (iblk5 V c 0 t) (iblk5 V c 1 t) y = Gcn.lin X Wt (((cfg5.win 2).blk t).view.emb y)
  unfold Gcn.lin
  refine Finset.sum_congr rfl fun q _ => ?_
  have h0 : iblk5 V c 0 t (ix2 (y 0) q) = X (ix2 ((((cfg5.win 2).blk t).view.emb y) 0) q) := by
    unfold iblk5
    rw [View.read_apply, hX]
    refine congrArg X (funext fun a => Fin.ext ?_)
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 64 + 1 * q.val = q.val; omega
  have h1 : iblk5 V c 1 t (ix2 q (y 1)) = Wt (ix2 q ((((cfg5.win 2).blk t).view.emb y) 1)) := by
    unfold iblk5
    rw [View.read_apply, hW]
    refine congrArg Wt (funext fun a => Fin.ext ?_)
    match a with
    | ⟨0, _⟩ => show win5_1.index t (0 : Fin 2) * 64 + 1 * q.val = q.val; omega
    | ⟨1, _⟩ => show win5_1.index t (1 : Fin 2) * 64 + 1 * (y 1).val = win5_2.index t (1 : Fin 2) * 64 + 1 * (y 1).val; omega
  rw [h0, h1]

/-- Every row lies in the block of the point numbered by its row block. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 5000, by rw [show cfg5.N = 20 from N_5]; omega⟩
  obtain ⟨e0, e1, e2, e3, e4, e5⟩ := idx_facts5 t
  have e4' : win5_2.index t (0 : Fin 2) = (i 0).val / 5000 := e4
  refine ⟨t, flush5_2 t, ?_⟩
  show i ∈ ((View.whole main_v84).slice (win5_2.rect t)).set
  rw [View.set_slice_whole, Rect.mem_set_unit]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The output array after the kernel is the product of the two arrays the kernel finds. -/
theorem final5 (c : Dev nD) (X : Gcn.A2 100000 64) (Wt : Gcn.A2 64 64)
    (hX : V c (Pipeline.arrRef spec5 0) = X) (hW : V c (Pipeline.arrRef spec5 1) = Wt) :
    (dat5 (F := Ideal) V c).arrAt 2 cfg5.N = Gcn.lin X Wt :=
  (dat5 (F := Ideal) V c).arrAt_eq_of_cover 2 (Gcn.lin X Wt) (fun t _ => flushed5_eq V c X Wt hX hW t) (cover5)

end Lin5

end Cert.KernelIdeal.RegLin

end
-- ==== Proof.RegComb.lean ====
/-
  The three combining kernels.

  At a grid point the body loads row block `t` of the aggregated rows, of the node's own rows and of the per-node
  self-loop weight column, and the bias row, and stores `max (agg + own · weight + bias, 0)` into row block `t` of the
  output: the column is broadcast along the row, the bias row along the column.  The twenty row blocks tile the
  100000 rows, so after the kernel the output array is that combination of the four arrays the kernel found.
-/
import proofs.«172681_j28278064677000_2_alg».proof.Proof.Gen.KernelIdeal.Frame
import proofs.«172681_j28278064677000_2_alg».proof.Proof.LibBroadcast
import Idealize.ShloMosaic.Lib.Pipeline.Value

set_option maxRecDepth 16384

noncomputable section

namespace Cert.KernelIdeal.RegComb

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

/-! ## The combining kernel number 2 -/

section Comb2

/-- The body's arithmetic at an entry of the block. -/
theorem pay2_apply (v0 v2 : Vec Ideal S5000x64 .f32) (v4 : Vec Ideal S5000x1 .f32) (v9 : Vec Ideal S1x64 .f32) (p : Fin 5000) (q : Fin 64) :
    k2_pay1 v0 v2 v4 v9 (ix2 p q)
      = max (v0 (ix2 p q) + v2 (ix2 p q) * v4 (ix2 p (0 : Fin 1)) + v9 (ix2 (0 : Fin 1) q)) Gcn.zero32 := by
  unfold k2_pay1
  rw [shapeCast_self, shapeCast_self, shapeCast_self, shapeCast_self]
  show max (v0 (ix2 p q) + v2 (ix2 p q) * broadcastTo S5000x64 v4 broadcasts_S5000x1_S5000x64 (ix2 p q)
      + broadcastTo S5000x64 v9 broadcasts_S1x64_S5000x64 (ix2 p q)) Gcn.zero32 = _
  rw [Gcn.broadcastTo_a1_ab_apply, broadcastTo_1b_ab_apply]

/-- The printed index maps over the grid: the three row-blocked inputs and the output move with the point, the bias row is one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

set_option maxHeartbeats 1600000 in
/-- What point `t` writes back is row block `t` of the combination of the arrays the kernel finds. -/
theorem flushed2_eq (c : Dev nD) (A H : Gcn.A2 100000 64) (D2 : Gcn.A2 100000 1) (B : Gcn.A2 1 64)
    (hA : V c (Pipeline.arrRef spec2 0) = A) (hH : V c (Pipeline.arrRef spec2 1) = H)
    (hD : V c (Pipeline.arrRef spec2 2) = D2) (hB : V c (Pipeline.arrRef spec2 3) = B) (t : Fin cfg2.N) :
    (dat2 (F := Ideal) V c).flushed 4 t = ((cfg2.win 4).blk t).view.read (Elt Ideal) (Gcn.comb A H D2 (Gcn.rowOf B)) := by
  show (cfg2.win 4).cut (grid2.coords t) ((dat2 (F := Ideal) V c).after 4 t) = _
  rw [after2_4]
  unfold out2_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts2 t
  funext y
  obtain ⟨p, q, rfl⟩ : ∃ (p : Fin 5000) (q : Fin 64), y = ix2 p q := ⟨y 0, y 1, eq_ix2 y⟩
  show k2_pay1 (iblk2 V c 0 t) (iblk2 V c 1 t) (iblk2 V c 2 t) (iblk2 V c 3 t) (ix2 p q) = Gcn.comb A H D2 (Gcn.rowOf B) (((cfg2.win 4).blk t).view.emb (ix2 p q))
  rw [pay2_apply]
  unfold Gcn.comb Gcn.rowOf
  have h0 : iblk2 V c 0 t (ix2 p q) = A (((cfg2.win 4).blk t).view.emb (ix2 p q)) := by
    unfold iblk2
    rw [View.read_apply, hA]
    refine congrArg A (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 64 + 1 * q.val = win2_4.index t (1 : Fin 2) * 64 + 1 * q.val; omega
  have h1 : iblk2 V c 1 t (ix2 p q) = H (((cfg2.win 4).blk t).view.emb (ix2 p q)) := by
    unfold iblk2
    rw [View.read_apply, hH]
    refine congrArg H (funext fun a => Fin.ext ?_)
    match a with
    | ⟨0, _⟩ => show win2_1.index t (0 : Fin 2) * 5000 + 1 * p.val = win2_4.index t (0 : Fin 2) * 5000 + 1 * p.val; omega
    | ⟨1, _⟩ => show win2_1.index t (1 : Fin 2) * 64 + 1 * q.val = win2_4.index t (1 : Fin 2) * 64 + 1 * q.val; omega
  have h2 : iblk2 V c 2 t (ix2 p (0 : Fin 1)) = D2 (ix2 ((((cfg2.win 4).blk t).view.emb (ix2 p q)) 0) (0 : Fin 1)) := by
    unfold iblk2
    rw [View.read_apply, hD]
    refine congrArg D2 (funext fun a => Fin.ext ?_)
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have h3 : iblk2 V c 3 t (ix2 (0 : Fin 1) q) = B (ix2 (0 : Fin 1) ((((cfg2.win 4).blk t).view.emb (ix2 p q)) 1)) := by
    unfold iblk2
    rw [View.read_apply, hB]
    refine congrArg B (funext fun a => Fin.ext ?_)
    match a with
    | ⟨0, _⟩ => show win2_3.index t (0 : Fin 2) * 1 + 1 * 0 = 0; omega
    | ⟨1, _⟩ => show win2_3.index t (1 : Fin 2) * 64 + 1 * q.val = win2_4.index t (1 : Fin 2) * 64 + 1 * q.val; omega
  rw [h0, h1, h2, h3]

/-- Every row lies in the block of the point numbered by its row block. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  let t : Fin cfg2.N := ⟨(i 0).val / 5000, by rw [show cfg2.N = 20 from N_2]; omega⟩
  obtain ⟨e0, e1, e2, e3, e4, e5, e6, e7, e8, e9⟩ := idx_facts2 t
  have e8' : win2_4.index t (0 : Fin 2) = (i 0).val / 5000 := e8
  refine ⟨t, flush2_4 t, ?_⟩
  show i ∈ ((View.whole main_v61).slice (win2_4.rect t)).set
  rw [View.set_slice_whole, Rect.mem_set_unit]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the kernel is the combination of the four arrays the kernel finds. -/
theorem final2 (c : Dev nD) (A H : Gcn.A2 100000 64) (D2 : Gcn.A2 100000 1) (B : Gcn.A2 1 64)
    (hA : V c (Pipeline.arrRef spec2 0) = A) (hH : V c (Pipeline.arrRef spec2 1) = H)
    (hD : V c (Pipeline.arrRef spec2 2) = D2) (hB : V c (Pipeline.arrRef spec2 3) = B) :
    (dat2 (F := Ideal) V c).arrAt 4 cfg2.N = Gcn.comb A H D2 (Gcn.rowOf B) :=
  (dat2 (F := Ideal) V c).arrAt_eq_of_cover 4 (Gcn.comb A H D2 (Gcn.rowOf B)) (fun t _ => flushed2_eq V c A H D2 B hA hH hD hB t) (cover2)

end Comb2

/-! ## The combining kernel number 4 -/

section Comb4

/-- The body's arithmetic at an entry of the block. -/
theorem pay4_apply (v0 v2 : Vec Ideal S5000x64 .f32) (v4 : Vec Ideal S5000x1 .f32) (v9 : Vec Ideal S1x64 .f32) (p : Fin 5000) (q : Fin 64) :
    k4_pay1 v0 v2 v4 v9 (ix2 p q)
      = max (v0 (ix2 p q) + v2 (ix2 p q) * v4 (ix2 p (0 : Fin 1)) + v9 (ix2 (0 : Fin 1) q)) Gcn.zero32 := by
  unfold k4_pay1
  rw [shapeCast_self, shapeCast_self, shapeCast_self, shapeCast_self]
  show max (v0 (ix2 p q) + v2 (ix2 p q) * broadcastTo S5000x64 v4 broadcasts_S5000x1_S5000x64 (ix2 p q)
      + broadcastTo S5000x64 v9 broadcasts_S1x64_S5000x64 (ix2 p q)) Gcn.zero32 = _
  rw [Gcn.broadcastTo_a1_ab_apply, broadcastTo_1b_ab_apply]

/-- The printed index maps over the grid: the three row-blocked inputs and the output move with the point, the bias row is one block. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

set_option maxHeartbeats 1600000 in
/-- What point `t` writes back is row block `t` of the combination of the arrays the kernel finds. -/
theorem flushed4_eq (c : Dev nD) (A H : Gcn.A2 100000 64) (D2 : Gcn.A2 100000 1) (B : Gcn.A2 1 64)
    (hA : V c (Pipeline.arrRef spec4 0) = A) (hH : V c (Pipeline.arrRef spec4 1) = H)
    (hD : V c (Pipeline.arrRef spec4 2) = D2) (hB : V c (Pipeline.arrRef spec4 3) = B) (t : Fin cfg4.N) :
    (dat4 (F := Ideal) V c).flushed 4 t = ((cfg4.win 4).blk t).view.read (Elt Ideal) (Gcn.comb A H D2 (Gcn.rowOf B)) := by
  show (cfg4.win 4).cut (grid4.coords t) ((dat4 (F := Ideal) V c).after 4 t) = _
  rw [after4_4]
  unfold out4_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts4 t
  funext y
  obtain ⟨p, q, rfl⟩ : ∃ (p : Fin 5000) (q : Fin 64), y = ix2 p q := ⟨y 0, y 1, eq_ix2 y⟩
  show k4_pay1 (iblk4 V c 0 t) (iblk4 V c 1 t) (iblk4 V c 2 t) (iblk4 V c 3 t) (ix2 p q) = Gcn.comb A H D2 (Gcn.rowOf B) (((cfg4.win 4).blk t).view.emb (ix2 p q))
  rw [pay4_apply]
  unfold Gcn.comb Gcn.rowOf
  have h0 : iblk4 V c 0 t (ix2 p q) = A (((cfg4.win 4).blk t).view.emb (ix2 p q)) := by
    unfold iblk4
    rw [View.read_apply, hA]
    refine congrArg A (funext fun a => Fin.ext ?_)
    match a with
    | ⟨0, _⟩ => show win4_0.index t (0 : Fin 2) * 5000 + 1 * p.val = win4_4.index t (0 : Fin 2) * 5000 + 1 * p.val; omega
    | ⟨1, _⟩ => show win4_0.index t (1 : Fin 2) * 64 + 1 * q.val = win4_4.index t (1 : Fin 2) * 64 + 1 * q.val; omega
  have h1 : iblk4 V c 1 t (ix2 p q) = H (((cfg4.win 4).blk t).view.emb (ix2 p q)) := by
    unfold iblk4
    rw [View.read_apply, hH]
    refine congrArg H (funext fun a => Fin.ext ?_)
    match a with
    | ⟨0, _⟩ => show win4_1.index t (0 : Fin 2) * 5000 + 1 * p.val = win4_4.index t (0 : Fin 2) * 5000 + 1 * p.val; omega
    | ⟨1, _⟩ => show win4_1.index t (1 : Fin 2) * 64 + 1 * q.val = win4_4.index t (1 : Fin 2) * 64 + 1 * q.val; omega
  have h2 : iblk4 V c 2 t (ix2 p (0 : Fin 1)) = D2 (ix2 ((((cfg4.win 4).blk t).view.emb (ix2 p q)) 0) (0 : Fin 1)) := by
    unfold iblk4
    rw [View.read_apply, hD]
    refine congrArg D2 (funext fun a => Fin.ext ?_)
    match a with
    | ⟨0, _⟩ => show win4_2.index t (0 : Fin 2) * 5000 + 1 * p.val = win4_4.index t (0 : Fin 2) * 5000 + 1 * p.val; omega
    | ⟨1, _⟩ => show win4_2.index t (1 : Fin 2) * 1 + 1 * 0 = 0; omega
  have h3 : iblk4 V c 3 t (ix2 (0 : Fin 1) q) = B (ix2 (0 : Fin 1) ((((cfg4.win 4).blk t).view.emb (ix2 p q)) 1)) := by
    unfold iblk4
    rw [View.read_apply, hB]
    refine congrArg B (funext fun a => Fin.ext ?_)
    match a with
    | ⟨0, _⟩ => show win4_3.index t (0 : Fin 2) * 1 + 1 * 0 = 0; omega
    | ⟨1, _⟩ => show win4_3.index t (1 : Fin 2) * 64 + 1 * q.val = win4_4.index t (1 : Fin 2) * 64 + 1 * q.val; omega
  rw [h0, h1, h2, h3]

/-- Every row lies in the block of the point numbered by its row block. -/
theorem cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  let t : Fin cfg4.N := ⟨(i 0).val / 5000, by rw [show cfg4.N = 20 from N_4]; omega⟩
  obtain ⟨e0, e1, e2, e3, e4, e5, e6, e7, e8, e9⟩ := idx_facts4 t
  have e8' : win4_4.index t (0 : Fin 2) = (i 0).val / 5000 := e8
  refine ⟨t, flush4_4 t, ?_⟩
  show i ∈ ((View.whole main_v82).slice (win4_4.rect t)).set
  rw [View.set_slice_whole, Rect.mem_set_unit]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- The output array after the kernel is the combination of the four arrays the kernel finds. -/
theorem final4 (c : Dev nD) (A H : Gcn.A2 100000 64) (D2 : Gcn.A2 100000 1) (B : Gcn.A2 1 64)
    (hA : V c (Pipeline.arrRef spec4 0) = A) (hH : V c (Pipeline.arrRef spec4 1) = H)
    (hD : V c (Pipeline.arrRef spec4 2) = D2) (hB : V c (Pipeline.arrRef spec4 3) = B) :
    (dat4 (F := Ideal) V c).arrAt 4 cfg4.N = Gcn.comb A H D2 (Gcn.rowOf B) :=
  (dat4 (F := Ideal) V c).arrAt_eq_of_cover 4 (Gcn.comb A H D2 (Gcn.rowOf B)) (fun t _ => flushed4_eq V c A H D2 B hA hH hD hB t) (cover4)

end Comb4

/-! ## The combining kernel number 6 -/

section Comb6

/-- The body's arithmetic at an entry of the block. -/
theorem pay6_apply (v0 v2 : Vec Ideal S5000x64 .f32) (v4 : Vec Ideal S5000x1 .f32) (v9 : Vec Ideal S1x64 .f32) (p : Fin 5000) (q : Fin 64) :
    k6_pay1 v0 v2 v4 v9 (ix2 p q)
      = max (v0 (ix2 p q) + v2 (ix2 p q) * v4 (ix2 p (0 : Fin 1)) + v9 (ix2 (0 : Fin 1) q)) Gcn.zero32 := by
  unfold k6_pay1
  rw [shapeCast_self, shapeCast_self, shapeCast_self, shapeCast_self]
  show max (v0 (ix2 p q) + v2 (ix2 p q) * broadcastTo S5000x64 v4 broadcasts_S5000x1_S5000x64 (ix2 p q)
      + broadcastTo S5000x64 v9 broadcasts_S1x64_S5000x64 (ix2 p q)) Gcn.zero32 = _
  rw [Gcn.broadcastTo_a1_ab_apply, broadcastTo_1b_ab_apply]

/-- The printed index maps over the grid: the three row-blocked inputs and the output move with the point, the bias row is one block. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

set_option maxHeartbeats 1600000 in
/-- What point `t` writes back is row block `t` of the combination of the arrays the kernel finds. -/
theorem flushed6_eq (c : Dev nD) (A H : Gcn.A2 100000 64) (D2 : Gcn.A2 100000 1) (B : Gcn.A2 1 64)
    (hA : V c (Pipeline.arrRef spec6 0) = A) (hH : V c (Pipeline.arrRef spec6 1) = H)
    (hD : V c (Pipeline.arrRef spec6 2) = D2) (hB : V c (Pipeline.arrRef spec6 3) = B) (t : Fin cfg6.N) :
    (dat6 (F := Ideal) V c).flushed 4 t = ((cfg6.win 4).blk t).view.read (Elt Ideal) (Gcn.comb A H D2 (Gcn.rowOf B)) := by
  show (cfg6.win 4).cut (grid6.coords t) ((dat6 (F := Ideal) V c).after 4 t) = _
  rw [after6_4]
  unfold out6_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts6 t
  funext y
  obtain ⟨p, q, rfl⟩ : ∃ (p : Fin 5000) (q : Fin 64), y = ix2 p q := ⟨y 0, y 1, eq_ix2 y⟩
  show k6_pay1 (iblk6 V c 0 t) (iblk6 V c 1 t) (iblk6 V c 2 t) (iblk6 V c 3 t) (ix2 p q) = Gcn.comb A H D2 (Gcn.rowOf B) (((cfg6.win 4).blk t).view.emb (ix2 p q))
  rw [pay6_apply]
  unfold Gcn.comb Gcn.rowOf
  have h0 : iblk6 V c 0 t (ix2 p q) = A (((cfg6.win 4).blk t).view.emb (ix2 p q)) := by
    unfold iblk6
    rw [View.read_apply, hA]
    refine congrArg A (funext fun a => Fin.ext ?_)
    match a with
    | ⟨0, _⟩ => show win6_0.index t (0 : Fin 2) * 5000 + 1 * p.val = win6_4.index t (0 : Fin 2) * 5000 + 1 * p.val; omega
    | ⟨1, _⟩ => show win6_0.index t (1 : Fin 2) * 64 + 1 * q.val = win6_4.index t (1 : Fin 2) * 64 + 1 * q.val; omega
  have h1 : iblk6 V c 1 t (ix2 p q) = H (((cfg6.win 4).blk t).view.emb (ix2 p q)) := by
    unfold iblk6
    rw [View.read_apply, hH]
    refine congrArg H (funext fun a => Fin.ext ?_)
    match a with
    | ⟨0, _⟩ => show win6_1.index t (0 : Fin 2) * 5000 + 1 * p.val = win6_4.index t (0 : Fin 2) * 5000 + 1 * p.val; omega
    | ⟨1, _⟩ => show win6_1.index t (1 : Fin 2) * 64 + 1 * q.val = win6_4.index t (1 : Fin 2) * 64 + 1 * q.val; omega
  have h2 : iblk6 V c 2 t (ix2 p (0 : Fin 1)) = D2 (ix2 ((((cfg6.win 4).blk t).view.emb (ix2 p q)) 0) (0 : Fin 1)) := by
    unfold iblk6
    rw [View.read_apply, hD]
    refine congrArg D2 (funext fun a => Fin.ext ?_)
    match a with
    | ⟨0, _⟩ => show win6_2.index t (0 : Fin 2) * 5000 + 1 * p.val = win6_4.index t (0 : Fin 2) * 5000 + 1 * p.val; omega
    | ⟨1, _⟩ => show win6_2.index t (1 : Fin 2) * 1 + 1 * 0 = 0; omega
  have h3 : iblk6 V c 3 t (ix2 (0 : Fin 1) q) = B (ix2 (0 : Fin 1) ((((cfg6.win 4).blk t).view.emb (ix2 p q)) 1)) := by
    unfold iblk6
    rw [View.read_apply, hB]
    refine congrArg B (funext fun a => Fin.ext ?_)
    match a with
    | ⟨0, _⟩ => show win6_3.index t (0 : Fin 2) * 1 + 1 * 0 = 0; omega
    | ⟨1, _⟩ => show win6_3.index t (1 : Fin 2) * 64 + 1 * q.val = win6_4.index t (1 : Fin 2) * 64 + 1 * q.val; omega
  rw [h0, h1, h2, h3]

/-- Every row lies in the block of the point numbered by its row block. -/
theorem cover6 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  let t : Fin cfg6.N := ⟨(i 0).val / 5000, by rw [show cfg6.N = 20 from N_6]; omega⟩
  obtain ⟨e0, e1, e2, e3, e4, e5, e6, e7, e8, e9⟩ := idx_facts6 t
  have e8' : win6_4.index t (0 : Fin 2) = (i 0).val / 5000 := e8
  refine ⟨t, flush6_4 t, ?_⟩
  show i ∈ ((View.whole main_v103).slice (win6_4.rect t)).set
  rw [View.set_slice_whole, Rect.mem_set_unit]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- The output array after the kernel is the combination of the four arrays the kernel finds. -/
theorem final6 (c : Dev nD) (A H : Gcn.A2 100000 64) (D2 : Gcn.A2 100000 1) (B : Gcn.A2 1 64)
    (hA : V c (Pipeline.arrRef spec6 0) = A) (hH : V c (Pipeline.arrRef spec6 1) = H)
    (hD : V c (Pipeline.arrRef spec6 2) = D2) (hB : V c (Pipeline.arrRef spec6 3) = B) :
    (dat6 (F := Ideal) V c).arrAt 4 cfg6.N = Gcn.comb A H D2 (Gcn.rowOf B) :=
  (dat6 (F := Ideal) V c).arrAt_eq_of_cover 4 (Gcn.comb A H D2 (Gcn.rowOf B)) (fun t _ => flushed6_eq V c A H D2 B hA hH hD hB t) (cover6)

end Comb6

end Cert.KernelIdeal.RegComb

end
-- ==== Proof.RegMlp.lean ====
/-
  The head kernel: for 5000 rows per grid point, a dense layer clipped at zero followed by an affine one.

  At a grid point the body loads row block `t` of the node features and the two weight matrices and two bias rows whole,
  and stores `(max (X · W₁ + b₁, 0)) · W₂ + b₂` into row block `t` of the one-column output.  An entry of that
  expression depends on one row of `X` only, so the block's row `p` is the whole array's row `5000 t + p`, and the twenty
  blocks tile the rows.
-/
import proofs.«172681_j28278064677000_2_alg».proof.Proof.Gen.KernelIdeal.Frame
import proofs.«172681_j28278064677000_2_alg».proof.Proof.LibRowsCols
import proofs.«172681_j28278064677000_2_alg».proof.Proof.LibBroadcast
import proofs.«172681_j28278064677000_2_alg».proof.Proof.LibRows
import Idealize.ShloMosaic.Lib.Pipeline.Value

set_option maxRecDepth 16384

noncomputable section

namespace Cert.KernelIdeal.RegMlp

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

variable (V : (c : Dev nD) → (b : Ref sig .tc) → Buf (Elt Ideal) ((c : Thread nD τ).loc b))

theorem dot7a_lin (x : FVec Ideal S5000x64 .bf16) (w : FVec Ideal S64x32 .bf16) :
    matmul dot_S5000x64_S64x32_S5000x32_1_0_0_1_n_n none x w (constant S5000x32 .f32 0x00000000#32) = Gcn.lin x w :=
  Gcn.matmul_zero_eq_lin dot_S5000x64_S64x32_S5000x32_1_0_0_1_n_n rfl rfl
    (fun i q => by
      unfold DotDims.lhsIdx
      rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
      rfl)
    (fun i q => dot_S5000x64_S64x32_S5000x32_1_0_0_1_n_n.lhsIdx_val_of_single rfl i q)
    (fun i q => dot_S5000x64_S64x32_S5000x32_1_0_0_1_n_n.rhsIdx_val_of_single rfl i q)
    (fun i q => by
      unfold DotDims.rhsIdx
      rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
      rfl)
    x w

theorem dot7b_lin (x : FVec Ideal S5000x32 .bf16) (w : FVec Ideal S32x1 .bf16) :
    matmul dot_S5000x32_S32x1_S5000x1_1_0_0_1_n_n none x w (constant S5000x1 .f32 0x00000000#32) = Gcn.lin x w :=
  Gcn.matmul_zero_eq_lin dot_S5000x32_S32x1_S5000x1_1_0_0_1_n_n rfl rfl
    (fun i q => by
      unfold DotDims.lhsIdx
      rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
      rfl)
    (fun i q => dot_S5000x32_S32x1_S5000x1_1_0_0_1_n_n.lhsIdx_val_of_single rfl i q)
    (fun i q => dot_S5000x32_S32x1_S5000x1_1_0_0_1_n_n.rhsIdx_val_of_single rfl i q)
    (fun i q => by
      unfold DotDims.rhsIdx
      rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
      rfl)
    x w

/-- The body's arithmetic is the head applied to the loaded row block. -/
theorem pay7_eq (v0 : Vec Ideal S5000x64 .f32) (v3 : Vec Ideal S64x32 .bf16) (v6 : Vec Ideal S1x32 .f32) (v13 : Vec Ideal S32x1 .bf16) (v16 : Vec Ideal S1x1 .f32) :
    k7_pay1 v0 v3 v6 v13 v16 = Gcn.mlp (n := 5000) v0 v3 (Gcn.rowOf v6) v13 (Gcn.rowOf v16) := by
  unfold k7_pay1
  try dsimp only
  rw [shapeCast_self, shapeCast_self, shapeCast_self, shapeCast_self, shapeCast_self]
  rw [dot7a_lin, dot7b_lin]
  funext y
  obtain ⟨p, q, rfl⟩ : ∃ (p : Fin 5000) (q : Fin 1), y = ix2 p q := ⟨y 0, y 1, eq_ix2 y⟩
  unfold Gcn.mlp Gcn.affine
  show Gcn.lin _ v13 (ix2 p q) + broadcastTo S5000x1 v16 broadcasts_S1x1_S5000x1 (ix2 p q) = _
  rw [broadcastTo_1b_ab_apply]
  refine congrArg₂ (· + ·) (Gcn.lin_rows _ _ v13 p p q fun k => ?_) rfl
  show max (Gcn.lin _ v3 (ix2 p k) + broadcastTo S5000x32 v6 broadcasts_S1x32_S5000x32 (ix2 p k)) Gcn.zero32 = _
  rw [broadcastTo_1b_ab_apply]
  rfl

/-- The printed index maps over the grid: the feature rows and the output rows move with the point, the four parameters are one block each. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point `t` writes back is row block `t` of the head of the arrays the kernel finds. -/
theorem flushed7_eq (c : Dev nD) (X : Gcn.A2 100000 64) (W1 : Gcn.A2 64 32) (B1 : Gcn.A2 1 32) (W2 : Gcn.A2 32 1) (B2 : Gcn.A2 1 1)
    (hX : V c (Pipeline.arrRef spec7 0) = X) (hW1 : V c (Pipeline.arrRef spec7 1) = W1) (hB1 : V c (Pipeline.arrRef spec7 2) = B1)
    (hW2 : V c (Pipeline.arrRef spec7 3) = W2) (hB2 : V c (Pipeline.arrRef spec7 4) = B2) (t : Fin cfg7.N) :
    (dat7 (F := Ideal) V c).flushed 5 t = ((cfg7.win 5).blk t).view.read (Elt Ideal) (Gcn.mlp X W1 (Gcn.rowOf B1) W2 (Gcn.rowOf B2)) := by
  show (cfg7.win 5).cut (grid7.coords t) ((dat7 (F := Ideal) V c).after 5 t) = _
  rw [after7_5]
  unfold out7_5
  rw [View.canon_unit_zero hz]
  simp only [View.ld_unit_zero (S := S5000x64) hz, View.ld_unit_zero (S := S64x32) hz, View.ld_unit_zero (S := S1x32) hz, View.ld_unit_zero (S := S32x1) hz, View.ld_unit_zero (S := S1x1) hz]
  obtain ⟨e0, e1, e2, e3, e4, e5, e6, e7, e8, e9, e10, e11⟩ := idx_facts7 t
  funext y
  obtain ⟨p, q, rfl⟩ : ∃ (p : Fin 5000) (q : Fin 1), y = ix2 p q := ⟨y 0, y 1, eq_ix2 y⟩
  show k7_pay1 (iblk7 V c 0 t) (iblk7 V c 1 t) (iblk7 V c 2 t) (iblk7 V c 3 t) (iblk7 V c 4 t) (ix2 p q)
    = Gcn.mlp X W1 (Gcn.rowOf B1) W2 (Gcn.rowOf B2) (((cfg7.win 5).blk t).view.emb (ix2 p q))
  rw [pay7_eq]
  have hw1 : iblk7 V c 1 t = W1 := by
    funext z
    unfold iblk7
    rw [View.read_apply, hW1]
    refine congrArg W1 (funext fun a => Fin.ext ?_)
    match a with
    | ⟨0, _⟩ => show win7_1.index t (0 : Fin 2) * 64 + 1 * (z 0).val = (z 0).val; omega
    | ⟨1, _⟩ => show win7_1.index t (1 : Fin 2) * 32 + 1 * (z 1).val = (z 1).val; omega
  have hb1 : iblk7 V c 2 t = B1 := by
    funext z
    unfold iblk7
    rw [View.read_apply, hB1]
    refine congrArg B1 (funext fun a => Fin.ext ?_)
    match a with
    | ⟨0, _⟩ => show win7_2.index t (0 : Fin 2) * 1 + 1 * (z 0).val = (z 0).val; omega
    | ⟨1, _⟩ => show win7_2.index t (1 : Fin 2) * 32 + 1 * (z 1).val = (z 1).val; omega
  have hw2 : iblk7 V c 3 t = W2 := by
    funext z
    unfold iblk7
    rw [View.read_apply, hW2]
    refine congrArg W2 (funext fun a => Fin.ext ?_)
    match a with
    | ⟨0, _⟩ => show win7_3.index t (0 : Fin 2) * 32 + 1 * (z 0).val = (z 0).val; omega
    | ⟨1, _⟩ => show win7_3.index t (1 : Fin 2) * 1 + 1 * (z 1).val = (z 1).val; omega
  have hb2 : iblk7 V c 4 t = B2 := by
    funext z
    unfold iblk7
    rw [View.read_apply, hB2]
    refine congrArg B2 (funext fun a => Fin.ext ?_)
    match a with
    | ⟨0, _⟩ => show win7_4.index t (0 : Fin 2) * 1 + 1 * (z 0).val = (z 0).val; omega
    | ⟨1, _⟩ => show win7_4.index t (1 : Fin 2) * 1 + 1 * (z 1).val = (z 1).val; omega
  rw [hw1, hb1, hw2, hb2]
  have hE : ((cfg7.win 5).blk t).view.emb (ix2 p q) = ix2 ((((cfg7.win 5).blk t).view.emb (ix2 p q)) 0) q := by
    funext a; apply Fin.ext
    match a with
    | ⟨0, _⟩ => rfl
    | ⟨1, _⟩ => show win7_5.index t (1 : Fin 2) * 1 + 1 * q.val = q.val; omega
  rw [hE]
  refine Gcn.mlp_rows _ _ W1 (Gcn.rowOf B1) W2 (Gcn.rowOf B2) p _ q fun k => ?_
  unfold iblk7
  rw [View.read_apply, hX]
  refine congrArg X (funext fun a => Fin.ext ?_)
  match a with
  | ⟨0, _⟩ => show win7_0.index t (0 : Fin 2) * 5000 + 1 * p.val = win7_5.index t (0 : Fin 2) * 5000 + 1 * p.val; omega
  | ⟨1, _⟩ => show win7_0.index t (1 : Fin 2) * 64 + 1 * k.val = k.val; omega

/-- Every row lies in the block of the point numbered by its row block. -/
theorem cover7 (i : S100000x1.Idx) : ∃ t : Fin cfg7.N, (cfg7.win 5).flush t = true ∧ i ∈ ((cfg7.win 5).blk t).view.set := by
  have hi0 : (i 0).val < 100000 := (i 0).isLt
  have hi1 : (i 1).val < 1 := (i 1).isLt
  let t : Fin cfg7.N := ⟨(i 0).val / 5000, by rw [show cfg7.N = 20 from N_7]; omega⟩
  obtain ⟨e0, e1, e2, e3, e4, e5, e6, e7, e8, e9, e10, e11⟩ := idx_facts7 t
  have e10' : win7_5.index t (0 : Fin 2) = (i 0).val / 5000 := e10
  refine ⟨t, flush7_5 t, ?_⟩
  show i ∈ ((View.whole main_v108).slice (win7_5.rect t)).set
  rw [View.set_slice_whole, Rect.mem_set_unit]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 1 ≤ (i 1).val ∧ (i 1).val < win7_5.index t (1 : Fin 2) * 1 + 1; omega

/-- The output array after the kernel is the head of the five arrays the kernel finds. -/
theorem final7 (c : Dev nD) (X : Gcn.A2 100000 64) (W1 : Gcn.A2 64 32) (B1 : Gcn.A2 1 32) (W2 : Gcn.A2 32 1) (B2 : Gcn.A2 1 1)
    (hX : V c (Pipeline.arrRef spec7 0) = X) (hW1 : V c (Pipeline.arrRef spec7 1) = W1) (hB1 : V c (Pipeline.arrRef spec7 2) = B1)
    (hW2 : V c (Pipeline.arrRef spec7 3) = W2) (hB2 : V c (Pipeline.arrRef spec7 4) = B2) :
    (dat7 (F := Ideal) V c).arrAt 5 cfg7.N = Gcn.mlp X W1 (Gcn.rowOf B1) W2 (Gcn.rowOf B2) :=
  (dat7 (F := Ideal) V c).arrAt_eq_of_cover 5 (Gcn.mlp X W1 (Gcn.rowOf B1) W2 (Gcn.rowOf B2))
    (fun t _ => flushed7_eq V c X W1 B1 W2 B2 hX hW1 hB1 hW2 hB2 t) (cover7)

end Cert.KernelIdeal.RegMlp

end
-- ==== Proof.KNet.lean ====
/-
  The idealized Pallas program computes the network.

  Its result buffer, followed back through the eight kernels and the host stretches between them, is: the head kernel's
  output on the third layer's features; each layer's features are the combining kernel's output on the host's
  aggregation of the linear kernel's output, that output itself, the self-loop weight column and the bias row; the first
  layer's input is the encoder kernel's output on the arguments.  The host only converts the weights to the narrow float
  format (the identity on extended reals), re-lays each bias vector as a one-row matrix (whose one row is the vector
  again), and computes the graph terms — which stay closed here as the function `aggK` and the column `d2K` of the edge
  list.
-/
import proofs.«172681_j28278064677000_2_alg».proof.Proof.KHost
import proofs.«172681_j28278064677000_2_alg».proof.Proof.RegEnc
import proofs.«172681_j28278064677000_2_alg».proof.Proof.RegLin
import proofs.«172681_j28278064677000_2_alg».proof.Proof.RegComb
import proofs.«172681_j28278064677000_2_alg».proof.Proof.RegMlp

set_option maxRecDepth 16384

noncomputable section

namespace Cert.KernelIdeal.KNet

open Cert.KernelIdeal Cert.KernelIdeal.Gen Cert.KernelIdeal.KHost
open Idealize.ShloMosaic Idealize.ShloMosaic.TcCoe Idealize.ShloMosaic.ValueIdx Idealize.SL.Sem

/-- The one row of a vector re-laid as a one-row matrix is the vector. -/
theorem rowOf_shapeCast {n : Nat} (v : Gcn.A1 n) (h : (⟨1, ![n]⟩ : Shape).ShapeCasts ⟨2, ![1, n]⟩) :
    Gcn.rowOf (shapeCast (⟨2, ![1, n]⟩ : Shape) v h) = v := by
  funext j
  obtain ⟨q, rfl⟩ : ∃ q : Fin n, j = ix1 q := ⟨j 0, eq_ix1 j⟩
  exact Gcn.shapeCast_row_apply v h q

/-- The conversion to the narrow float format is the identity on extended reals. -/
theorem truncf_id {S : Shape} (x : FVec Ideal S .f32) (h : FTy.bf16.bits < FTy.f32.bits) :
    (truncf (F := Ideal) .bf16 x h : S.Idx → EReal) = x := rfl

variable (m : (ℓ : Loc nD τ sig) → Buf (Elt Ideal) ℓ) (ρ : Dev nD → PrngReg) (c : Dev nD)

/-- After the encoder kernel: the encoded features of the arguments. -/
theorem stage0 : (W2 m ρ c (Proc.devRef .tc main_v10) : Gcn.A2 100000 192)
    = Gcn.enc (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := RegEnc.final0 (V1 m ρ) c _ _ _ _ _ _ _ _ _ (V1_arg0 m ρ c) (V1_arg1 m ρ c) (V1_arg2 m ρ c) (V1_v4 m ρ c) (V1_v7 m ρ c) (V1_v5 m ρ c) (V1_v8 m ρ c) (V1_v6 m ρ c) (V1_v9 m ρ c)
  rw [rowOf_shapeCast, rowOf_shapeCast, rowOf_shapeCast] at h
  exact (W2_arr m ρ c 9).trans h

/-- After the first linear kernel. -/
theorem stage1 : (W4 m ρ c (Proc.devRef .tc main_v42) : Gcn.A2 100000 64)
    = Gcn.lin (W2 m ρ c (Proc.devRef .tc main_v10) : Gcn.A2 100000 192) (m ((c : Thread nD τ).loc main_arg10)) :=
  (W4_arr m ρ c 2).trans (RegLin.final1 (V3 m ρ) c _ _ (V3_v10 m ρ c) (V3_v41 m ρ c))

/-- After the first combining kernel. -/
theorem stage2 : (W6 m ρ c (Proc.devRef .tc main_v61) : Gcn.A2 100000 64)
    = Gcn.comb (aggK (m ((c : Thread nD τ).loc main_arg3)) (W4 m ρ c (Proc.devRef .tc main_v42))) (W4 m ρ c (Proc.devRef .tc main_v42)) (d2K (m ((c : Thread nD τ).loc main_arg3))) (m ((c : Thread nD τ).loc main_arg11)) := by
  have h := RegComb.final2 (V5 m ρ) c _ _ _ _ (V5_v59 m ρ c) (V5_v42 m ρ c) (V5_v24 m ρ c) (V5_v60 m ρ c)
  rw [rowOf_shapeCast] at h
  exact (W6_arr m ρ c 4).trans h

/-- After the second linear kernel. -/
theorem stage3 : (W8 m ρ c (Proc.devRef .tc main_v63) : Gcn.A2 100000 64)
    = Gcn.lin (W6 m ρ c (Proc.devRef .tc main_v61) : Gcn.A2 100000 64) (m ((c : Thread nD τ).loc main_arg12)) :=
  (W8_arr m ρ c 2).trans (RegLin.final3 (V7 m ρ) c _ _ (V7_v61 m ρ c) (V7_v62 m ρ c))

/-- After the second combining kernel. -/
theorem stage4 : (W10 m ρ c (Proc.devRef .tc main_v82) : Gcn.A2 100000 64)
    = Gcn.comb (aggK (m ((c : Thread nD τ).loc main_arg3)) (W8 m ρ c (Proc.devRef .tc main_v63))) (W8 m ρ c (Proc.devRef .tc main_v63)) (d2K (m ((c : Thread nD τ).loc main_arg3))) (m ((c : Thread nD τ).loc main_arg13)) := by
  have h := RegComb.final4 (V9 m ρ) c _ _ _ _ (V9_v80 m ρ c) (V9_v63 m ρ c) (V9_v24 m ρ c) (V9_v81 m ρ c)
  rw [rowOf_shapeCast] at h
  exact (W10_arr m ρ c 4).trans h

/-- After the third linear kernel. -/
theorem stage5 : (W12 m ρ c (Proc.devRef .tc main_v84) : Gcn.A2 100000 64)
    = Gcn.lin (W10 m ρ c (Proc.devRef .tc main_v82) : Gcn.A2 100000 64) (m ((c : Thread nD τ).loc main_arg14)) :=
  (W12_arr m ρ c 2).trans (RegLin.final5 (V11 m ρ) c _ _ (V11_v82 m ρ c) (V11_v83 m ρ c))

/-- After the third combining kernel. -/
theorem stage6 : (W14 m ρ c (Proc.devRef .tc main_v103) : Gcn.A2 100000 64)
    = Gcn.comb (aggK (m ((c : Thread nD τ).loc main_arg3)) (W12 m ρ c (Proc.devRef .tc main_v84))) (W12 m ρ c (Proc.devRef .tc main_v84)) (d2K (m ((c : Thread nD τ).loc main_arg3))) (m ((c : Thread nD τ).loc main_arg15)) := by
  have h := RegComb.final6 (V13 m ρ) c _ _ _ _ (V13_v101 m ρ c) (V13_v84 m ρ c) (V13_v24 m ρ c) (V13_v102 m ρ c)
  rw [rowOf_shapeCast] at h
  exact (W14_arr m ρ c 4).trans h

/-- After the head kernel. -/
theorem stage7 : (W16 m ρ c (Proc.devRef .tc main_v108) : Gcn.A2 100000 1)
    = Gcn.mlp (W14 m ρ c (Proc.devRef .tc main_v103) : Gcn.A2 100000 64) (m ((c : Thread nD τ).loc main_arg16)) (m ((c : Thread nD τ).loc main_arg17)) (m ((c : Thread nD τ).loc main_arg18)) (m ((c : Thread nD τ).loc main_arg19)) := by
  have h := RegMlp.final7 (V15 m ρ) c _ _ _ _ _ (V15_v103 m ρ c) (V15_v104 m ρ c) (V15_v106 m ρ c) (V15_v105 m ρ c) (V15_v107 m ρ c)
  rw [rowOf_shapeCast, rowOf_shapeCast] at h
  exact (W16_arr m ρ c 5).trans h

/-- The result buffer ends at the network of the arguments. -/
theorem kernel_net : (W16 m ρ c (Proc.devRef .tc main_v108) : Gcn.A2 100000 1)
    = Gcn.net (aggK (m ((c : Thread nD τ).loc main_arg3))) (d2K (m ((c : Thread nD τ).loc main_arg3))) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [stage7, stage6, stage5, stage4, stage3, stage2, stage1, stage0]
  rfl

end Cert.KernelIdeal.KNet

end
-- ==== Proof.RefNet.lean ====
/-
  The reference program computes the network of the specification.

  The reference is a sequence of array operations.  A contraction of a row matrix with a weight matrix is rows times
  columns (`lin`); a bias vector is laid under every row, added, and the sum clipped at zero (`dense`); the three
  encoded feature groups are laid side by side (`enc`).  A graph layer gathers the rows of its product at the edges'
  sources, scales them by the edges' weights and adds them up at the edges' targets; that aggregation (`aggR`) and the
  column of self-loop weights (`d2R`) depend on the edge list only, and are carried here as closed functions of it.
  The reference computes the degrees, the edge weights and the normalised node numbers once per layer, each time by
  the same operations on the same edge list, so the three layers use one aggregation and one weight column.  The
  head is a clipped dense layer followed by an affine one (`mlp`).
-/
import proofs.«172681_j28278064677000_2_alg».proof.Proof.Gen.ReferenceIdeal.Read
import proofs.«172681_j28278064677000_2_alg».proof.Proof.Spec

noncomputable section

open scoped BigOperators

namespace Cert.ReferenceIdeal.RefNet

open Cert.ReferenceIdeal Cert.ReferenceIdeal.Gen Idealize.ShloMosaic Idealize.ShloMosaic.TcCoe Idealize.SL.Sem Idealize.ShloMosaic.StableHlo Idealize.ShloMosaic.ValueIdx

/-- A float array of shape `S` over the extended reals. -/
abbrev CF (S : Shape) := FVec Ideal S .f32

/-- A `dot_general` of a `[100000, 8]` by a `[8, 64]` array is rows times columns. -/
theorem dot8_lin (X : CF S100000x8) (W : CF S8x64) :
    Host.dotGeneral (F := Ideal) dot_S100000x8_S8x64_S100000x64_1_0_0_1_n_n none X W = Cert.Gcn.lin (n := 100000) (k := 8) (h := 64) X W := by
  funext i
  simp only [Host.dotGeneral]
  rw [Ideal.dotGeneral_apply, ← Equiv.sum_comp (contrEquiv1 dot_S100000x8_S8x64_S100000x64_1_0_0_1_n_n 8 rfl rfl).symm]
  unfold Cert.Gcn.lin
  refine Finset.sum_congr rfl fun k _ => ?_
  have hk := contrEquiv1_symm_val dot_S100000x8_S8x64_S100000x64_1_0_0_1_n_n 8 rfl rfl k
  have el : dot_S100000x8_S8x64_S100000x64_1_0_0_1_n_n.lhsIdx i ((contrEquiv1 dot_S100000x8_S8x64_S100000x64_1_0_0_1_n_n 8 rfl rfl).symm k) = ix2 (i 0) k := funext fun a => Fin.ext (by
    match a with
    | ⟨0, _⟩ => exact Read.lhs_main_v0_0 _ _
    | ⟨1, _⟩ => exact (Read.lhs_main_v0_1 _ _).trans hk)
  have er : dot_S100000x8_S8x64_S100000x64_1_0_0_1_n_n.rhsIdx i ((contrEquiv1 dot_S100000x8_S8x64_S100000x64_1_0_0_1_n_n 8 rfl rfl).symm k) = ix2 k (i 1) := funext fun a => Fin.ext (by
    match a with
    | ⟨0, _⟩ => exact (Read.rhs_main_v0_0 _ _).trans hk
    | ⟨1, _⟩ => exact Read.rhs_main_v0_1 _ _)
  rw [el, er]
  rfl

/-- A `dot_general` of a `[100000, 12]` by a `[12, 64]` array is rows times columns. -/
theorem dot12_lin (X : CF S100000x12) (W : CF S12x64) :
    Host.dotGeneral (F := Ideal) dot_S100000x12_S12x64_S100000x64_1_0_0_1_n_n none X W = Cert.Gcn.lin (n := 100000) (k := 12) (h := 64) X W := by
  funext i
  simp only [Host.dotGeneral]
  rw [Ideal.dotGeneral_apply, ← Equiv.sum_comp (contrEquiv1 dot_S100000x12_S12x64_S100000x64_1_0_0_1_n_n 12 rfl rfl).symm]
  unfold Cert.Gcn.lin
  refine Finset.sum_congr rfl fun k _ => ?_
  have hk := contrEquiv1_symm_val dot_S100000x12_S12x64_S100000x64_1_0_0_1_n_n 12 rfl rfl k
  have el : dot_S100000x12_S12x64_S100000x64_1_0_0_1_n_n.lhsIdx i ((contrEquiv1 dot_S100000x12_S12x64_S100000x64_1_0_0_1_n_n 12 rfl rfl).symm k) = ix2 (i 0) k := funext fun a => Fin.ext (by
    match a with
    | ⟨0, _⟩ => exact Read.lhs_main_v5_0 _ _
    | ⟨1, _⟩ => exact (Read.lhs_main_v5_1 _ _).trans hk)
  have er : dot_S100000x12_S12x64_S100000x64_1_0_0_1_n_n.rhsIdx i ((contrEquiv1 dot_S100000x12_S12x64_S100000x64_1_0_0_1_n_n 12 rfl rfl).symm k) = ix2 k (i 1) := funext fun a => Fin.ext (by
    match a with
    | ⟨0, _⟩ => exact (Read.rhs_main_v5_0 _ _).trans hk
    | ⟨1, _⟩ => exact Read.rhs_main_v5_1 _ _)
  rw [el, er]
  rfl

/-- A `dot_general` of a `[100000, 10]` by a `[10, 64]` array is rows times columns. -/
theorem dot10_lin (X : CF S100000x10) (W : CF S10x64) :
    Host.dotGeneral (F := Ideal) dot_S100000x10_S10x64_S100000x64_1_0_0_1_n_n none X W = Cert.Gcn.lin (n := 100000) (k := 10) (h := 64) X W := by
  funext i
  simp only [Host.dotGeneral]
  rw [Ideal.dotGeneral_apply, ← Equiv.sum_comp (contrEquiv1 dot_S100000x10_S10x64_S100000x64_1_0_0_1_n_n 10 rfl rfl).symm]
  unfold Cert.Gcn.lin
  refine Finset.sum_congr rfl fun k _ => ?_
  have hk := contrEquiv1_symm_val dot_S100000x10_S10x64_S100000x64_1_0_0_1_n_n 10 rfl rfl k
  have el : dot_S100000x10_S10x64_S100000x64_1_0_0_1_n_n.lhsIdx i ((contrEquiv1 dot_S100000x10_S10x64_S100000x64_1_0_0_1_n_n 10 rfl rfl).symm k) = ix2 (i 0) k := funext fun a => Fin.ext (by
    match a with
    | ⟨0, _⟩ => exact Read.lhs_main_v10_0 _ _
    | ⟨1, _⟩ => exact (Read.lhs_main_v10_1 _ _).trans hk)
  have er : dot_S100000x10_S10x64_S100000x64_1_0_0_1_n_n.rhsIdx i ((contrEquiv1 dot_S100000x10_S10x64_S100000x64_1_0_0_1_n_n 10 rfl rfl).symm k) = ix2 k (i 1) := funext fun a => Fin.ext (by
    match a with
    | ⟨0, _⟩ => exact (Read.rhs_main_v10_0 _ _).trans hk
    | ⟨1, _⟩ => exact Read.rhs_main_v10_1 _ _)
  rw [el, er]
  rfl

/-- A `dot_general` of a `[100000, 192]` by a `[192, 64]` array is rows times columns. -/
theorem dot192_lin (X : CF S100000x192) (W : CF S192x64) :
    Host.dotGeneral (F := Ideal) dot_S100000x192_S192x64_S100000x64_1_0_0_1_n_n none X W = Cert.Gcn.lin (n := 100000) (k := 192) (h := 64) X W := by
  funext i
  simp only [Host.dotGeneral]
  rw [Ideal.dotGeneral_apply, ← Equiv.sum_comp (contrEquiv1 dot_S100000x192_S192x64_S100000x64_1_0_0_1_n_n 192 rfl rfl).symm]
  unfold Cert.Gcn.lin
  refine Finset.sum_congr rfl fun k _ => ?_
  have hk := contrEquiv1_symm_val dot_S100000x192_S192x64_S100000x64_1_0_0_1_n_n 192 rfl rfl k
  have el : dot_S100000x192_S192x64_S100000x64_1_0_0_1_n_n.lhsIdx i ((contrEquiv1 dot_S100000x192_S192x64_S100000x64_1_0_0_1_n_n 192 rfl rfl).symm k) = ix2 (i 0) k := funext fun a => Fin.ext (by
    match a with
    | ⟨0, _⟩ => exact Read.lhs_main_v20_0 _ _
    | ⟨1, _⟩ => exact (Read.lhs_main_v20_1 _ _).trans hk)
  have er : dot_S100000x192_S192x64_S100000x64_1_0_0_1_n_n.rhsIdx i ((contrEquiv1 dot_S100000x192_S192x64_S100000x64_1_0_0_1_n_n 192 rfl rfl).symm k) = ix2 k (i 1) := funext fun a => Fin.ext (by
    match a with
    | ⟨0, _⟩ => exact (Read.rhs_main_v20_0 _ _).trans hk
    | ⟨1, _⟩ => exact Read.rhs_main_v20_1 _ _)
  rw [el, er]
  rfl

/-- A `dot_general` of a `[100000, 64]` by a `[64, 64]` array is rows times columns. -/
theorem dot64_lin (X : CF S100000x64) (W : CF S64x64) :
    Host.dotGeneral (F := Ideal) dot_S100000x64_S64x64_S100000x64_1_0_0_1_n_n none X W = Cert.Gcn.lin (n := 100000) (k := 64) (h := 64) X W := by
  funext i
  simp only [Host.dotGeneral]
  rw [Ideal.dotGeneral_apply, ← Equiv.sum_comp (contrEquiv1 dot_S100000x64_S64x64_S100000x64_1_0_0_1_n_n 64 rfl rfl).symm]
  unfold Cert.Gcn.lin
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k := funext fun a => Fin.ext (by
    match a with
    | ⟨0, _⟩ => exact Read.lhs_main_v75_0 _ _
    | ⟨1, _⟩ => exact (Read.lhs_main_v75_1 _ _).trans hk)
  have er : dot_S100000x64_S64x64_S100000x64_1_0_0_1_n_n.rhsIdx i ((contrEquiv1 dot_S100000x64_S64x64_S100000x64_1_0_0_1_n_n 64 rfl rfl).symm k) = ix2 k (i 1) := funext fun a => Fin.ext (by
    match a with
    | ⟨0, _⟩ => exact (Read.rhs_main_v75_0 _ _).trans hk
    | ⟨1, _⟩ => exact Read.rhs_main_v75_1 _ _)
  rw [el, er]
  rfl

/-- A `dot_general` of a `[100000, 64]` by a `[64, 32]` array is rows times columns. -/
theorem dot64x32_lin (X : CF S100000x64) (W : CF S64x32) :
    Host.dotGeneral (F := Ideal) dot_S100000x64_S64x32_S100000x32_1_0_0_1_n_n none X W = Cert.Gcn.lin (n := 100000) (k := 64) (h := 32) X W := by
  funext i
  simp only [Host.dotGeneral]
  rw [Ideal.dotGeneral_apply, ← Equiv.sum_comp (contrEquiv1 dot_S100000x64_S64x32_S100000x32_1_0_0_1_n_n 64 rfl rfl).symm]
  unfold Cert.Gcn.lin
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx i ((contrEquiv1 dot_S100000x64_S64x32_S100000x32_1_0_0_1_n_n 64 rfl rfl).symm k) = ix2 (i 0) k := funext fun a => Fin.ext (by
    match a with
    | ⟨0, _⟩ => exact Read.lhs_main_v185_0 _ _
    | ⟨1, _⟩ => exact (Read.lhs_main_v185_1 _ _).trans hk)
  have er : dot_S100000x64_S64x32_S100000x32_1_0_0_1_n_n.rhsIdx i ((contrEquiv1 dot_S100000x64_S64x32_S100000x32_1_0_0_1_n_n 64 rfl rfl).symm k) = ix2 k (i 1) := funext fun a => Fin.ext (by
    match a with
    | ⟨0, _⟩ => exact (Read.rhs_main_v185_0 _ _).trans hk
    | ⟨1, _⟩ => exact Read.rhs_main_v185_1 _ _)
  rw [el, er]
  rfl

/-- A `dot_general` of a `[100000, 32]` by a `[32, 1]` array is rows times columns. -/
theorem dot32x1_lin (X : CF S100000x32) (W : CF S32x1) :
    Host.dotGeneral (F := Ideal) dot_S100000x32_S32x1_S100000x1_1_0_0_1_n_n none X W = Cert.Gcn.lin (n := 100000) (k := 32) (h := 1) X W := by
  funext i
  simp only [Host.dotGeneral]
  rw [Ideal.dotGeneral_apply, ← Equiv.sum_comp (contrEquiv1 dot_S100000x32_S32x1_S100000x1_1_0_0_1_n_n 32 rfl rfl).symm]
  unfold Cert.Gcn.lin
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx i ((contrEquiv1 dot_S100000x32_S32x1_S100000x1_1_0_0_1_n_n 32 rfl rfl).symm k) = ix2 (i 0) k := funext fun a => Fin.ext (by
    match a with
    | ⟨0, _⟩ => exact Read.lhs_main_v190_0 _ _
    | ⟨1, _⟩ => exact (Read.lhs_main_v190_1 _ _).trans hk)
  have er : dot_S100000x32_S32x1_S100000x1_1_0_0_1_n_n.rhsIdx i ((contrEquiv1 dot_S100000x32_S32x1_S100000x1_1_0_0_1_n_n 32 rfl rfl).symm k) = ix2 k (i 1) := funext fun a => Fin.ext (by
    match a with
    | ⟨0, _⟩ => exact (Read.rhs_main_v190_0 _ _).trans hk
    | ⟨1, _⟩ => exact Read.rhs_main_v190_1 _ _)
  rw [el, er]
  rfl

/-! ### The bias under every row, the self-loop weight beside every column, and the zero of the clip -/

/-- A bias vector of length 64 laid under every row of a `[100000, 64]` array. -/
def bc64 (b : CF S64) : CF S100000x64 :=
  broadcastInDim S100000x64 ![0, 1] bcast_S1x64_S100000x64_0_1 (broadcastInDim S1x64 ![1] bcast_S64_S1x64_1 b)

theorem bc64_apply (b : CF S64) (i : S100000x64.Idx) : bc64 b i = b (ix1 (i 1)) := by
  refine (Read.val_main_v2_apply (F := Ideal) b i).trans ((Read.val_main_v1_apply (F := Ideal) b _).trans (congrArg b ?_))
  funext a; match a with | ⟨0, _⟩ => rfl

/-- A bias vector of length 32 laid under every row of a `[100000, 32]` array. -/
def bc32 (b : CF S32) : CF S100000x32 :=
  broadcastInDim S100000x32 ![0, 1] bcast_S1x32_S100000x32_0_1 (broadcastInDim S1x32 ![1] bcast_S32_S1x32_1 b)

theorem bc32_apply (b : CF S32) (i : S100000x32.Idx) : bc32 b i = b (ix1 (i 1)) := by
  refine (Read.val_main_v187_apply (F := Ideal) b i).trans ((Read.val_main_v186_apply (F := Ideal) b _).trans (congrArg b ?_))
  funext a; match a with | ⟨0, _⟩ => rfl

/-- A bias vector of length 1 laid under every row of a `[100000, 1]` array. -/
def bc1 (b : CF S1) : CF S100000x1 :=
  broadcastInDim S100000x1 ![0, 1] bcast_S1x1_S100000x1_0_1 (broadcastInDim S1x1 ![1] bcast_S1_S1x1_1 b)

theorem bc1_apply (b : CF S1) (i : S100000x1.Idx) : bc1 b i = b (ix1 (i 1)) := by
  refine (Read.val_main_v192_apply (F := Ideal) b i).trans ((Read.val_main_v191_apply (F := Ideal) b _).trans (congrArg b ?_))
  funext a
  match a with
  | ⟨0, _⟩ => exact Fin.ext (by have h := idx2_lt1 i; show (0 : Nat) = (i 1).val; omega)

/-- A column `[100000, 1]` repeated across the 64 columns. -/
def sl64 (d : CF S100000x1) : CF S100000x64 :=
  broadcastInDim S100000x64 ![0, 1] bcast_S100000x1_S100000x64_0_1 d

theorem sl64_apply (d : CF S100000x1) (i : S100000x64.Idx) : sl64 d i = d (ix2 (i 0) (0 : Fin 1)) := by
  unfold sl64
  exact broadcastInDim_apply _ bcast_S100000x1_S100000x64_0_1 d i (ix2 (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The `[100000, 64]` array of zeros a clip compares with. -/
def relu64 : CF S100000x64 :=
  broadcastInDim S100000x64 ![] bcast_S_S100000x64 (constant (F := Ideal) S_ .f32 0x00000000#32)

theorem relu64_apply (i : S100000x64.Idx) : relu64 i = Cert.Gcn.zero32 :=
  (Read.val_main_call0_v0_apply (F := Ideal) i).trans rfl

/-- The `[100000, 32]` array of zeros a clip compares with. -/
def relu32 : CF S100000x32 :=
  broadcastInDim S100000x32 ![] bcast_S_S100000x32 (constant (F := Ideal) S_ .f32 0x00000000#32)

theorem relu32_apply (i : S100000x32.Idx) : relu32 i = Cert.Gcn.zero32 :=
  (Read.val_main_call6_v0_apply (F := Ideal) i).trans rfl

/-- Product, bias and clip, 64 columns wide. -/
theorem dense64_eq {k : Nat} (X : Cert.Gcn.A2 100000 k) (W : Cert.Gcn.A2 k 64) (b : CF S64) :
    maximumf (addf (Cert.Gcn.lin X W : CF S100000x64) (bc64 b)) relu64 = Cert.Gcn.dense X W b := by
  funext i
  show FloatOps.maximumf (FloatOps.addf (Cert.Gcn.lin X W i) (bc64 b i)) (relu64 i) = _
  rw [bc64_apply, relu64_apply]; rfl

/-- Product, bias and clip, 32 columns wide. -/
theorem dense32_eq {k : Nat} (X : Cert.Gcn.A2 100000 k) (W : Cert.Gcn.A2 k 32) (b : CF S32) :
    maximumf (addf (Cert.Gcn.lin X W : CF S100000x32) (bc32 b)) relu32 = Cert.Gcn.dense X W b := by
  funext i
  show FloatOps.maximumf (FloatOps.addf (Cert.Gcn.lin X W i) (bc32 b i)) (relu32 i) = _
  rw [bc32_apply, relu32_apply]; rfl

/-- Product and bias, one column wide. -/
theorem affine1_eq {k : Nat} (X : Cert.Gcn.A2 100000 k) (W : Cert.Gcn.A2 k 1) (b : CF S1) :
    addf (Cert.Gcn.lin X W : CF S100000x1) (bc1 b) = Cert.Gcn.affine X W b := by
  funext i
  show FloatOps.addf (Cert.Gcn.lin X W i) (bc1 b i) = _
  rw [bc1_apply]; rfl

/-- Aggregated rows, the own row times the self-loop weight, the bias and the clip. -/
theorem comb_eq (A Hm : CF S100000x64) (d : CF S100000x1) (b : CF S64) :
    maximumf (addf (addf A (mulf Hm (sl64 d))) (bc64 b)) relu64 = Cert.Gcn.comb (n := 100000) (h := 64) A Hm d b := by
  funext i
  show FloatOps.maximumf (FloatOps.addf (FloatOps.addf (A i) (FloatOps.mulf (Hm i) (sl64 d i))) (bc64 b i)) (relu64 i) = _
  rw [sl64_apply, bc64_apply, relu64_apply]; rfl

/-! ### The three encoders side by side -/

/-- Three `[100000, 64]` arrays laid side by side, read at an index: the piece is chosen by the column. -/
theorem cat_apply (A B C : CF S100000x64) (i : S100000x192.Idx) :
    concatenate S100000x192 1 [⟨S100000x64, A⟩, ⟨S100000x64, B⟩, ⟨S100000x64, C⟩] concatenates_S100000x64_S100000x64_S100000x64_S100000x192_d1 i
      = if h0 : (i 1).val < 64 then A (ix2 (i 0) (⟨(i 1).val, h0⟩ : Fin 64))
        else if h1 : (i 1).val < 128 then B (ix2 (i 0) (⟨(i 1).val - 64, by omega⟩ : Fin 64))
        else C (ix2 (i 0) (⟨(i 1).val - 128, by have := idx2_lt1 i; omega⟩ : Fin 64)) := by
  have hlt := idx2_lt1 i
  by_cases h0 : (i 1).val < 64
  · rw [dif_pos h0]
    exact concatenate_apply_piece 1 _ _ i 0 (by show (0 : Nat) < 3; omega) S100000x64 A rfl rfl 0 rfl (ix2 (i 0) (⟨(i 1).val, h0⟩ : Fin 64))
      (fun b hb => match b with | ⟨0, _⟩ => rfl | ⟨1, _⟩ => absurd rfl hb)
      (by show 0 + (i 1).val = (i 1).val; omega)
  · rw [dif_neg h0]
    by_cases h1 : (i 1).val < 128
    · rw [dif_pos h1]
      exact concatenate_apply_piece 1 _ _ i 1 (by show (1 : Nat) < 3; omega) S100000x64 B rfl rfl 64 rfl (ix2 (i 0) (⟨(i 1).val - 64, by omega⟩ : Fin 64))
        (fun b hb => match b with | ⟨0, _⟩ => rfl | ⟨1, _⟩ => absurd rfl hb)
        (by show 64 + ((i 1).val - 64) = (i 1).val; omega)
    · rw [dif_neg h1]
      exact concatenate_apply_piece 1 _ _ i 2 (by show (2 : Nat) < 3; omega) S100000x64 C rfl rfl 128 rfl (ix2 (i 0) (⟨(i 1).val - 128, by omega⟩ : Fin 64))
        (fun b hb => match b with | ⟨0, _⟩ => rfl | ⟨1, _⟩ => absurd rfl hb)
        (by show 128 + ((i 1).val - 128) = (i 1).val; omega)

section stages

/-- The edge list: two rows of 3200000 node numbers. -/
abbrev CI3 := (⟨S2x3200000, .i32⟩ : BufTy).Contents (Elt Ideal)

variable (x0 : CF S100000x8) (x1 : CF S100000x12) (x2 : CF S100000x10) (x3 : CI3) (x4 : CF S8x64) (x5 : CF S64) (x6 : CF S12x64) (x7 : CF S64) (x8 : CF S10x64) (x9 : CF S64) (x10 : CF S192x64) (x11 : CF S64) (x12 : CF S64x64) (x13 : CF S64) (x14 : CF S64x64) (x15 : CF S64) (x16 : CF S64x32) (x17 : CF S32) (x18 : CF S32x1) (x19 : CF S1)

theorem enc_f : Read.val_main_v4 (F := Ideal) x0 x4 x5 = Cert.Gcn.dense (n := 100000) (k := 8) (h := 64) x0 x4 x5 := by
  have h : Read.val_main_v4 (F := Ideal) x0 x4 x5
      = maximumf (addf (Host.dotGeneral (F := Ideal) dot_S100000x8_S8x64_S100000x64_1_0_0_1_n_n none x0 x4) (bc64 x5)) relu64 := rfl
  rw [h, dot8_lin, dense64_eq]

theorem enc_w : Read.val_main_v9 (F := Ideal) x1 x6 x7 = Cert.Gcn.dense (n := 100000) (k := 12) (h := 64) x1 x6 x7 := by
  have h : Read.val_main_v9 (F := Ideal) x1 x6 x7
      = maximumf (addf (Host.dotGeneral (F := Ideal) dot_S100000x12_S12x64_S100000x64_1_0_0_1_n_n none x1 x6) (bc64 x7)) relu64 := rfl
  rw [h, dot12_lin, dense64_eq]

theorem enc_t : Read.val_main_v14 (F := Ideal) x2 x8 x9 = Cert.Gcn.dense (n := 100000) (k := 10) (h := 64) x2 x8 x9 := by
  have h : Read.val_main_v14 (F := Ideal) x2 x8 x9
      = maximumf (addf (Host.dotGeneral (F := Ideal) dot_S100000x10_S10x64_S100000x64_1_0_0_1_n_n none x2 x8) (bc64 x9)) relu64 := rfl
  rw [h, dot10_lin, dense64_eq]

/-- The concatenation of the three encoders is `enc`. -/
theorem enc_eq : Read.val_main_v15 (F := Ideal) x0 x1 x2 x4 x5 x6 x7 x8 x9 = Cert.Gcn.enc x0 x1 x2 x4 x5 x6 x7 x8 x9 := by
  unfold Read.val_main_v15
  rw [enc_f, enc_w, enc_t]
  funext i
  rw [cat_apply]
  rfl

end stages

/-! ### The graph side, kept closed, and the three layers -/

/-- The self-loop weight of every node: the column of `dinv * dinv`, computed from the edge list. -/
def d2R (a3 : CI3) : Cert.Gcn.A2 100000 1 := Read.val_main_v67 (F := Ideal) a3

/-- The aggregation over the graph of a row matrix `Hm`: the rows of `Hm` gathered at the edges' sources, scaled
    by the edges' weights and added up at the edges' targets. -/
def aggR (a3 : CI3) (Hm : Cert.Gcn.A2 100000 64) : Cert.Gcn.A2 100000 64 :=
  Host.scatterAdd (F := Ideal) (φ := .f32) scatter_S100000x64_S3200000x1_S3200000x64_1_0_0_1 (Read.val_main_v48 (F := Ideal)) (Read.val_main_v64 (F := Ideal) a3)
    (mulf (F := Ideal) (φ := .f32) (Host.gather gather_S100000x64_S3200000x1_S3200000x64_1_0_n_n_0_1_164 (Hm : CF S100000x64) (Read.val_main_v54 (F := Ideal) a3)) (Read.val_main_v57 (F := Ideal) a3))

section layers

variable (x0 : CF S100000x8) (x1 : CF S100000x12) (x2 : CF S100000x10) (x3 : CI3) (x4 : CF S8x64) (x5 : CF S64) (x6 : CF S12x64) (x7 : CF S64) (x8 : CF S10x64) (x9 : CF S64) (x10 : CF S192x64) (x11 : CF S64) (x12 : CF S64x64) (x13 : CF S64) (x14 : CF S64x64) (x15 : CF S64) (x16 : CF S64x32) (x17 : CF S32) (x18 : CF S32x1) (x19 : CF S1)

/-- The first layer's product. -/
theorem h1_eq : Read.val_main_v20 (F := Ideal) x0 x1 x2 x4 x5 x6 x7 x8 x9 x10 = Cert.Gcn.lin (Cert.Gcn.enc x0 x1 x2 x4 x5 x6 x7 x8 x9) x10 := by
  unfold Read.val_main_v20
  rw [enc_eq, dot192_lin]

/-- The first layer. -/
theorem x1_eq : Read.val_main_v74 (F := Ideal) x0 x1 x2 x3 x4 x5 x6 x7 x8 x9 x10 x11 = Cert.Gcn.layer (aggR x3) (d2R x3) (Cert.Gcn.enc x0 x1 x2 x4 x5 x6 x7 x8 x9) x10 x11 := by
  have h : Read.val_main_v74 (F := Ideal) x0 x1 x2 x3 x4 x5 x6 x7 x8 x9 x10 x11
      = maximumf (addf (addf (aggR x3 (Read.val_main_v20 (F := Ideal) x0 x1 x2 x4 x5 x6 x7 x8 x9 x10)) (mulf (Read.val_main_v20 (F := Ideal) x0 x1 x2 x4 x5 x6 x7 x8 x9 x10) (sl64 (d2R x3)))) (bc64 x11)) relu64 := rfl
  rw [h, comb_eq, h1_eq]
  rfl

/-- The second layer's product. -/
theorem h2_eq : Read.val_main_v75 (F := Ideal) x0 x1 x2 x3 x4 x5 x6 x7 x8 x9 x10 x11 x12 = Cert.Gcn.lin (Cert.Gcn.layer (aggR x3) (d2R x3) (Cert.Gcn.enc x0 x1 x2 x4 x5 x6 x7 x8 x9) x10 x11) x12 := by
  unfold Read.val_main_v75
  rw [x1_eq, dot64_lin]

/-- The second layer: the reference computes the degrees, the edge weights and the normalised node numbers again, by
    the same operations on the same edge list. -/
theorem x2_eq : Read.val_main_v129 (F := Ideal) x0 x1 x2 x3 x4 x5 x6 x7 x8 x9 x10 x11 x12 x13 = Cert.Gcn.layer (aggR x3) (d2R x3) (Cert.Gcn.layer (aggR x3) (d2R x3) (Cert.Gcn.enc x0 x1 x2 x4 x5 x6 x7 x8 x9) x10 x11) x12 x13 := by
  have h : Read.val_main_v129 (F := Ideal) x0 x1 x2 x3 x4 x5 x6 x7 x8 x9 x10 x11 x12 x13
      = maximumf (addf (addf (aggR x3 (Read.val_main_v75 (F := Ideal) x0 x1 x2 x3 x4 x5 x6 x7 x8 x9 x10 x11 x12)) (mulf (Read.val_main_v75 (F := Ideal) x0 x1 x2 x3 x4 x5 x6 x7 x8 x9 x10 x11 x12) (sl64 (d2R x3)))) (bc64 x13)) relu64 := rfl
  rw [h, comb_eq, h2_eq]
  rfl

/-- The third layer's product. -/
theorem h3_eq : Read.val_main_v130 (F := Ideal) x0 x1 x2 x3 x4 x5 x6 x7 x8 x9 x10 x11 x12 x13 x14 = Cert.Gcn.lin (Cert.Gcn.layer (aggR x3) (d2R x3) (Cert.Gcn.layer (aggR x3) (d2R x3) (Cert.Gcn.enc x0 x1 x2 x4 x5 x6 x7 x8 x9) x10 x11) x12 x13) x14 := by
  unfold Read.val_main_v130
  rw [x2_eq, dot64_lin]

/-- The third layer. -/
theorem x3_eq : Read.val_main_v184 (F := Ideal) x0 x1 x2 x3 x4 x5 x6 x7 x8 x9 x10 x11 x12 x13 x14 x15 = Cert.Gcn.layer (aggR x3) (d2R x3) (Cert.Gcn.layer (aggR x3) (d2R x3) (Cert.Gcn.layer (aggR x3) (d2R x3) (Cert.Gcn.enc x0 x1 x2 x4 x5 x6 x7 x8 x9) x10 x11) x12 x13) x14 x15 := by
  have h : Read.val_main_v184 (F := Ideal) x0 x1 x2 x3 x4 x5 x6 x7 x8 x9 x10 x11 x12 x13 x14 x15
      = maximumf (addf (addf (aggR x3 (Read.val_main_v130 (F := Ideal) x0 x1 x2 x3 x4 x5 x6 x7 x8 x9 x10 x11 x12 x13 x14)) (mulf (Read.val_main_v130 (F := Ideal) x0 x1 x2 x3 x4 x5 x6 x7 x8 x9 x10 x11 x12 x13 x14) (sl64 (d2R x3)))) (bc64 x15)) relu64 := rfl
  rw [h, comb_eq, h3_eq]
  rfl

/-- The head's hidden layer. -/
theorem head1_eq : Read.val_main_v189 (F := Ideal) x0 x1 x2 x3 x4 x5 x6 x7 x8 x9 x10 x11 x12 x13 x14 x15 x16 x17 = Cert.Gcn.dense (Cert.Gcn.layer (aggR x3) (d2R x3) (Cert.Gcn.layer (aggR x3) (d2R x3) (Cert.Gcn.layer (aggR x3) (d2R x3) (Cert.Gcn.enc x0 x1 x2 x4 x5 x6 x7 x8 x9) x10 x11) x12 x13) x14 x15) x16 x17 := by
  have h : Read.val_main_v189 (F := Ideal) x0 x1 x2 x3 x4 x5 x6 x7 x8 x9 x10 x11 x12 x13 x14 x15 x16 x17
      = maximumf (addf (Host.dotGeneral (F := Ideal) dot_S100000x64_S64x32_S100000x32_1_0_0_1_n_n none (Read.val_main_v184 (F := Ideal) x0 x1 x2 x3 x4 x5 x6 x7 x8 x9 x10 x11 x12 x13 x14 x15) x16) (bc32 x17)) relu32 := rfl
  rw [h, x3_eq, dot64x32_lin, dense32_eq]

/-- The reference's result is the network. -/
theorem ref_val : Read.val_main_v193 (F := Ideal) x0 x1 x2 x3 x4 x5 x6 x7 x8 x9 x10 x11 x12 x13 x14 x15 x16 x17 x18 x19
    = Cert.Gcn.net (aggR x3) (d2R x3) x0 x1 x2 x4 x5 x6 x7 x8 x9 x10 x11 x12 x13 x14 x15 x16 x17 x18 x19 := by
  have h : Read.val_main_v193 (F := Ideal) x0 x1 x2 x3 x4 x5 x6 x7 x8 x9 x10 x11 x12 x13 x14 x15 x16 x17 x18 x19
      = addf (Host.dotGeneral (F := Ideal) dot_S100000x32_S32x1_S100000x1_1_0_0_1_n_n none (Read.val_main_v189 (F := Ideal) x0 x1 x2 x3 x4 x5 x6 x7 x8 x9 x10 x11 x12 x13 x14 x15 x16 x17) x18) (bc1 x19) := rfl
  rw [h, head1_eq, dot32x1_lin, affine1_eq]
  rfl

end layers

/-- The reference program's result, read off its run, is the network on the program's arguments, with the graph's
    aggregation and self-loop weights computed from the edge list. -/
theorem ref_net (m : (ℓ : Loc nD τ sig) → Buf (Elt Ideal) ℓ) (c : Dev nD) :
    Cert.ReferenceIdeal.Value.res_main_v193 (F := Ideal) m c
      = Cert.Gcn.net (aggR (m ((c.tc : Thread nD τ).loc main_arg3))) (d2R (m ((c.tc : Thread nD τ).loc main_arg3)))
          (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [Read.val_main_v193_eq]
  exact ref_val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

end Cert.ReferenceIdeal.RefNet

end
-- ==== Proof.GraphEq.lean ====
/-
  The two programs compute the same graph terms from the edge list.

  Both programs split the edge list into its row of sources and its row of targets, raise every negative node number
  by the node count, count the incoming edges of every node, take one over the square root of (that count plus one),
  and from it form the self-loop weight of every node (the square, as a column) and the weight of every edge (the
  factor at the source times the factor at the target, as a column); a layer's aggregation gathers rows at the
  sources, scales them by the edge weights and adds them up at the targets.  The operations are the same one by
  one, except that one program re-lays the two weight vectors as columns by a reshape and the other by a broadcast
  along axis 0.  A vector of length `n` gives the same `[n, 1]` column either way (`col_eq`), so the self-loop
  weights (`d2_eq`) and the aggregations (`agg_eq`) agree as functions of the edge list.
-/
import proofs.«172681_j28278064677000_2_alg».proof.Proof.KHost
import proofs.«172681_j28278064677000_2_alg».proof.Proof.RefNet
import proofs.«172681_j28278064677000_2_alg».proof.Proof.LibBroadcast

noncomputable section

namespace Cert.Proof.GraphEq

open Idealize.ShloMosaic Idealize.ShloMosaic.ValueIdx

/-- A vector re-laid as a one-column matrix by a reshape and by a broadcast along axis 0 is the same column:
    entry `(p, 0)` is entry `p` of the vector either way. -/
theorem col_eq {α : Type} {n : Nat} (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ (![0] : Fin 1 → Fin 2)) :
    shapeCast (⟨2, ![n, 1]⟩ : Shape) v h = broadcastInDim (⟨2, ![n, 1]⟩ : Shape) (![0] : Fin 1 → Fin 2) h' v := by
  funext j
  obtain ⟨p, q, rfl⟩ : ∃ (p : Fin n) (q : Fin 1), j = ix2 p q := ⟨j 0, j 1, eq_ix2 j⟩
  obtain rfl : q = 0 := Subsingleton.elim _ _
  rw [Cert.Gcn.shapeCast_col_apply]
  refine (broadcastInDim_apply _ h' v (ix2 p (0 : Fin 1)) (ix1 p) (fun a => ?_)).symm
  match a with
  | ⟨0, _⟩ =>
    show p.val = if n = 1 then 0 else p.val
    split
    · have := p.isLt; omega
    · rfl

/-- The edge list: two rows of 3200000 node numbers. -/
abbrev Edges := IVec (⟨2, ![2, 3200000]⟩ : Shape) 32

set_option maxHeartbeats 400000 in
/-- Both programs compute the per-node factor by the same operations on the same edge list. -/
theorem dinv_eq (a3 : Edges) : Cert.KernelIdeal.KHost.dinvK a3 = Cert.ReferenceIdeal.Read.val_main_v32 (F := Ideal) a3 := rfl

set_option maxHeartbeats 400000 in
/-- The self-loop weights. -/
theorem d2_eq (a3 : Edges) : Cert.KernelIdeal.KHost.d2K a3 = Cert.ReferenceIdeal.RefNet.d2R a3 := by
  unfold Cert.KernelIdeal.KHost.d2K Cert.ReferenceIdeal.RefNet.d2R Cert.ReferenceIdeal.Read.val_main_v67 Cert.ReferenceIdeal.Read.val_main_v66
  rw [dinv_eq]
  exact col_eq _ _ _

set_option maxHeartbeats 400000 in
/-- The weight of every edge, as a column. -/
theorem normK_eq (a3 : Edges) : Cert.KernelIdeal.KHost.normK a3 = Cert.ReferenceIdeal.Read.val_main_v56 (F := Ideal) a3 := by
  unfold Cert.KernelIdeal.KHost.normK Cert.ReferenceIdeal.Read.val_main_v56
  exact (col_eq _ _ Cert.ReferenceIdeal.Facts₀.bcast_S3200000_S3200000x1_0).trans rfl

set_option maxHeartbeats 400000 in
/-- The aggregation over the graph. -/
theorem agg_eq (a3 : Edges) : Cert.KernelIdeal.KHost.aggK a3 = Cert.ReferenceIdeal.RefNet.aggR a3 := by
  funext Hm
  unfold Cert.KernelIdeal.KHost.aggK Cert.ReferenceIdeal.RefNet.aggR Cert.ReferenceIdeal.Read.val_main_v57
  rw [normK_eq]
  rfl

end Cert.Proof.GraphEq

end
-- ==== Proof.lean ====
/-
  The certificate of the graph network kernel against its reference.

  Both programs are read at the extended reals, where a change of float format is the identity and a blocked matrix
  product and the host's product are the same plain sum.  The network is written once as a function of the nineteen
  float arguments, with the graph's aggregation and self-loop weights as parameters (Proof/Spec.lean).  The Pallas
  program, eight blocked kernels among host operations, computes it: each kernel's output array is the encoder, a
  product, a combination or the head of its input arrays (Proof/RegEnc, RegLin, RegComb, RegMlp), the host stretches
  between them are read buffer by buffer (Proof/KHost), and the pieces compose (Proof/KNet) on the run with the result
  named (Proof/KRun).  The reference's generated run computes it as well (Proof/RefNet).  The two programs' graph terms
  differ only in how a vector is re-laid as a column — a reshape against a broadcast — and are the same functions
  (Proof/GraphEq).  No law of arithmetic beyond these readings is used, so the finiteness of the inputs is never opened.
  The frames of the two Pallas programs are the generated ones; the reference's frame is its generated run with the
  result dropped; the idealization rewrote nothing, so there is nothing to preserve.
-/
import proofs.«172681_j28278064677000_2_alg».proof.Defs
import proofs.«172681_j28278064677000_2_alg».proof.Proof.Gen.Kernel
import proofs.«172681_j28278064677000_2_alg».proof.Proof.Gen.Kernel.Skeleton
import proofs.«172681_j28278064677000_2_alg».proof.Proof.Gen.Kernel.Launch
import proofs.«172681_j28278064677000_2_alg».proof.Proof.Gen.Kernel.Points
import proofs.«172681_j28278064677000_2_alg».proof.Proof.Gen.Kernel.Frame
import proofs.«172681_j28278064677000_2_alg».proof.Proof.Gen.KernelIdeal
import proofs.«172681_j28278064677000_2_alg».proof.Proof.Gen.KernelIdeal.Skeleton
import proofs.«172681_j28278064677000_2_alg».proof.Proof.Gen.KernelIdeal.Launch
import proofs.«172681_j28278064677000_2_alg».proof.Proof.Gen.KernelIdeal.Points
import proofs.«172681_j28278064677000_2_alg».proof.Proof.Gen.KernelIdeal.Frame
import proofs.«172681_j28278064677000_2_alg».proof.Proof.Gen.ReferenceIdeal
import proofs.«172681_j28278064677000_2_alg».proof.Proof.Gen.Pre_finite_inputs
import proofs.«172681_j28278064677000_2_alg».proof.Proof.Gen.ReferenceIdeal.Run
import proofs.«172681_j28278064677000_2_alg».proof.Proof.Gen.ReferenceIdeal.Read
import proofs.«172681_j28278064677000_2_alg».proof.Proof.KRun
import proofs.«172681_j28278064677000_2_alg».proof.Proof.KNet
import proofs.«172681_j28278064677000_2_alg».proof.Proof.RefNet
import proofs.«172681_j28278064677000_2_alg».proof.Proof.GraphEq
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the network of the arguments, with the same graph terms. -/
theorem algebraic : Cert.algebraic_KernelIdeal_ReferenceIdeal := by
  intro m ρ m' ρ' _ hagree
  refine ⟨fun c => Cert.Gcn.net (Cert.KernelIdeal.KHost.aggK (m ((c.tc : Thread Cert.KernelIdeal.nD Cert.KernelIdeal.τ).loc Cert.KernelIdeal.main_arg3))) (Cert.KernelIdeal.KHost.d2K (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.KNet.kernel_net m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefNet.ref_net m' c]
    obtain ⟨e0, e1, e2, e3, e4, e5, e6, e7, e8, e9, e10, e11, e12, e13, e14, e15, e16, e17, e18, e19⟩ := hagree c
    rw [e0, e1, e2, e3, e4, e5, e6, e7, e8, e9, e10, e11, e12, e13, e14, e15, e16, e17, e18, e19,
      ← Cert.Proof.GraphEq.agg_eq, ← Cert.Proof.GraphEq.d2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
